-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3584 : Shape := ⟨2, ![4096, 3584]⟩
abbrev S37888x3584 : Shape := ⟨2, ![37888, 3584]⟩
abbrev S37888x1 : Shape := ⟨2, ![37888, 1]⟩
abbrev S3584x18944 : Shape := ⟨2, ![3584, 18944]⟩
abbrev S3584x1 : Shape := ⟨2, ![3584, 1]⟩
abbrev S_ : Shape := ⟨0, ![]⟩

class Facts : Prop where
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S37888x3584 : S_.BroadcastsInDim S37888x3584 (![] : Fin 0 → Fin S37888x3584.rank)
  reducesTo_S37888x3584_S_d0_1 : S37888x3584.ReducesTo [0, 1] S_
  bcast_S_S37888x1 : S_.BroadcastsInDim S37888x1 (![] : Fin 0 → Fin S37888x1.rank)
  reducesTo_S37888x1_S_d0_1 : S37888x1.ReducesTo [0, 1] S_
  bcast_S_S3584x18944 : S_.BroadcastsInDim S3584x18944 (![] : Fin 0 → Fin S3584x18944.rank)
  reducesTo_S3584x18944_S_d0_1 : S3584x18944.ReducesTo [0, 1] S_
  bcast_S_S3584x1 : S_.BroadcastsInDim S3584x1 (![] : Fin 0 → Fin S3584x1.rank)
  reducesTo_S3584x1_S_d0_1 : S3584x1.ReducesTo [0, 1] S_

variable [Facts]

def fn_part1 {F : FTy → Type} [FloatOps F] (main_arg4 : FVec F S3584x1 .f32) (main_v13 : IVec S_ 1) (main_v16 : IVec S3584x18944 1) : IVec S_ 1 :=
  let main_c_5 : IVec S_ 1 := constantI S_ 1 1#1
  let main_v17 : IVec S_ 1 := (fun x v => Host.reduce IntOp.andi x v reducesTo_S3584x18944_S_d0_1 h_S_) main_v16 main_c_5
  let main_v18 : IVec S_ 1 := andi main_v13 main_v17
  let main_v19 : FVec F S3584x1 .f32 := Host.absf main_arg4
  let main_cst_6 : FVec F S_ .f32 := constant S_ .f32 0x7F800000#32
  let main_v20 : FVec F S3584x1 .f32 := broadcastInDim S3584x1 ![] bcast_S_S3584x1 main_cst_6
  let main_v21 : IVec S3584x1 1 := cmpf .olt main_v19 main_v20
  let main_c_7 : IVec S_ 1 := constantI S_ 1 1#1
  let main_v22 : IVec S_ 1 := (fun x v => Host.reduce IntOp.andi x v reducesTo_S3584x1_S_d0_1 h_S_) main_v21 main_c_7
  let main_v23 : IVec S_ 1 := andi main_v18 main_v22
  main_v23

def fn {F : FTy → Type} [FloatOps F] (main_arg0 : FVec F S4096x3584 .f32) (main_arg1 : FVec F S37888x3584 .f32) (main_arg2 : FVec F S37888x1 .f32) (main_arg3 : FVec F S3584x18944 .f32) (main_arg4 : FVec F S3584x1 .f32) : IVec S_ 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_c : IVec S_ 1 := constantI S_ 1 1#1
  let main_v3 : IVec S_ 1 := (fun x v => Host.reduce IntOp.andi x v reducesTo_S4096x3584_S_d0_1 h_S_) main_v2 main_c
  let main_v4 : FVec F S37888x3584 .f32 := Host.absf main_arg1
  let main_cst_0 : FVec F S_ .f32 := constant S_ .f32 0x7F800000#32
  let main_v5 : FVec F S37888x3584 .f32 := broadcastInDim S37888x3584 ![] bcast_S_S37888x3584 main_cst_0
  let main_v6 : IVec S37888x3584 1 := cmpf .olt main_v4 main_v5
  let main_c_1 : IVec S_ 1 := constantI S_ 1 1#1
  let main_v7 : IVec S_ 1 := (fun x v => Host.reduce IntOp.andi x v reducesTo_S37888x3584_S_d0_1 h_S_) main_v6 main_c_1
  let main_v8 : IVec S_ 1 := andi main_v3 main_v7
  let main_v9 : FVec F S37888x1 .f32 := Host.absf main_arg2
  let main_cst_2 : FVec F S_ .f32 := constant S_ .f32 0x7F800000#32
  let main_v10 : FVec F S37888x1 .f32 := broadcastInDim S37888x1 ![] bcast_S_S37888x1 main_cst_2
  let main_v11 : IVec S37888x1 1 := cmpf .olt main_v9 main_v10
  let main_c_3 : IVec S_ 1 := constantI S_ 1 1#1
  let main_v12 : IVec S_ 1 := (fun x v => Host.reduce IntOp.andi x v reducesTo_S37888x1_S_d0_1 h_S_) main_v11 main_c_3
  let main_v13 : IVec S_ 1 := andi main_v8 main_v12
  let main_v14 : FVec F S3584x18944 .f32 := Host.absf main_arg3
  let main_cst_4 : FVec F S_ .f32 := constant S_ .f32 0x7F800000#32
  let main_v15 : FVec F S3584x18944 .f32 := broadcastInDim S3584x18944 ![] bcast_S_S3584x18944 main_cst_4
  let main_v16 : IVec S3584x18944 1 := cmpf .olt main_v14 main_v15
  fn_part1 (F := F) main_arg4 main_v13 main_v16
-- ==== Kernel.lean ====
abbrev S4096x3584 : Shape := ⟨2, ![4096, 3584]⟩
abbrev S37888x3584 : Shape := ⟨2, ![37888, 3584]⟩
abbrev S37888x1 : Shape := ⟨2, ![37888, 1]⟩
abbrev S3584x18944 : Shape := ⟨2, ![3584, 18944]⟩
abbrev S3584x1 : Shape := ⟨2, ![3584, 1]⟩
abbrev S1x37888 : Shape := ⟨2, ![1, 37888]⟩
abbrev S1x3584 : Shape := ⟨2, ![1, 3584]⟩
abbrev S4096x18944 : Shape := ⟨2, ![4096, 18944]⟩
abbrev S4096x256 : Shape := ⟨2, ![4096, 256]⟩
abbrev S512x256 : Shape := ⟨2, ![512, 256]⟩
abbrev S1x512 : Shape := ⟨2, ![1, 512]⟩
abbrev S4096x512 : Shape := ⟨2, ![4096, 512]⟩
abbrev S512x512 : Shape := ⟨2, ![512, 512]⟩

abbrev nBuf : Space → Nat
  | .hbm => 9
  | .vmem => 23
  | .smem => 0
  | _ => 0

abbrev bufTy : (tb : Table) → Fin (tcTables nBuf tb) → BufTy
  | .hbm, ⟨0, _⟩ => ⟨S4096x3584, .f32⟩
  | .hbm, ⟨1, _⟩ => ⟨S37888x3584, .f32⟩
  | .hbm, ⟨2, _⟩ => ⟨S37888x1, .f32⟩
  | .hbm, ⟨3, _⟩ => ⟨S3584x18944, .f32⟩
  | .hbm, ⟨4, _⟩ => ⟨S3584x1, .f32⟩
  | .hbm, ⟨5, _⟩ => ⟨S1x37888, .f32⟩
  | .hbm, ⟨6, _⟩ => ⟨S1x3584, .f32⟩
  | .hbm, ⟨7, _⟩ => ⟨S4096x18944, .bf16⟩
  | .hbm, ⟨8, _⟩ => ⟨S4096x3584, .f32⟩
  | .local _ .vmem, ⟨0, _⟩ => ⟨S4096x256, .f32⟩
  | .local _ .vmem, ⟨1, _⟩ => ⟨S4096x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S4096x512, .bf16⟩
  | .local _ .vmem, ⟨11, _⟩ => ⟨S4096x512, .bf16⟩
  | .local _ .vmem, ⟨12, _⟩ => ⟨S4096x512, .f32⟩
  | .local _ .vmem, ⟨13, _⟩ => ⟨S4096x512, .f32⟩
  | .local _ .vmem, ⟨14, _⟩ => ⟨S4096x512, .bf16⟩
  | .local _ .vmem, ⟨15, _⟩ => ⟨S4096x512, .bf16⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S1x512, .f32⟩
  | .local _ .vmem, ⟨20, _⟩ => ⟨S4096x512, .f32⟩
  | .local _ .vmem, ⟨21, _⟩ => ⟨S4096x512, .f32⟩
  | .local _ .vmem, ⟨22, _⟩ => ⟨S4096x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![37, 14], ![false, false]⟩

def k0_cond2 (i : grid0.Coords) : BitVec 1 :=
  let arg1 : BitVec 32 := BitVec.ofNat 32 (i 1).val
  let c13_i32 : BitVec 32 := 13#32
  let v21 : BitVec 1 := Scalar.cmpi .eq arg1 c13_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![7, 37], ![false, false]⟩

def k1_cond2 (i : grid1.Coords) : BitVec 1 :=
  let arg1 : BitVec 32 := BitVec.ofNat 32 (i 1).val
  let c36_i32 : BitVec 32 := 36#32
  let v13 : BitVec 1 := Scalar.cmpi .eq arg1 c36_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S37888x1_S1x37888_1_0 : S37888x1.Transposes [1, 0] S1x37888
  transposes_S3584x1_S1x3584_1_0 : S3584x1.Transposes [1, 0] S1x3584
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  packedbf16_S4096x512_S4096x512_0_0 : (Rect.unit (s := S4096x512) ![0, 0] S4096x512.size inb_S4096x512_S4096x512_0_0).PackedRows (EltTy.packing .bf16)
  inb_S512x512_S512x512_0_0 : ∀ a, (![0, 0] : Fin 2 → Nat) a + S512x512.size a ≤ S512x512.size a
  h_S512x512 : 0 < S512x512.numel
  dot_S4096x256_S512x256_S4096x512_1_1_0_0_n_n_wf : DotDims.WF S4096x256 S512x256 S4096x512 [1] [1] [0] [0] [] []
  dot_S4096x512_S512x512_S4096x512_1_1_0_0_n_n_wf : DotDims.WF S4096x512 S512x512 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x3584.size a
  hwx0_0 : ∀ i : grid0.Coords, EltTy.bits .f32 = 32 ∨ (Rect.block (s := S4096x3584) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S37888x3584.size a
  hwx0_1 : ∀ i : grid0.Coords, EltTy.bits .f32 = 32 ∨ (Rect.block (s := S37888x3584) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S37888x3584.size a
  hwx0_2 : ∀ i : grid0.Coords, EltTy.bits .f32 = 32 ∨ (Rect.block (s := S37888x3584) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x37888.size a
  hwx0_3 : ∀ i : grid0.Coords, EltTy.bits .f32 = 32 ∨ (Rect.block (s := S1x37888) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x37888.size a
  hwx0_4 : ∀ i : grid0.Coords, EltTy.bits .f32 = 32 ∨ (Rect.block (s := S1x37888) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S4096x18944.size a
  hwx0_5 : ∀ i : grid0.Coords, EltTy.bits .bf16 = 32 ∨ (Rect.block (s := S4096x18944) S4096x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x18944.size a
  hwx1_0 : ∀ i : grid1.Coords, EltTy.bits .bf16 = 32 ∨ (Rect.block (s := S4096x18944) S4096x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S3584x18944.size a
  hwx1_1 : ∀ i : grid1.Coords, EltTy.bits .f32 = 32 ∨ (Rect.block (s := S3584x18944) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x3584.size a
  hwx1_2 : ∀ i : grid1.Coords, EltTy.bits .f32 = 32 ∨ (Rect.block (s := S1x3584) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x3584.size a
  hwx1_3 : ∀ i : grid1.Coords, EltTy.bits .f32 = 32 ∨ (Rect.block (s := S4096x3584) S4096x512.size (cc1_transform_3 i) (hinb1_3 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf
def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4096x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v2) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x3584 : Shape := ⟨2, ![4096, 3584]⟩
abbrev S37888x3584 : Shape := ⟨2, ![37888, 3584]⟩
abbrev S37888x1 : Shape := ⟨2, ![37888, 1]⟩
abbrev S3584x18944 : Shape := ⟨2, ![3584, 18944]⟩
abbrev S3584x1 : Shape := ⟨2, ![3584, 1]⟩
abbrev S4096x37888 : Shape := ⟨2, ![4096, 37888]⟩
abbrev S4096x18944 : Shape := ⟨2, ![4096, 18944]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S37888x3584, .f32⟩
  | .hbm, ⟨2, _⟩ => ⟨S37888x1, .f32⟩
  | .hbm, ⟨3, _⟩ => ⟨S3584x18944, .f32⟩
  | .hbm, ⟨4, _⟩ => ⟨S3584x1, .f32⟩
  | .hbm, ⟨5, _⟩ => ⟨S37888x3584, .f32⟩
  | .hbm, ⟨6, _⟩ => ⟨S37888x3584, .f32⟩
  | .hbm, ⟨7, _⟩ => ⟨S4096x37888, .f32⟩
  | .hbm, ⟨8, _⟩ => ⟨S4096x18944, .f32⟩
  | .hbm, ⟨9, _⟩ => ⟨S4096x18944, .f32⟩
  | .hbm, ⟨10, _⟩ => ⟨S4096x18944, .f32⟩
  | .hbm, ⟨11, _⟩ => ⟨S4096x18944, .f32⟩
  | .hbm, ⟨12, _⟩ => ⟨S_, .f32⟩
  | .hbm, ⟨13, _⟩ => ⟨S4096x18944, .f32⟩
  | .hbm, ⟨14, _⟩ => ⟨S4096x18944, .f32⟩
  | .hbm, ⟨15, _⟩ => ⟨S_, .f32⟩
  | .hbm, ⟨16, _⟩ => ⟨S4096x18944, .f32⟩
  | .hbm, ⟨17, _⟩ => ⟨S4096x18944, .f32⟩
  | .hbm, ⟨18, _⟩ => ⟨S4096x18944, .f32⟩
  | .hbm, ⟨19, _⟩ => ⟨S4096x18944, .f32⟩
  | .hbm, ⟨20, _⟩ => ⟨S3584x18944, .f32⟩
  | .hbm, ⟨21, _⟩ => ⟨S3584x18944, .f32⟩
  | .hbm, ⟨22, _⟩ => ⟨S4096x3584, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S37888x1_S37888x3584_0_1 : S37888x1.BroadcastsInDim S37888x3584 (![0, 1] : Fin 2 → Fin S37888x3584.rank)
  slices_S4096x37888_S4096x18944_0_0 : S4096x37888.Slices ![0, 0] S4096x18944
  slices_S4096x37888_S4096x18944_0_18944 : S4096x37888.Slices ![0, 18944] S4096x18944
  bcast_S_S4096x18944 : S_.BroadcastsInDim S4096x18944 (![] : Fin 0 → Fin S4096x18944.rank)
  bcast_S3584x1_S3584x18944_0_1 : S3584x1.BroadcastsInDim S3584x18944 (![0, 1] : Fin 2 → Fin S3584x18944.rank)
  dot_S4096x3584_S37888x3584_S4096x37888_1_1_0_0_n_n_wf : DotDims.WF S4096x3584 S37888x3584 S4096x37888 [1] [1] [0] [0] [] []
  dot_S4096x18944_S3584x18944_S4096x3584_1_1_0_0_n_n_wf : DotDims.WF S4096x18944 S3584x18944 S4096x3584 [1] [1] [0] [0] [] []

variable [Facts₀]

def dot_S4096x3584_S37888x3584_S4096x37888_1_1_0_0_n_n : DotDims S4096x3584 S37888x3584 S4096x37888 where
  lhsContracting := [1]
  rhsContracting := [1]
  lhsNonContracting := [0]
  rhsNonContracting := [0]
  lhsBatch := []
  rhsBatch := []
  wf := dot_S4096x3584_S37888x3584_S4096x37888_1_1_0_0_n_n_wf
def dot_S4096x18944_S3584x18944_S4096x3584_1_1_0_0_n_n : DotDims S4096x18944 S3584x18944 S4096x3584 where
  lhsContracting := [1]
  rhsContracting := [1]
  lhsNonContracting := [0]
  rhsNonContracting := [0]
  lhsBatch := []
  rhsBatch := []
  wf := dot_S4096x18944_S3584x18944_S4096x3584_1_1_0_0_n_n_wf

class Facts : Prop extends Facts₀ where

variable [Facts]
-- ==== Proof.Conds.lean ====
/-
  The two accelerator bodies branch on the position along the contraction axis of their grids: the accumulators are
  zeroed at the first step of each output tile and the tile is scaled, activated and stored at the last. This module
  decides those conditions over the grids in closed form and records where the output windows are idle.
-/
import proofs.«151881_j89111981457456_1_alg».proof.Proof.Gen.KernelIdeal.Launch
import proofs.«151881_j89111981457456_1_alg».proof.Proof.Gen.KernelIdeal.Skeleton
import proofs.«151881_j89111981457456_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The gate/up kernel: 37 output tiles × 14 contraction steps -/

/-- First contraction step of a tile: the accumulators are zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 14 = 0 :=
  (by decide +kernel : ∀ t : Fin grid0.N, cond0_0 (grid0.coords t) ↔ t.val % 14 = 0)
/-- Last contraction step of a tile: the tile is scaled, activated and stored. -/
abbrev cond0_1 (i : grid0.Coords) : Prop := k0_cond2 i = 1#1
theorem hcond0_1 : ∀ t : Fin cfg0.N, cond0_1 (grid0.coords t) ↔ t.val % 14 = 13 :=
  (by decide +kernel : ∀ t : Fin grid0.N, cond0_1 (grid0.coords t) ↔ t.val % 14 = 13)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Away from a tile's last step the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The down kernel: 7 output tiles × 37 contraction steps -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 37 = 0 :=
  (by decide +kernel : ∀ t : Fin grid1.N, cond1_0 (grid1.coords t) ↔ t.val % 37 = 0)
abbrev cond1_1 (i : grid1.Coords) : Prop := k1_cond2 i = 1#1
theorem hcond1_1 : ∀ t : Fin cfg1.N, cond1_1 (grid1.coords t) ↔ t.val % 37 = 36 :=
  (by decide +kernel : ∀ t : Fin grid1.N, cond1_1 (grid1.coords t) ↔ t.val % 37 = 36)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch memrefs as the pipeline passes them -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x512 .bf16 := win0_5.stage (cfg0.slots t 5)
abbrev hs0_5 (t : Fin cfg0.N) : (ms0_5 t).IsWhole := hstage0_5 ((cfg0.slots t 5).cast nbuf0_5)
abbrev scM0_0 : Memref sig .tc .vmem S4096x512 .f32 := Memref.whole cc0_scratch0
abbrev scM0_1 : Memref sig .tc .vmem S4096x512 .f32 := Memref.whole cc0_scratch1

abbrev ms1_0 (t : Fin cfg1.N) : Memref sig .tc .vmem S4096x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .f32 := win1_3.stage (cfg1.slots t 3)
abbrev hs1_3 (t : Fin cfg1.N) : (ms1_3 t).IsWhole := hstage1_3 ((cfg1.slots t 3).cast nbuf1_3)
abbrev scM1_0 : Memref sig .tc .vmem S4096x512 .f32 := Memref.whole cc1_scratch0

end Cert.KernelIdeal.Hand

end
-- ==== Proof.Run0A.lean ====
/-
  The gate/up kernel's body at the first contraction step of an output tile: the two accumulators, whatever they
  held, are zeroed and then receive the first products. The scale rows and the output tile are left untouched.
-/
import proofs.«151881_j89111981457456_1_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S4096x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : cond0_0 i) (hc1 : ¬cond0_1 i)
    (x0 : Vec F S4096x256 .f32) (x1 x2 : Vec F S512x256 .f32) :
    Σ' (LS0 : List (View.Piece (Elt F) S4096x512 .f32)), { LS1 : List (View.Piece (Elt F) S4096x512 .f32) //
      ∀ (xi3 xi4 : Vec F S1x512 .f32) (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, fun xi3 xi4 xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.Hand

end
-- ==== Proof.Run0B.lean ====
/-
  The gate/up kernel's body at a middle contraction step: neither branch is taken. The body reads the activation
  tile and the two weight tiles, adds each product into its accumulator, and leaves the scale rows and the output
  tile untouched. What the two accumulators end with is recorded as the list of stores the run performs.
-/
import proofs.«151881_j89111981457456_1_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S4096x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : ¬cond0_1 i)
    (x0 : Vec F S4096x256 .f32) (x1 x2 : Vec F S512x256 .f32) (xs0 xs1 : Vec F S4096x512 .f32) :
    Σ' (LS0 : List (View.Piece (Elt F) S4096x512 .f32)), { LS1 : List (View.Piece (Elt F) S4096x512 .f32) //
      ∀ (xi3 xi4 : Vec F S1x512 .f32) (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, fun xi3 xi4 xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.Hand

end
-- ==== Proof.Run0C.lean ====
/-
  The gate/up kernel's body at the last contraction step of an output tile: the last products are added into the
  accumulators, then each accumulator is scaled by its row of channel scales, the gate passes through x · logistic x,
  is multiplied by the up value, and the tile is stored into the output window.
-/
import proofs.«151881_j89111981457456_1_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S4096x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : cond0_1 i)
    (x0 : Vec F S4096x256 .f32) (x1 x2 : Vec F S512x256 .f32) (x3 x4 : Vec F S1x512 .f32) (xs0 xs1 : Vec F S4096x512 .f32) :
    Σ' (L5 : List (View.Piece (Elt F) S4096x512 .bf16)) (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; iexact HS0
    iexists _; iexact HS1

end Cert.KernelIdeal.Hand

end
-- ==== Proof.Dat0.lean ====
/-
  The proof data of the gate/up region, at any contents V of the core's buffers at the region's entry.

  Per grid point (output tile i, contraction step k) the body finds each input window's block of its array; the two
  accumulators are carried from step to step: zeroed and loaded with the first products at k = 0, added to at every
  later step, and at k = 13 scaled, activated and stored as the output tile. What the accumulators and the output
  buffer hold after each point is defined by recursion on the point, through the stores each case of the body
  performs. The invariant between points holds the two accumulators at those contents.
-/
import proofs.«151881_j89111981457456_1_alg».proof.Proof.Run0A
import proofs.«151881_j89111981457456_1_alg».proof.Proof.Run0B
import proofs.«151881_j89111981457456_1_alg».proof.Proof.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case of the body leaves -/

/-- One staging buffer of the output window and the two accumulators, as views through which contents are stated. -/
abbrev VO0_5 : View sig .tc .vmem S4096x512 .bf16 := (Memref.whole cc0_stg5_0 : Memref sig .tc .vmem S4096x512 .bf16).view
abbrev VS0_0 : View sig .tc .vmem S4096x512 .f32 := scM0_0.view
abbrev VS0_1 : View sig .tc .vmem S4096x512 .f32 := scM0_1.view

/-- The body's run at a first step, on the point's own memrefs. -/
abbrev runA (c : Dev nD) (t : Fin cfg0.N) (h0 : t.val % 14 = 0) (h1 : ¬t.val % 14 = 13) (x0 : Vec F S4096x256 .f32) (x1 x2 : Vec F S512x256 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) x0 x1 x2
/-- at a middle step, -/
abbrev runB (c : Dev nD) (t : Fin cfg0.N) (h0 : ¬t.val % 14 = 0) (h1 : ¬t.val % 14 = 13) (x0 : Vec F S4096x256 .f32) (x1 x2 : Vec F S512x256 .f32) (xs0 xs1 : Vec F S4096x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) x0 x1 x2 xs0 xs1
/-- and at a last step. -/
abbrev runC (c : Dev nD) (t : Fin cfg0.N) (h0 : ¬t.val % 14 = 0) (h1 : t.val % 14 = 13) (x0 : Vec F S4096x256 .f32) (x1 x2 : Vec F S512x256 .f32) (x3 x4 : Vec F S1x512 .f32) (xs0 xs1 : Vec F S4096x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) x0 x1 x2 x3 x4 xs0 xs1

/-- Contents nobody reads: the output buffer at a point that stores nothing into it. -/
def unread5 : Vec F S4096x512 .bf16 := VO0_5.read (Elt F) VO0_5.junk

/-- The stores of each case cover the buffers they fill. -/
theorem scoverA_0 (c t h0 h1) (x0 : Vec F S4096x256 .f32) (x1 x2 : Vec F S512x256 .f32) (y : S4096x512.Idx) :
    ∃ pc ∈ (runA (F := F) c t h0 h1 x0 x1 x2).1, y ∈ pc.1.set :=
  View.cover_of_tiledL (runA (F := F) c t h0 h1 x0 x1 x2).1 S4096x512.size (by sl_kernel_rfl) y
theorem scoverA_1 (c t h0 h1) (x0 : Vec F S4096x256 .f32) (x1 x2 : Vec F S512x256 .f32) (y : S4096x512.Idx) :
    ∃ pc ∈ (runA (F := F) c t h0 h1 x0 x1 x2).2.1, y ∈ pc.1.set :=
  View.cover_of_tiledL (runA (F := F) c t h0 h1 x0 x1 x2).2.1 S4096x512.size (by sl_kernel_rfl) y
theorem scoverB_0 (c t h0 h1) (x0 : Vec F S4096x256 .f32) (x1 x2 : Vec F S512x256 .f32) (xs0 xs1 : Vec F S4096x512 .f32) (y : S4096x512.Idx) :
    ∃ pc ∈ (runB (F := F) c t h0 h1 x0 x1 x2 xs0 xs1).1, y ∈ pc.1.set :=
  View.cover_of_tiledL (runB (F := F) c t h0 h1 x0 x1 x2 xs0 xs1).1 S4096x512.size (by sl_kernel_rfl) y
theorem scoverB_1 (c t h0 h1) (x0 : Vec F S4096x256 .f32) (x1 x2 : Vec F S512x256 .f32) (xs0 xs1 : Vec F S4096x512 .f32) (y : S4096x512.Idx) :
    ∃ pc ∈ (runB (F := F) c t h0 h1 x0 x1 x2 xs0 xs1).2.1, y ∈ pc.1.set :=
  View.cover_of_tiledL (runB (F := F) c t h0 h1 x0 x1 x2 xs0 xs1).2.1 S4096x512.size (by sl_kernel_rfl) y
theorem coverC_5 (c t h0 h1) (x0 : Vec F S4096x256 .f32) (x1 x2 : Vec F S512x256 .f32) (x3 x4 : Vec F S1x512 .f32) (xs0 xs1 : Vec F S4096x512 .f32) (y : S4096x512.Idx) :
    ∃ pc ∈ (runC (F := F) c t h0 h1 x0 x1 x2 x3 x4 xs0 xs1).1, y ∈ pc.1.set :=
  View.cover_of_tiledL (runC (F := F) c t h0 h1 x0 x1 x2 x3 x4 xs0 xs1).1 S4096x512.size (by sl_kernel_rfl) y
theorem scoverC_0 (c t h0 h1) (x0 : Vec F S4096x256 .f32) (x1 x2 : Vec F S512x256 .f32) (x3 x4 : Vec F S1x512 .f32) (xs0 xs1 : Vec F S4096x512 .f32) (y : S4096x512.Idx) :
    ∃ pc ∈ (runC (F := F) c t h0 h1 x0 x1 x2 x3 x4 xs0 xs1).2.1, y ∈ pc.1.set :=
  View.cover_of_tiledL (runC (F := F) c t h0 h1 x0 x1 x2 x3 x4 xs0 xs1).2.1 S4096x512.size (by sl_kernel_rfl) y
theorem scoverC_1 (c t h0 h1) (x0 : Vec F S4096x256 .f32) (x1 x2 : Vec F S512x256 .f32) (x3 x4 : Vec F S1x512 .f32) (xs0 xs1 : Vec F S4096x512 .f32) (y : S4096x512.Idx) :
    ∃ pc ∈ (runC (F := F) c t h0 h1 x0 x1 x2 x3 x4 xs0 xs1).2.2.1, y ∈ pc.1.set :=
  View.cover_of_tiledL (runC (F := F) c t h0 h1 x0 x1 x2 x3 x4 xs0 xs1).2.2.1 S4096x512.size (by sl_kernel_rfl) y

/-- What a first step leaves: (output buffer, gate accumulator, up accumulator). -/
def leftA (c : Dev nD) (t : Fin cfg0.N) (h0 : t.val % 14 = 0) (h1 : ¬t.val % 14 = 13) (x0 : Vec F S4096x256 .f32) (x1 x2 : Vec F S512x256 .f32) :
    Vec F S4096x512 .bf16 × Vec F S4096x512 .f32 × Vec F S4096x512 .f32 :=
  (unread5, VS0_0.read (Elt F) (VS0_0.writes (Elt F) VS0_0.junk (runA (F := F) c t h0 h1 x0 x1 x2).1),
    VS0_1.read (Elt F) (VS0_1.writes (Elt F) VS0_1.junk (runA (F := F) c t h0 h1 x0 x1 x2).2.1))
/-- What a middle step leaves, from the accumulators the step before left. -/
def leftB (c : Dev nD) (t : Fin cfg0.N) (h0 : ¬t.val % 14 = 0) (h1 : ¬t.val % 14 = 13) (x0 : Vec F S4096x256 .f32) (x1 x2 : Vec F S512x256 .f32) (xs0 xs1 : Vec F S4096x512 .f32) :
    Vec F S4096x512 .bf16 × Vec F S4096x512 .f32 × Vec F S4096x512 .f32 :=
  (unread5, VS0_0.read (Elt F) (VS0_0.writes (Elt F) VS0_0.junk (runB (F := F) c t h0 h1 x0 x1 x2 xs0 xs1).1),
    VS0_1.read (Elt F) (VS0_1.writes (Elt F) VS0_1.junk (runB (F := F) c t h0 h1 x0 x1 x2 xs0 xs1).2.1))
/-- What a last step leaves. -/
def leftC (c : Dev nD) (t : Fin cfg0.N) (h0 : ¬t.val % 14 = 0) (h1 : t.val % 14 = 13) (x0 : Vec F S4096x256 .f32) (x1 x2 : Vec F S512x256 .f32) (x3 x4 : Vec F S1x512 .f32) (xs0 xs1 : Vec F S4096x512 .f32) :
    Vec F S4096x512 .bf16 × Vec F S4096x512 .f32 × Vec F S4096x512 .f32 :=
  (VO0_5.read (Elt F) (VO0_5.writes (Elt F) VO0_5.junk (runC (F := F) c t h0 h1 x0 x1 x2 x3 x4 xs0 xs1).1),
    VS0_0.read (Elt F) (VS0_0.writes (Elt F) VS0_0.junk (runC (F := F) c t h0 h1 x0 x1 x2 x3 x4 xs0 xs1).2.1),
    VS0_1.read (Elt F) (VS0_1.writes (Elt F) VS0_1.junk (runC (F := F) c t h0 h1 x0 x1 x2 x3 x4 xs0 xs1).2.2.1))

/-! ## The accumulation, point by point -/

/-- What the output buffer and the two accumulators hold after the body at position n. -/
def outsAt0 (c : Dev nD) : (n : ℕ) → n < cfg0.N → Vec F S4096x512 .bf16 × Vec F S4096x512 .f32 × Vec F S4096x512 .f32
  | 0, hn => leftA c ⟨0, hn⟩ (Nat.zero_mod _) (by show ¬ 0 % 14 = 13; decide) (iblk0 V c 0 ⟨0, hn⟩) (iblk0 V c 1 ⟨0, hn⟩) (iblk0 V c 2 ⟨0, hn⟩)
  | n + 1, hn =>
    if h0 : (n + 1) % 14 = 0 then
      leftA c ⟨n + 1, hn⟩ h0 (by show ¬ (n + 1) % 14 = 13; omega) (iblk0 V c 0 ⟨n + 1, hn⟩) (iblk0 V c 1 ⟨n + 1, hn⟩) (iblk0 V c 2 ⟨n + 1, hn⟩)
    else if h1 : (n + 1) % 14 = 13 then
      leftC c ⟨n + 1, hn⟩ h0 h1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
        (outsAt0 c n (Nat.lt_of_succ_lt hn)).2.1 (outsAt0 c n (Nat.lt_of_succ_lt hn)).2.2
    else
      leftB c ⟨n + 1, hn⟩ h0 h1 (iblk0 V c 0 ⟨n + 1, hn⟩) (iblk0 V c 1 ⟨n + 1, hn⟩) (iblk0 V c 2 ⟨n + 1, hn⟩)
        (outsAt0 c n (Nat.lt_of_succ_lt hn)).2.1 (outsAt0 c n (Nat.lt_of_succ_lt hn)).2.2

theorem outsAt0_A (c : Dev nD) (t : Fin cfg0.N) (h0 : t.val % 14 = 0) (h1 : ¬t.val % 14 = 13) :
    outsAt0 V c t.val t.isLt = leftA c t h0 h1 (iblk0 V c 0 t) (iblk0 V c 1 t) (iblk0 V c 2 t) := by
  obtain ⟨n, hn⟩ := t
  cases n with
  | zero => rfl
  | succ n => exact (dif_pos h0).trans rfl

theorem outsAt0_B (c : Dev nD) (t : Fin cfg0.N) (h0 : ¬t.val % 14 = 0) (h1 : ¬t.val % 14 = 13) :
    outsAt0 V c t.val t.isLt = leftB c t h0 h1 (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 14 = 0) (h1 : t.val % 14 = 13) :
    outsAt0 V c t.val t.isLt = leftC c t h0 h1 (iblk0 V c 0 t) (iblk0 V c 1 t) (iblk0 V c 2 t) (iblk0 V c 3 t) (iblk0 V c 4 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- The scoped buffers of the core that belong to the other region, each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body before its first point: the accumulators at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA otherScoped0; rw [scopedRest0_eq]; simp only [scM0_0, scM0_1, owns_whole]; try rfl

/-- Before position n: at the start anything; afterwards the accumulators at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ otherScoped0 c) ∗ (∃ r, prngReg c r)) := by
  cases n with
  | zero => exact absurd rfl hz
  | succ n => rfl

/-! ## The proof data -/

/-- The gate/up region's proof data on core c. The stacked weight and the row of scales are each staged through two
    windows; each of the two holds its array at one half of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d

end

end Cert.KernelIdeal.Hand

end
-- ==== Proof.Obl0.lean ====
/-
  The body obligation of the gate/up region: at every grid point the body, handed the invariant and each window's
  current staging buffer at what it then holds, runs to the invariant of the next point with each buffer at what the
  proof data says it leaves. Three cases by the contraction step: first (accumulators zeroed), middle, last (the
  output tile stored).
-/
import proofs.«151881_j89111981457456_1_alg».proof.Proof.Dat0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 518 := lt_of_lt_of_eq t.isLt (show cfg0.N = 518 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 14 = 0
  · have h1 : ¬t.val % 14 = 13 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold leftA; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA (F := F) c t h0 h1 (iblk0 V c 0 t) (iblk0 V c 1 t) (iblk0 V c 2 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c t h0 h1 _ _ _)
          isplitl [HS1]
          · unfold owns; iexists _; isplitr
            swap; · iexact HS1
            ipureintro; exact View.read_writes_of_cover _ _ _ _ _ (scoverA_1 c t h0 h1 _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA (F := F) c t h0 h1 (iblk0 V c 0 t) (iblk0 V c 1 t) (iblk0 V c 2 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c t h0 h1 _ _ _)
          isplitl [HS1]
          · unfold owns; iexists _; isplitr
            swap; · iexact HS1
            ipureintro; exact View.read_writes_of_cover _ _ _ _ _ (scoverA_1 c t h0 h1 _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 14 = 13
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold leftC; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runC (F := F) c t h0 h1 (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverC_0 c t h0 h1 _ _ _ _ _ _ _)
          isplitl [HS1]
          · unfold owns; iexists _; isplitr
            swap; · iexact HS1
            ipureintro; exact View.read_writes_of_cover _ _ _ _ _ (scoverC_1 c t h0 h1 _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 c t h0 h1 _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold leftB; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runB (F := F) c t h0 h1 (iblk0 V c 0 t) (iblk0 V c 1 t) (iblk0 V c 2 t) _ _).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverB_0 c t h0 h1 _ _ _ _ _)
          isplitl [HS1]
          · unfold owns; iexists _; isplitr
            swap; · iexact HS1
            ipureintro; exact View.read_writes_of_cover _ _ _ _ _ (scoverB_1 c t h0 h1 _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

end

end Cert.KernelIdeal.Hand

end
-- ==== Proof.BO0.lean ====
/-
  The gate/up region's body obligation in the pipeline library's form, and the invariant's two ends.
-/
import proofs.«151881_j89111981457456_1_alg».proof.Proof.Obl0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 8000000 in
/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the body is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped buffers back, the accumulators' contents forgotten. -/
theorem Phi_out0 (c : Dev nD) (n : ℕ) (h : n ≤ cfg0.N) (hz : n ≠ 0) : PhiS0 V c n h ⊢ Pipeline.ΦA spec0 c := by
  rw [PhiS0_pos V c n h hz, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout0 (c : Dev nD) : (dat0 V c).Φ (Fin.last cfg0.N) ⊢ Pipeline.ΦA spec0 c := by
  have e : (dat0 V c).Φ (Fin.last cfg0.N) = PhiS0 V c (Fin.last cfg0.N).val (Nat.le_of_lt_succ (Fin.last cfg0.N).isLt) := by
    dsimp only [dat0]
  rw [e]
  exact Phi_out0 V c _ _ (by rw [Fin.val_last]; have : cfg0.N = 518 := N_0; omega)

end

end Cert.KernelIdeal.Hand

end
-- ==== Proof.Run1A.lean ====
/-
  The down kernel's body at the first contraction step of an output tile: the accumulator is zeroed and receives the
  first product; the scale row and the output tile are left untouched.
-/
import proofs.«151881_j89111981457456_1_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S4096x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x512 .f32) (harg6 : arg6.IsWhole) (hc0 : cond1_0 i) (hc1 : ¬cond1_1 i)
    (x0 : Vec F S4096x512 .bf16) (x1 : Vec F S512x512 .f32)  :
    { LS0 : List (View.Piece (Elt F) S4096x512 .f32) //
      ∀ (xi2 : Vec F S1x512 .f32) (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_b i arg2 harg2 arg3 harg3 arg4 harg4 arg5 harg5 arg6 harg6) K } := by
  refine ⟨?_, fun xi2 xi3 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Run1B.lean ====
/-
  The down kernel's body at a middle contraction step: the product of the hidden tile and the weight tile is added
  into the accumulator; the scale row and the output tile are left untouched.
-/
import proofs.«151881_j89111981457456_1_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4096x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : ¬cond1_1 i)
    (x0 : Vec F S4096x512 .bf16) (x1 : Vec F S512x512 .f32) (xs0 : Vec F S4096x512 .f32) :
    { LS0 : List (View.Piece (Elt F) S4096x512 .f32) //
      ∀ (xi2 : Vec F S1x512 .f32) (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_b i arg2 harg2 arg3 harg3 arg4 harg4 arg5 harg5 arg6 harg6) K } := by
  refine ⟨?_, fun xi2 xi3 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Run1C.lean ====
/-
  The down kernel's body at the last contraction step of an output tile: the last product is added into the
  accumulator, which is then scaled by the row of channel scales and stored into the output window.
-/
import proofs.«151881_j89111981457456_1_alg».proof.Proof.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4096x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : cond1_1 i)
    (x0 : Vec F S4096x512 .bf16) (x1 : Vec F S512x512 .f32) (x2 : Vec F S1x512 .f32) (xs0 : Vec F S4096x512 .f32) :
    Σ' (L3 : List (View.Piece (Elt F) S4096x512 .f32)), { LS0 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_b i arg2 harg2 arg3 harg3 arg4 harg4 arg5 harg5 arg6 harg6) K } := by
  refine ⟨?_, ?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Dat1.lean ====
/-
  The proof data of the down region, at any contents V of the core's buffers at the region's entry.

  Per grid point (output tile n, contraction step k) the body finds the hidden tile, the weight tile and the row of
  scales; one accumulator is carried from step to step: zeroed and loaded with the first product at k = 0, added to at
  every later step, and at k = 36 scaled and stored as the output tile.
-/
import proofs.«151881_j89111981457456_1_alg».proof.Proof.Run1A
import proofs.«151881_j89111981457456_1_alg».proof.Proof.Run1B
import proofs.«151881_j89111981457456_1_alg».proof.Proof.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case of the body leaves -/

abbrev VO1_3 : View sig .tc .vmem S4096x512 .f32 := (Memref.whole cc1_stg3_0 : Memref sig .tc .vmem S4096x512 .f32).view
abbrev VS1_0 : View sig .tc .vmem S4096x512 .f32 := scM1_0.view

abbrev run1A (c : Dev nD) (t : Fin cfg1.N) (h0 : t.val % 37 = 0) (h1 : ¬t.val % 37 = 36) (x0 : Vec F S4096x512 .bf16) (x1 : Vec F S512x512 .f32) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) x0 x1
abbrev run1B (c : Dev nD) (t : Fin cfg1.N) (h0 : ¬t.val % 37 = 0) (h1 : ¬t.val % 37 = 36) (x0 : Vec F S4096x512 .bf16) (x1 : Vec F S512x512 .f32) (xs0 : Vec F S4096x512 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) x0 x1 xs0
abbrev run1C (c : Dev nD) (t : Fin cfg1.N) (h0 : ¬t.val % 37 = 0) (h1 : t.val % 37 = 36) (x0 : Vec F S4096x512 .bf16) (x1 : Vec F S512x512 .f32) (x2 : Vec F S1x512 .f32) (xs0 : Vec F S4096x512 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) x0 x1 x2 xs0

/-- Contents nobody reads: the output buffer at a point that stores nothing into it. -/
def unread3 : Vec F S4096x512 .f32 := VO1_3.read (Elt F) VO1_3.junk

theorem scover1A_0 (c t h0 h1) (x0 : Vec F S4096x512 .bf16) (x1 : Vec F S512x512 .f32) (y : S4096x512.Idx) :
    ∃ pc ∈ (run1A (F := F) c t h0 h1 x0 x1).1, y ∈ pc.1.set :=
  View.cover_of_tiledL (run1A (F := F) c t h0 h1 x0 x1).1 S4096x512.size (by sl_kernel_rfl) y
theorem scover1B_0 (c t h0 h1) (x0 : Vec F S4096x512 .bf16) (x1 : Vec F S512x512 .f32) (xs0 : Vec F S4096x512 .f32) (y : S4096x512.Idx) :
    ∃ pc ∈ (run1B (F := F) c t h0 h1 x0 x1 xs0).1, y ∈ pc.1.set :=
  View.cover_of_tiledL (run1B (F := F) c t h0 h1 x0 x1 xs0).1 S4096x512.size (by sl_kernel_rfl) y
theorem cover1C_3 (c t h0 h1) (x0 : Vec F S4096x512 .bf16) (x1 : Vec F S512x512 .f32) (x2 : Vec F S1x512 .f32) (xs0 : Vec F S4096x512 .f32) (y : S4096x512.Idx) :
    ∃ pc ∈ (run1C (F := F) c t h0 h1 x0 x1 x2 xs0).1, y ∈ pc.1.set :=
  View.cover_of_tiledL (run1C (F := F) c t h0 h1 x0 x1 x2 xs0).1 S4096x512.size (by sl_kernel_rfl) y
theorem scover1C_0 (c t h0 h1) (x0 : Vec F S4096x512 .bf16) (x1 : Vec F S512x512 .f32) (x2 : Vec F S1x512 .f32) (xs0 : Vec F S4096x512 .f32) (y : S4096x512.Idx) :
    ∃ pc ∈ (run1C (F := F) c t h0 h1 x0 x1 x2 xs0).2.1, y ∈ pc.1.set :=
  View.cover_of_tiledL (run1C (F := F) c t h0 h1 x0 x1 x2 xs0).2.1 S4096x512.size (by sl_kernel_rfl) y

/-- What a first step leaves: (output buffer, accumulator). -/
def left1A (c : Dev nD) (t : Fin cfg1.N) (h0 : t.val % 37 = 0) (h1 : ¬t.val % 37 = 36) (x0 : Vec F S4096x512 .bf16) (x1 : Vec F S512x512 .f32) :
    Vec F S4096x512 .f32 × Vec F S4096x512 .f32 :=
  (unread3, VS1_0.read (Elt F) (VS1_0.writes (Elt F) VS1_0.junk (run1A (F := F) c t h0 h1 x0 x1).1))
def left1B (c : Dev nD) (t : Fin cfg1.N) (h0 : ¬t.val % 37 = 0) (h1 : ¬t.val % 37 = 36) (x0 : Vec F S4096x512 .bf16) (x1 : Vec F S512x512 .f32) (xs0 : Vec F S4096x512 .f32) :
    Vec F S4096x512 .f32 × Vec F S4096x512 .f32 :=
  (unread3, VS1_0.read (Elt F) (VS1_0.writes (Elt F) VS1_0.junk (run1B (F := F) c t h0 h1 x0 x1 xs0).1))
def left1C (c : Dev nD) (t : Fin cfg1.N) (h0 : ¬t.val % 37 = 0) (h1 : t.val % 37 = 36) (x0 : Vec F S4096x512 .bf16) (x1 : Vec F S512x512 .f32) (x2 : Vec F S1x512 .f32) (xs0 : Vec F S4096x512 .f32) :
    Vec F S4096x512 .f32 × Vec F S4096x512 .f32 :=
  (VO1_3.read (Elt F) (VO1_3.writes (Elt F) VO1_3.junk (run1C (F := F) c t h0 h1 x0 x1 x2 xs0).1),
    VS1_0.read (Elt F) (VS1_0.writes (Elt F) VS1_0.junk (run1C (F := F) c t h0 h1 x0 x1 x2 xs0).2.1))

/-! ## The accumulation, point by point -/

def outsAt1 (c : Dev nD) : (n : ℕ) → n < cfg1.N → Vec F S4096x512 .f32 × Vec F S4096x512 .f32
  | 0, hn => left1A c ⟨0, hn⟩ (Nat.zero_mod _) (by show ¬ 0 % 37 = 36; decide) (iblk1 V c 0 ⟨0, hn⟩) (iblk1 V c 1 ⟨0, hn⟩)
  | n + 1, hn =>
    if h0 : (n + 1) % 37 = 0 then
      left1A c ⟨n + 1, hn⟩ h0 (by show ¬ (n + 1) % 37 = 36; omega) (iblk1 V c 0 ⟨n + 1, hn⟩) (iblk1 V c 1 ⟨n + 1, hn⟩)
    else if h1 : (n + 1) % 37 = 36 then
      left1C c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn)).2
    else
      left1B c ⟨n + 1, hn⟩ h0 h1 (iblk1 V c 0 ⟨n + 1, hn⟩) (iblk1 V c 1 ⟨n + 1, hn⟩) (outsAt1 c n (Nat.lt_of_succ_lt hn)).2

theorem outsAt1_A (c : Dev nD) (t : Fin cfg1.N) (h0 : t.val % 37 = 0) (h1 : ¬t.val % 37 = 36) :
    outsAt1 V c t.val t.isLt = left1A c t h0 h1 (iblk1 V c 0 t) (iblk1 V c 1 t) := by
  obtain ⟨n, hn⟩ := t
  cases n with
  | zero => rfl
  | succ n => exact (dif_pos h0).trans rfl

theorem outsAt1_B (c : Dev nD) (t : Fin cfg1.N) (h0 : ¬t.val % 37 = 0) (h1 : ¬t.val % 37 = 36) :
    outsAt1 V c t.val t.isLt = left1B c t h0 h1 (iblk1 V c 0 t) (iblk1 V c 1 t)
      (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 37 = 0) (h1 : t.val % 37 = 36) :
    outsAt1 V c t.val t.isLt = left1C c t h0 h1 (iblk1 V c 0 t) (iblk1 V c 1 t) (iblk1 V c 2 t)
      (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- The core's scoped buffers that are no staging buffer of this region: the other region's, each whole at some
    contents, and last this region's accumulator, in the state S. -/
def scoped1With (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

theorem PhiA1_eq (c : Dev nD) :
    (Pipeline.ΦA spec1 c : sProp 𝕄) = iprop(scoped1With c (iprop(∃ d, owns (c : Thread nD τ) scM1_0 fullShare d)) ∗ (∃ r, prngReg c r)) := by
  unfold Pipeline.ΦA scoped1With; rw [scopedRest1_eq]; simp only [scM1_0, owns_whole]; try rfl

def PhiS1 (c : Dev nD) : (n : ℕ) → n ≤ cfg1.N → sProp 𝕄
  | 0, _ => Pipeline.ΦA spec1 c
  | n + 1, hn => iprop(scoped1With c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1With c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(scoped1With c (owns (c : Thread nD τ) scM1_0 fullShare ((outsAt1 V c (n - 1) (by omega)).2)) ∗ (∃ r, prngReg c r)) := by
  cases n with
  | zero => exact absurd rfl hz
  | succ n => rfl

/-- The accumulator's state can be exchanged inside the chain of scoped buffers. -/
theorem scoped1With_mono (c : Dev nD) {S S' : sProp 𝕄} (h : S ⊢ S') : scoped1With c S ⊢ scoped1With c S' := by
  unfold scoped1With
  iintro ⟨H0, H1, H2, H3, H4, H5, H6, H7, H8, H9, H10, H11, H12, H13, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply h; iexact HS

/-- The accumulator taken out of the chain and the rest kept. -/
def others1 (c : Dev nD) : sProp 𝕄 := scoped1With c iprop(emp)
theorem scoped1With_split (c : Dev nD) (S : sProp 𝕄) : scoped1With c S ⊣⊢ iprop(others1 c ∗ S) := by
  unfold others1 scoped1With
  constructor
  · iintro ⟨H0, H1, H2, H3, H4, H5, H6, H7, H8, H9, H10, H11, H12, H13, HS⟩
    isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iempintro
    · iexact HS
  · iintro ⟨⟨H0, H1, H2, H3, H4, H5, H6, H7, H8, H9, H10, H11, H12, H13, -⟩, HS⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

end

end Cert.KernelIdeal.Hand

end
-- ==== Proof.Obl1.lean ====
/-
  The body obligation of the down region: at every grid point the body, handed the invariant and each window's
  current staging buffer, runs to the invariant of the next point with each buffer at what the proof data says it
  leaves. Three cases by the contraction step: first, middle, last (the output tile stored).
-/
import proofs.«151881_j89111981457456_1_alg».proof.Proof.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 259 := lt_of_lt_of_eq t.isLt (show cfg1.N = 259 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 37 = 0
  · have h1 : ¬t.val % 37 = 36 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold left1A; (try dsimp only)
    by_cases hz : t.val = 0
    · rw [PhiS1_castSucc V c t, PhiS1_zero V c _ _ hz, PhiA1_eq]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1A (F := F) c t h0 h1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1A_0 c t h0 h1 _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1A (F := F) c t h0 h1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1A_0 c t h0 h1 _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 37 = 36
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold left1C; (try dsimp only)
      rw [PhiS1_castSucc V c t, PhiS1_pos V c _ _ hz]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1C (F := F) c t h0 h1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1C_0 c t h0 h1 _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1C_3 c t h0 h1 _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold left1B; (try dsimp only)
      rw [PhiS1_castSucc V c t, PhiS1_pos V c _ _ hz]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1B (F := F) c t h0 h1 (iblk1 V c 0 t) (iblk1 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1B_0 c t h0 h1 _ _ _)
        iexact Hg
      isplitl [Ho]; · iexact Ho
      isplitl [H0]; · iexact H0
      isplitl [H1]; · iexact H1
      isplitl [H2]; · iexact H2
      iexists _; iexact H3

end

end Cert.KernelIdeal.Hand

end
-- ==== Proof.BO1.lean ====
/-
  The down region's body obligation in the pipeline library's form, and the invariant's two ends.
-/
import proofs.«151881_j89111981457456_1_alg».proof.Proof.Obl1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 8000000 in
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 259 := N_1; omega), PhiA1_eq]
  iintro ⟨Hsc, Hg⟩
  isplitl [Hsc]
  · ihave H' := (scoped1With_split c _).1 $$ Hsc
    icases H' with ⟨Hoth, HS0⟩
    iapply (scoped1With_split c _).2
    isplitl [Hoth]; · iexact Hoth
    iexists _; iexact HS0
  iexact Hg

end

end Cert.KernelIdeal.Hand

end
-- ==== Proof.Bounds.lean ====
/-
  The whole run of the accelerator program: the two host transposes, the gate/up region, the down region.

  Between two items of @main every unscoped buffer of a core is held whole at named contents: the launch memory, then
  what the transposes compute, then the hidden array replaced by what the first region's write-backs leave, then the
  result array replaced by what the second region's write-backs leave. The first region is handed the stacked weight
  and the row of scales through two windows each; each window receives one half of the array's share at the entry and
  gives it back at the exit. At the end every buffer is read back against the last named contents: the arguments at
  their launch contents, the result at what the second region left.
-/
import proofs.«151881_j89111981457456_1_alg».proof.Proof.BO0
import proofs.«151881_j89111981457456_1_alg».proof.Proof.BO1
import proofs.«151881_j89111981457456_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the two transposes: the first region's entry. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After the first region: the hidden array at what its write-backs leave. -/
def W2 (c : Dev nD) : Valuation τ sig (Elt F) :=
  Function.update (W1 m c) main_v2 ((dat0 (U1 m) c).arrAt 5 cfg0.N : Buf (Elt F) ((c : Thread nD τ).loc main_v2))
abbrev U2 : (c : Dev nD) → (b : Ref sig .tc) → Buf (Elt F) ((c : Thread nD τ).loc b) := fun c b => W2 m c b
/-- After the second region: the result array at what its write-backs leave. -/
def W3 (c : Dev nD) : Valuation τ sig (Elt F) :=
  Function.update (W2 m c) main_v3 ((dat1 (U2 m) c).arrAt 3 cfg1.N : Buf (Elt F) ((c : Thread nD τ).loc main_v3))
abbrev U3 : (c : Dev nD) → (b : Ref sig .tc) → Buf (Elt F) ((c : Thread nD τ).loc b) := fun c b => W3 m c b

theorem W2_v2 (c : Dev nD) : W2 m c (Proc.devRef .tc main_v2) = (dat0 (U1 m) c).arrAt 5 cfg0.N := by
  unfold W2; exact Function.update_self ..
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) ..
theorem W3_v3 (c : Dev nD) : W3 m c (Proc.devRef .tc main_v3) = (dat1 (U2 m) c).arrAt 3 cfg1.N := by
  unfold W3; exact Function.update_self ..
theorem W3_of_ne (c : Dev nD) (b : Ref sig .tc) (hb : b ≠ main_v3) : W3 m c (Proc.devRef .tc b) = W2 m c (Proc.devRef .tc b) := by
  unfold W3; exact Function.update_of_ne (StableHlo.devRef_ne_of_ne hb) ..

/-- No item writes an argument: at the end each holds its launch contents. -/
theorem W3_arg (c : Dev nD) (r : Ref sig .tc) (h3 : r ≠ main_v3) (h2 : r ≠ main_v2) (h1 : r ∉ Gen.hostOps0_W) :
    W3 m c (Proc.devRef .tc r) = m ((c : Thread nD τ).loc r) :=
  (W3_of_ne m c r h3).trans ((W2_of_ne m c r h2).trans (Gen.V1_of m c r h1))

end Cert.KernelIdeal.Hand

end
-- ==== Proof.Entry0.lean ====
/-
  The gate/up region's arrays at its two ends. The stacked weight is staged through two windows (gate rows, up rows)
  and so is the row of scales: behind the six windows stand four buffers. At the entry each shared buffer's full
  share is halved, one half per window; at the exit the halves are joined again. The hidden array, the one output,
  comes back at what the write-backs left in it.
-/
import proofs.«151881_j89111981457456_1_alg».proof.Proof.BO0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's array as the proof data holds it, against the buffer behind it. -/
theorem arr0_eq (c : Dev nD) (w : Fin cfg0.W) (G : Buf (Elt F) ((cfg0.win w).arr.view.loc (c : Thread nD τ))) :
    (((cfg0.win w).arr.view.loc (c : Thread nD τ)) ↦[(cfg0.win w).arr.view.set]{(dat0 V c).share w} G : sProp 𝕄)
      = (((c : Thread nD τ).loc (Pipeline.arrRef spec0 w)) ↦{(dat0 V c).share w} G : sProp 𝕄) := by
  rw [(arr_whole0 w).set_eq_univ]

/-- The four buffers behind the six windows, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1) ∗ (((c : Thread nD τ).loc main_v0) ↦{fullShare} W main_v0) ∗ (((c : Thread nD τ).loc main_v2) ↦{fullShare} W main_v2)) := by
  unfold Pipeline.arrBufs
  exact bigSep_eq_bigSepL_of_eq [main_arg0, main_arg1, main_v0, main_v2] (by decide) (by decide) _

/-- The six windows' arrays as the proof data holds them, listed with their shares. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare} G 0) ∗ (((c : Thread nD τ).loc (Pipeline.arrRef spec0 1)) ↦{fullShare.left} G 1) ∗ (((c : Thread nD τ).loc (Pipeline.arrRef spec0 2)) ↦{fullShare.right} G 2)
          ∗ (((c : Thread nD τ).loc (Pipeline.arrRef spec0 3)) ↦{fullShare.left} G 3) ∗ (((c : Thread nD τ).loc (Pipeline.arrRef spec0 4)) ↦{fullShare.right} G 4) ∗ (((c : Thread nD τ).loc (Pipeline.arrRef spec0 5)) ↦{fullShare} G 5)) := by
  have s0 : (dat0 V c).share 0 = fullShare := rfl
  have s1 : (dat0 V c).share 1 = fullShare.left := rfl
  have s2 : (dat0 V c).share 2 = fullShare.right := rfl
  have s3 : (dat0 V c).share 3 = fullShare.left := rfl
  have s4 : (dat0 V c).share 4 = fullShare.right := rfl
  have s5 : (dat0 V c).share 5 = fullShare := rfl
  unfold Dat.arrays
  rw [bigSep_W0, arr0_eq V c 0, arr0_eq V c 1, arr0_eq V c 2, arr0_eq V c 3, arr0_eq V c 4, arr0_eq V c 5, s0, s1, s2, s3, s4, s5]

theorem split0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs (0 : Fin 2) winFacts₀0.arr_unscoped c (V c)]
  refine sep_mono ?_ .rfl
  change (Pipeline.arrBufs spec0 c (V c) : sProp 𝕄) ⊢ _
  rw [arrBufs0_eq, arrays0_eq]
  iintro ⟨H0, H1, H3, H5⟩
  ihave H1' := (pointsTo_share (PosShare.mem_left_op_right fullShare)).1 $$ H1
  icases H1' with ⟨H1a, H1b⟩
  ihave H3' := (pointsTo_share (PosShare.mem_left_op_right fullShare)).1 $$ H3
  icases H3' with ⟨H3a, H3b⟩
  isplitl [H0]; · iexact H0
  isplitl [H1a]; · iexact H1a
  isplitl [H1b]; · iexact H1b
  isplitl [H3a]; · iexact H3a
  isplitl [H3b]; · iexact H3b
  iexact H5

theorem join0 (c : Dev nD) (V' : (b : Ref sig .tc) → Buf (Elt F) ((c : Thread nD τ).loc b))
    (h5 : V' main_v2 = (dat0 V c).arrAt 5 cfg0.N) (hrest : ∀ b, b ≠ main_v2 → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ cfgs (0 : Fin 2) winFacts₀0.arr_unscoped c V']
  refine sep_mono ?_ (Entails.of_eq ?_)
  · change _ ⊢ (Pipeline.arrBufs spec0 c V' : sProp 𝕄)
    rw [arrBufs0_eq, arrays0_eq]
    rw [(dat0 V c).arrAt_in 0 rfl, (dat0 V c).arrAt_in 1 rfl, (dat0 V c).arrAt_in 2 rfl, (dat0 V c).arrAt_in 3 rfl, (dat0 V c).arrAt_in 4 rfl]
    rw [hrest main_arg0 (by decide), hrest main_arg1 (by decide), hrest main_v0 (by decide), h5]
    iintro ⟨H0, H1a, H1b, H3a, H3b, H5⟩
    isplitl [H0]; · iexact H0
    isplitl [H1a H1b]
    · iapply (pointsTo_share (PosShare.mem_left_op_right fullShare)).2
      isplitl [H1a]; · iexact H1a
      iexact H1b
    isplitl [H3a H3b]
    · iapply (pointsTo_share (PosShare.mem_left_op_right fullShare)).2
      isplitl [H3a]; · iexact H3a
      iexact H3b
    iexact H5
  · unfold Pipeline.unscopedRest
    exact bigSep_congr fun b hb => by
      rw [hrest b (fun e => (Finset.mem_sdiff.mp hb).2 (e ▸ Finset.mem_image.mpr ⟨5, Finset.mem_univ _, rfl⟩))]

end

end Cert.KernelIdeal.Hand

end
-- ==== Proof.Run.lean ====
/-
  The two regions as segments of @main over the named buffer contents, and the run of the whole program: every
  weakly fair execution terminates without a fault, the arguments end as launched and the result array ends at what
  the down region's write-backs leave.
-/
import proofs.«151881_j89111981457456_1_alg».proof.Proof.Bounds
import proofs.«151881_j89111981457456_1_alg».proof.Proof.Entry0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each pipeline's proof data at its region's entry contents. -/
def pdats : (p : Fin 2) → (c : Dev nD) → Dat τ (Elt F) Unit ℕ (UR sig nD τ) ℕ (Pipeline.pin (pcfgs (F := F)) Gen.adm p) c
  | ⟨0, _⟩ => fun c => dat0 (U1 m) c
  | ⟨1, _⟩ => fun c => dat1 (U2 m) c

abbrev 𝒱₀ : Variants := Variants.none
abbrev L0 : GSem nD τ sig → Finset Unit := fun _ => ∅
abbrev lv0 : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-- The down region's arrays at its exit are the last boundary's contents at them. -/
theorem hF1 (c : Dev nD) (w : Fin cfg1.W) : (dat1 (U2 m) c).arrAt w cfg1.N = U3 m c (Pipeline.arrRef spec1 w) := by
  match w with
  | ⟨0, _⟩ => exact ((dat1 (U2 m) c).arrAt_in 0 rfl _).trans ((A_eq1 (U2 m) c 0).trans (W3_of_ne m c _ (by decide)).symm)
  | ⟨1, _⟩ => exact ((dat1 (U2 m) c).arrAt_in 1 rfl _).trans ((A_eq1 (U2 m) c 1).trans (W3_of_ne m c _ (by decide)).symm)
  | ⟨2, _⟩ => exact ((dat1 (U2 m) c).arrAt_in 2 rfl _).trans ((A_eq1 (U2 m) c 2).trans (W3_of_ne m c _ (by decide)).symm)
  | ⟨3, _⟩ => exact (W3_v3 m c).symm
theorem hrest1 (c : Dev nD) : ∀ b, b ∉ Finset.univ.image (Pipeline.arrRef spec1) → U3 m c b = U2 m c b :=
  fun b hb => W3_of_ne m c b fun e => hb (e ▸ Finset.mem_image.mpr ⟨3, Finset.mem_univ _, rfl⟩)

set_option backward.isDefEq.respectTransparency.types false in
/-- The gate/up region, entered from the contents after the transposes and left with the hidden array written. -/
def reg0 : Pipeline.RegionSeg (pcfgs (F := F)) Gen.adm (pdats m) () defs₀ 𝒱₀ L0 lv0 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L0 lv0 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := split0 (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    rw [Pipeline.ownSems0_none]
    refine BIBase.Entails.trans (hout0 (U1 m) c) ?_
    unfold Pipeline.ΦA
    iintro ⟨Hr, Hp⟩
    isplitl [Hp]; · iexact Hp
    isplitr; · iempintro
    iexact Hr
  hexit c := by
    have hjoin := join0 (U1 m) c (U2 m c) (W2_v2 m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The down region, entered from the contents the first region left and left with the result array written. -/
def reg1 : Pipeline.RegionSeg (pcfgs (F := F)) Gen.adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L0 lv0 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m) c)
    unfold Pipeline.ΦA
    iintro ⟨Hp, -, Hr⟩
    isplitl [Hr]; · iexact Hr
    iexact Hp
  hout c := by
    rw [Pipeline.ownSems0_none]
    refine BIBase.Entails.trans (hout1 (U2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three items in order. -/
abbrev segs : List (Pipeline.Seg (pcfgs (F := F)) Gen.adm (pdats m) () defs₀ 𝒱₀ L0 lv0) :=
  [ .host (hseg hostOps0 hostOps0_sub Gen.hostOps0_fresh (W0 m)),
    .region (reg0 m),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting;
    the result array ends at what the down region's write-backs leave and the five arguments end as launched. -/
theorem run_all : θ_run defs (onTc (τ := τ) (main (F := F))) ⟨m, fun _ => 0, ρ⟩ (fun r => ∀ c : Dev nD,
      r.2.mem ((c.tc : Thread nD τ).loc main_v3) = (dat1 (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) Gen.adm (pdats m) () cellOf_inj emb₁ defs₀ 𝒱₀ L0 lv0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_v3 m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide))⟩)

end Cert.KernelIdeal.Hand

end
-- ==== Proof.BConds.lean ====
/-
  The two accelerator bodies branch on the position along the contraction axis of their grids: the accumulators are
  zeroed at the first step of each output tile and the tile is scaled, activated and stored at the last. This module
  decides those conditions over the grids in closed form and records where the output windows are idle.
-/
import proofs.«151881_j89111981457456_1_alg».proof.Proof.Gen.Kernel.Launch
import proofs.«151881_j89111981457456_1_alg».proof.Proof.Gen.Kernel.Skeleton
import proofs.«151881_j89111981457456_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The gate/up kernel: 37 output tiles × 14 contraction steps -/

/-- First contraction step of a tile: the accumulators are zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 14 = 0 :=
  (by decide +kernel : ∀ t : Fin grid0.N, cond0_0 (grid0.coords t) ↔ t.val % 14 = 0)
/-- Last contraction step of a tile: the tile is scaled, activated and stored. -/
abbrev cond0_1 (i : grid0.Coords) : Prop := k0_cond2 i = 1#1
theorem hcond0_1 : ∀ t : Fin cfg0.N, cond0_1 (grid0.coords t) ↔ t.val % 14 = 13 :=
  (by decide +kernel : ∀ t : Fin grid0.N, cond0_1 (grid0.coords t) ↔ t.val % 14 = 13)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Away from a tile's last step the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The down kernel: 7 output tiles × 37 contraction steps -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 37 = 0 :=
  (by decide +kernel : ∀ t : Fin grid1.N, cond1_0 (grid1.coords t) ↔ t.val % 37 = 0)
abbrev cond1_1 (i : grid1.Coords) : Prop := k1_cond2 i = 1#1
theorem hcond1_1 : ∀ t : Fin cfg1.N, cond1_1 (grid1.coords t) ↔ t.val % 37 = 36 :=
  (by decide +kernel : ∀ t : Fin grid1.N, cond1_1 (grid1.coords t) ↔ t.val % 37 = 36)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch memrefs as the pipeline passes them -/

abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x512 .bf16 := win0_5.stage (cfg0.slots t 5)
abbrev hs0_5 (t : Fin cfg0.N) : (ms0_5 t).IsWhole := hstage0_5 ((cfg0.slots t 5).cast nbuf0_5)
abbrev scM0_0 : Memref sig .tc .vmem S4096x512 .f32 := Memref.whole cc0_scratch0
abbrev scM0_1 : Memref sig .tc .vmem S4096x512 .f32 := Memref.whole cc0_scratch1

abbrev ms1_0 (t : Fin cfg1.N) : Memref sig .tc .vmem S4096x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .f32 := win1_3.stage (cfg1.slots t 3)
abbrev hs1_3 (t : Fin cfg1.N) : (ms1_3 t).IsWhole := hstage1_3 ((cfg1.slots t 3).cast nbuf1_3)
abbrev scM1_0 : Memref sig .tc .vmem S4096x512 .f32 := Memref.whole cc1_scratch0

end Cert.Kernel.Hand

end
-- ==== Proof.BRun0A.lean ====
/-
  The gate/up kernel's body at the first contraction step of an output tile: the two accumulators, whatever they
  held, are zeroed and then receive the first products. The scale rows and the output tile are left untouched.
-/
import proofs.«151881_j89111981457456_1_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S4096x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : cond0_0 i) (hc1 : ¬cond0_1 i)
    (x0 : Vec F S4096x256 .f32) (x1 x2 : Vec F S512x256 .f32) :
    Σ' (LS0 : List (View.Piece (Elt F) S4096x512 .f32)), { LS1 : List (View.Piece (Elt F) S4096x512 .f32) //
      ∀ (xi3 xi4 : Vec F S1x512 .f32) (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, fun xi3 xi4 xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.Hand

end
-- ==== Proof.BRun0B.lean ====
/-
  The gate/up kernel's body at a middle contraction step: neither branch is taken. The body reads the activation
  tile and the two weight tiles, adds each product into its accumulator, and leaves the scale rows and the output
  tile untouched. What the two accumulators end with is recorded as the list of stores the run performs.
-/
import proofs.«151881_j89111981457456_1_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S4096x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : ¬cond0_1 i)
    (x0 : Vec F S4096x256 .f32) (x1 x2 : Vec F S512x256 .f32) (xs0 xs1 : Vec F S4096x512 .f32) :
    Σ' (LS0 : List (View.Piece (Elt F) S4096x512 .f32)), { LS1 : List (View.Piece (Elt F) S4096x512 .f32) //
      ∀ (xi3 xi4 : Vec F S1x512 .f32) (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, fun xi3 xi4 xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.Hand

end
-- ==== Proof.BRun0C.lean ====
/-
  The gate/up kernel's body at the last contraction step of an output tile: the last products are added into the
  accumulators, then each accumulator is scaled by its row of channel scales, the gate passes through x · logistic x,
  is multiplied by the up value, and the tile is stored into the output window.
-/
import proofs.«151881_j89111981457456_1_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S4096x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : cond0_1 i)
    (x0 : Vec F S4096x256 .f32) (x1 x2 : Vec F S512x256 .f32) (x3 x4 : Vec F S1x512 .f32) (xs0 xs1 : Vec F S4096x512 .f32) :
    Σ' (L5 : List (View.Piece (Elt F) S4096x512 .bf16)) (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; iexact HS0
    iexists _; iexact HS1

end Cert.Kernel.Hand

end
-- ==== Proof.BDat0.lean ====
/-
  The proof data of the gate/up region, at any contents V of the core's buffers at the region's entry.

  Per grid point (output tile i, contraction step k) the body finds each input window's block of its array; the two
  accumulators are carried from step to step: zeroed and loaded with the first products at k = 0, added to at every
  later step, and at k = 13 scaled, activated and stored as the output tile. What the accumulators and the output
  buffer hold after each point is defined by recursion on the point, through the stores each case of the body
  performs. The invariant between points holds the two accumulators at those contents.
-/
import proofs.«151881_j89111981457456_1_alg».proof.Proof.BRun0A
import proofs.«151881_j89111981457456_1_alg».proof.Proof.BRun0B
import proofs.«151881_j89111981457456_1_alg».proof.Proof.BRun0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case of the body leaves -/

/-- One staging buffer of the output window and the two accumulators, as views through which contents are stated. -/
abbrev VO0_5 : View sig .tc .vmem S4096x512 .bf16 := (Memref.whole cc0_stg5_0 : Memref sig .tc .vmem S4096x512 .bf16).view
abbrev VS0_0 : View sig .tc .vmem S4096x512 .f32 := scM0_0.view
abbrev VS0_1 : View sig .tc .vmem S4096x512 .f32 := scM0_1.view

/-- The body's run at a first step, on the point's own memrefs. -/
abbrev runA (c : Dev nD) (t : Fin cfg0.N) (h0 : t.val % 14 = 0) (h1 : ¬t.val % 14 = 13) (x0 : Vec F S4096x256 .f32) (x1 x2 : Vec F S512x256 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) x0 x1 x2
/-- at a middle step, -/
abbrev runB (c : Dev nD) (t : Fin cfg0.N) (h0 : ¬t.val % 14 = 0) (h1 : ¬t.val % 14 = 13) (x0 : Vec F S4096x256 .f32) (x1 x2 : Vec F S512x256 .f32) (xs0 xs1 : Vec F S4096x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) x0 x1 x2 xs0 xs1
/-- and at a last step. -/
abbrev runC (c : Dev nD) (t : Fin cfg0.N) (h0 : ¬t.val % 14 = 0) (h1 : t.val % 14 = 13) (x0 : Vec F S4096x256 .f32) (x1 x2 : Vec F S512x256 .f32) (x3 x4 : Vec F S1x512 .f32) (xs0 xs1 : Vec F S4096x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) x0 x1 x2 x3 x4 xs0 xs1

/-- Contents nobody reads: the output buffer at a point that stores nothing into it. -/
def unread5 : Vec F S4096x512 .bf16 := VO0_5.read (Elt F) VO0_5.junk

/-- The stores of each case cover the buffers they fill. -/
theorem scoverA_0 (c t h0 h1) (x0 : Vec F S4096x256 .f32) (x1 x2 : Vec F S512x256 .f32) (y : S4096x512.Idx) :
    ∃ pc ∈ (runA (F := F) c t h0 h1 x0 x1 x2).1, y ∈ pc.1.set :=
  View.cover_of_tiledL (runA (F := F) c t h0 h1 x0 x1 x2).1 S4096x512.size (by sl_kernel_rfl) y
theorem scoverA_1 (c t h0 h1) (x0 : Vec F S4096x256 .f32) (x1 x2 : Vec F S512x256 .f32) (y : S4096x512.Idx) :
    ∃ pc ∈ (runA (F := F) c t h0 h1 x0 x1 x2).2.1, y ∈ pc.1.set :=
  View.cover_of_tiledL (runA (F := F) c t h0 h1 x0 x1 x2).2.1 S4096x512.size (by sl_kernel_rfl) y
theorem scoverB_0 (c t h0 h1) (x0 : Vec F S4096x256 .f32) (x1 x2 : Vec F S512x256 .f32) (xs0 xs1 : Vec F S4096x512 .f32) (y : S4096x512.Idx) :
    ∃ pc ∈ (runB (F := F) c t h0 h1 x0 x1 x2 xs0 xs1).1, y ∈ pc.1.set :=
  View.cover_of_tiledL (runB (F := F) c t h0 h1 x0 x1 x2 xs0 xs1).1 S4096x512.size (by sl_kernel_rfl) y
theorem scoverB_1 (c t h0 h1) (x0 : Vec F S4096x256 .f32) (x1 x2 : Vec F S512x256 .f32) (xs0 xs1 : Vec F S4096x512 .f32) (y : S4096x512.Idx) :
    ∃ pc ∈ (runB (F := F) c t h0 h1 x0 x1 x2 xs0 xs1).2.1, y ∈ pc.1.set :=
  View.cover_of_tiledL (runB (F := F) c t h0 h1 x0 x1 x2 xs0 xs1).2.1 S4096x512.size (by sl_kernel_rfl) y
theorem coverC_5 (c t h0 h1) (x0 : Vec F S4096x256 .f32) (x1 x2 : Vec F S512x256 .f32) (x3 x4 : Vec F S1x512 .f32) (xs0 xs1 : Vec F S4096x512 .f32) (y : S4096x512.Idx) :
    ∃ pc ∈ (runC (F := F) c t h0 h1 x0 x1 x2 x3 x4 xs0 xs1).1, y ∈ pc.1.set :=
  View.cover_of_tiledL (runC (F := F) c t h0 h1 x0 x1 x2 x3 x4 xs0 xs1).1 S4096x512.size (by sl_kernel_rfl) y
theorem scoverC_0 (c t h0 h1) (x0 : Vec F S4096x256 .f32) (x1 x2 : Vec F S512x256 .f32) (x3 x4 : Vec F S1x512 .f32) (xs0 xs1 : Vec F S4096x512 .f32) (y : S4096x512.Idx) :
    ∃ pc ∈ (runC (F := F) c t h0 h1 x0 x1 x2 x3 x4 xs0 xs1).2.1, y ∈ pc.1.set :=
  View.cover_of_tiledL (runC (F := F) c t h0 h1 x0 x1 x2 x3 x4 xs0 xs1).2.1 S4096x512.size (by sl_kernel_rfl) y
theorem scoverC_1 (c t h0 h1) (x0 : Vec F S4096x256 .f32) (x1 x2 : Vec F S512x256 .f32) (x3 x4 : Vec F S1x512 .f32) (xs0 xs1 : Vec F S4096x512 .f32) (y : S4096x512.Idx) :
    ∃ pc ∈ (runC (F := F) c t h0 h1 x0 x1 x2 x3 x4 xs0 xs1).2.2.1, y ∈ pc.1.set :=
  View.cover_of_tiledL (runC (F := F) c t h0 h1 x0 x1 x2 x3 x4 xs0 xs1).2.2.1 S4096x512.size (by sl_kernel_rfl) y

/-- What a first step leaves: (output buffer, gate accumulator, up accumulator). -/
def leftA (c : Dev nD) (t : Fin cfg0.N) (h0 : t.val % 14 = 0) (h1 : ¬t.val % 14 = 13) (x0 : Vec F S4096x256 .f32) (x1 x2 : Vec F S512x256 .f32) :
    Vec F S4096x512 .bf16 × Vec F S4096x512 .f32 × Vec F S4096x512 .f32 :=
  (unread5, VS0_0.read (Elt F) (VS0_0.writes (Elt F) VS0_0.junk (runA (F := F) c t h0 h1 x0 x1 x2).1),
    VS0_1.read (Elt F) (VS0_1.writes (Elt F) VS0_1.junk (runA (F := F) c t h0 h1 x0 x1 x2).2.1))
/-- What a middle step leaves, from the accumulators the step before left. -/
def leftB (c : Dev nD) (t : Fin cfg0.N) (h0 : ¬t.val % 14 = 0) (h1 : ¬t.val % 14 = 13) (x0 : Vec F S4096x256 .f32) (x1 x2 : Vec F S512x256 .f32) (xs0 xs1 : Vec F S4096x512 .f32) :
    Vec F S4096x512 .bf16 × Vec F S4096x512 .f32 × Vec F S4096x512 .f32 :=
  (unread5, VS0_0.read (Elt F) (VS0_0.writes (Elt F) VS0_0.junk (runB (F := F) c t h0 h1 x0 x1 x2 xs0 xs1).1),
    VS0_1.read (Elt F) (VS0_1.writes (Elt F) VS0_1.junk (runB (F := F) c t h0 h1 x0 x1 x2 xs0 xs1).2.1))
/-- What a last step leaves. -/
def leftC (c : Dev nD) (t : Fin cfg0.N) (h0 : ¬t.val % 14 = 0) (h1 : t.val % 14 = 13) (x0 : Vec F S4096x256 .f32) (x1 x2 : Vec F S512x256 .f32) (x3 x4 : Vec F S1x512 .f32) (xs0 xs1 : Vec F S4096x512 .f32) :
    Vec F S4096x512 .bf16 × Vec F S4096x512 .f32 × Vec F S4096x512 .f32 :=
  (VO0_5.read (Elt F) (VO0_5.writes (Elt F) VO0_5.junk (runC (F := F) c t h0 h1 x0 x1 x2 x3 x4 xs0 xs1).1),
    VS0_0.read (Elt F) (VS0_0.writes (Elt F) VS0_0.junk (runC (F := F) c t h0 h1 x0 x1 x2 x3 x4 xs0 xs1).2.1),
    VS0_1.read (Elt F) (VS0_1.writes (Elt F) VS0_1.junk (runC (F := F) c t h0 h1 x0 x1 x2 x3 x4 xs0 xs1).2.2.1))

/-! ## The accumulation, point by point -/

/-- What the output buffer and the two accumulators hold after the body at position n. -/
def outsAt0 (c : Dev nD) : (n : ℕ) → n < cfg0.N → Vec F S4096x512 .bf16 × Vec F S4096x512 .f32 × Vec F S4096x512 .f32
  | 0, hn => leftA c ⟨0, hn⟩ (Nat.zero_mod _) (by show ¬ 0 % 14 = 13; decide) (iblk0 V c 0 ⟨0, hn⟩) (iblk0 V c 1 ⟨0, hn⟩) (iblk0 V c 2 ⟨0, hn⟩)
  | n + 1, hn =>
    if h0 : (n + 1) % 14 = 0 then
      leftA c ⟨n + 1, hn⟩ h0 (by show ¬ (n + 1) % 14 = 13; omega) (iblk0 V c 0 ⟨n + 1, hn⟩) (iblk0 V c 1 ⟨n + 1, hn⟩) (iblk0 V c 2 ⟨n + 1, hn⟩)
    else if h1 : (n + 1) % 14 = 13 then
      leftC c ⟨n + 1, hn⟩ h0 h1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
        (outsAt0 c n (Nat.lt_of_succ_lt hn)).2.1 (outsAt0 c n (Nat.lt_of_succ_lt hn)).2.2
    else
      leftB c ⟨n + 1, hn⟩ h0 h1 (iblk0 V c 0 ⟨n + 1, hn⟩) (iblk0 V c 1 ⟨n + 1, hn⟩) (iblk0 V c 2 ⟨n + 1, hn⟩)
        (outsAt0 c n (Nat.lt_of_succ_lt hn)).2.1 (outsAt0 c n (Nat.lt_of_succ_lt hn)).2.2

theorem outsAt0_A (c : Dev nD) (t : Fin cfg0.N) (h0 : t.val % 14 = 0) (h1 : ¬t.val % 14 = 13) :
    outsAt0 V c t.val t.isLt = leftA c t h0 h1 (iblk0 V c 0 t) (iblk0 V c 1 t) (iblk0 V c 2 t) := by
  obtain ⟨n, hn⟩ := t
  cases n with
  | zero => rfl
  | succ n => exact (dif_pos h0).trans rfl

theorem outsAt0_B (c : Dev nD) (t : Fin cfg0.N) (h0 : ¬t.val % 14 = 0) (h1 : ¬t.val % 14 = 13) :
    outsAt0 V c t.val t.isLt = leftB c t h0 h1 (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 14 = 0) (h1 : t.val % 14 = 13) :
    outsAt0 V c t.val t.isLt = leftC c t h0 h1 (iblk0 V c 0 t) (iblk0 V c 1 t) (iblk0 V c 2 t) (iblk0 V c 3 t) (iblk0 V c 4 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- The scoped buffers of the core that belong to the other region, each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body before its first point: the accumulators at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA otherScoped0; rw [scopedRest0_eq]; simp only [scM0_0, scM0_1, owns_whole]; try rfl

/-- Before position n: at the start anything; afterwards the accumulators at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ otherScoped0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ otherScoped0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ otherScoped0 c) ∗ (∃ r, prngReg c r)) := by
  cases n with
  | zero => exact absurd rfl hz
  | succ n => rfl

/-! ## The proof data -/

/-- The gate/up region's proof data on core c. The stacked weight and the row of scales are each staged through two
    windows; each of the two holds its array at one half of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d

end

end Cert.Kernel.Hand

end
-- ==== Proof.BObl0.lean ====
/-
  The body obligation of the gate/up region: at every grid point the body, handed the invariant and each window's
  current staging buffer at what it then holds, runs to the invariant of the next point with each buffer at what the
  proof data says it leaves. Three cases by the contraction step: first (accumulators zeroed), middle, last (the
  output tile stored).
-/
import proofs.«151881_j89111981457456_1_alg».proof.Proof.BDat0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 518 := lt_of_lt_of_eq t.isLt (show cfg0.N = 518 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 14 = 0
  · have h1 : ¬t.val % 14 = 13 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold leftA; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA (F := F) c t h0 h1 (iblk0 V c 0 t) (iblk0 V c 1 t) (iblk0 V c 2 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c t h0 h1 _ _ _)
          isplitl [HS1]
          · unfold owns; iexists _; isplitr
            swap; · iexact HS1
            ipureintro; exact View.read_writes_of_cover _ _ _ _ _ (scoverA_1 c t h0 h1 _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runA (F := F) c t h0 h1 (iblk0 V c 0 t) (iblk0 V c 1 t) (iblk0 V c 2 t)).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverA_0 c t h0 h1 _ _ _)
          isplitl [HS1]
          · unfold owns; iexists _; isplitr
            swap; · iexact HS1
            ipureintro; exact View.read_writes_of_cover _ _ _ _ _ (scoverA_1 c t h0 h1 _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 14 = 13
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold leftC; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runC (F := F) c t h0 h1 (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverC_0 c t h0 h1 _ _ _ _ _ _ _)
          isplitl [HS1]
          · unfold owns; iexists _; isplitr
            swap; · iexact HS1
            ipureintro; exact View.read_writes_of_cover _ _ _ _ _ (scoverC_1 c t h0 h1 _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 c t h0 h1 _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold leftB; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((runB (F := F) c t h0 h1 (iblk0 V c 0 t) (iblk0 V c 1 t) (iblk0 V c 2 t) _ _).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scoverB_0 c t h0 h1 _ _ _ _ _)
          isplitl [HS1]
          · unfold owns; iexists _; isplitr
            swap; · iexact HS1
            ipureintro; exact View.read_writes_of_cover _ _ _ _ _ (scoverB_1 c t h0 h1 _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

end

end Cert.Kernel.Hand

end
-- ==== Proof.BBO0.lean ====
/-
  The gate/up region's body obligation in the pipeline library's form, and the invariant's two ends.
-/
import proofs.«151881_j89111981457456_1_alg».proof.Proof.BObl0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 8000000 in
/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands the body is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped buffers back, the accumulators' contents forgotten. -/
theorem Phi_out0 (c : Dev nD) (n : ℕ) (h : n ≤ cfg0.N) (hz : n ≠ 0) : PhiS0 V c n h ⊢ Pipeline.ΦA spec0 c := by
  rw [PhiS0_pos V c n h hz, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout0 (c : Dev nD) : (dat0 V c).Φ (Fin.last cfg0.N) ⊢ Pipeline.ΦA spec0 c := by
  have e : (dat0 V c).Φ (Fin.last cfg0.N) = PhiS0 V c (Fin.last cfg0.N).val (Nat.le_of_lt_succ (Fin.last cfg0.N).isLt) := by
    dsimp only [dat0]
  rw [e]
  exact Phi_out0 V c _ _ (by rw [Fin.val_last]; have : cfg0.N = 518 := N_0; omega)

end

end Cert.Kernel.Hand

end
-- ==== Proof.BRun1A.lean ====
/-
  The down kernel's body at the first contraction step of an output tile: the accumulator is zeroed and receives the
  first product; the scale row and the output tile are left untouched.
-/
import proofs.«151881_j89111981457456_1_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S4096x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x512 .f32) (harg6 : arg6.IsWhole) (hc0 : cond1_0 i) (hc1 : ¬cond1_1 i)
    (x0 : Vec F S4096x512 .bf16) (x1 : Vec F S512x512 .f32)  :
    { LS0 : List (View.Piece (Elt F) S4096x512 .f32) //
      ∀ (xi2 : Vec F S1x512 .f32) (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_b i arg2 harg2 arg3 harg3 arg4 harg4 arg5 harg5 arg6 harg6) K } := by
  refine ⟨?_, fun xi2 xi3 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.BRun1B.lean ====
/-
  The down kernel's body at a middle contraction step: the product of the hidden tile and the weight tile is added
  into the accumulator; the scale row and the output tile are left untouched.
-/
import proofs.«151881_j89111981457456_1_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4096x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : ¬cond1_1 i)
    (x0 : Vec F S4096x512 .bf16) (x1 : Vec F S512x512 .f32) (xs0 : Vec F S4096x512 .f32) :
    { LS0 : List (View.Piece (Elt F) S4096x512 .f32) //
      ∀ (xi2 : Vec F S1x512 .f32) (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_b i arg2 harg2 arg3 harg3 arg4 harg4 arg5 harg5 arg6 harg6) K } := by
  refine ⟨?_, fun xi2 xi3 E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.BRun1C.lean ====
/-
  The down kernel's body at the last contraction step of an output tile: the last product is added into the
  accumulator, which is then scaled by the row of channel scales and stored into the output window.
-/
import proofs.«151881_j89111981457456_1_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4096x512 .bf16) (harg2 : arg2.IsWhole) (arg3 : Memref sig .tc .vmem S512x512 .f32) (harg3 : arg3.IsWhole) (arg4 : Memref sig .tc .vmem S1x512 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : cond1_1 i)
    (x0 : Vec F S4096x512 .bf16) (x1 : Vec F S512x512 .f32) (x2 : Vec F S1x512 .f32) (xs0 : Vec F S4096x512 .f32) :
    Σ' (L3 : List (View.Piece (Elt F) S4096x512 .f32)), { LS0 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_b i arg2 harg2 arg3 harg3 arg4 harg4 arg5 harg5 arg6 harg6) K } := by
  refine ⟨?_, ?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BDat1.lean ====
/-
  The proof data of the down region, at any contents V of the core's buffers at the region's entry.

  Per grid point (output tile n, contraction step k) the body finds the hidden tile, the weight tile and the row of
  scales; one accumulator is carried from step to step: zeroed and loaded with the first product at k = 0, added to at
  every later step, and at k = 36 scaled and stored as the output tile.
-/
import proofs.«151881_j89111981457456_1_alg».proof.Proof.BRun1A
import proofs.«151881_j89111981457456_1_alg».proof.Proof.BRun1B
import proofs.«151881_j89111981457456_1_alg».proof.Proof.BRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case of the body leaves -/

abbrev VO1_3 : View sig .tc .vmem S4096x512 .f32 := (Memref.whole cc1_stg3_0 : Memref sig .tc .vmem S4096x512 .f32).view
abbrev VS1_0 : View sig .tc .vmem S4096x512 .f32 := scM1_0.view

abbrev run1A (c : Dev nD) (t : Fin cfg1.N) (h0 : t.val % 37 = 0) (h1 : ¬t.val % 37 = 36) (x0 : Vec F S4096x512 .bf16) (x1 : Vec F S512x512 .f32) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) x0 x1
abbrev run1B (c : Dev nD) (t : Fin cfg1.N) (h0 : ¬t.val % 37 = 0) (h1 : ¬t.val % 37 = 36) (x0 : Vec F S4096x512 .bf16) (x1 : Vec F S512x512 .f32) (xs0 : Vec F S4096x512 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) x0 x1 xs0
abbrev run1C (c : Dev nD) (t : Fin cfg1.N) (h0 : ¬t.val % 37 = 0) (h1 : t.val % 37 = 36) (x0 : Vec F S4096x512 .bf16) (x1 : Vec F S512x512 .f32) (x2 : Vec F S1x512 .f32) (xs0 : Vec F S4096x512 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) x0 x1 x2 xs0

/-- Contents nobody reads: the output buffer at a point that stores nothing into it. -/
def unread3 : Vec F S4096x512 .f32 := VO1_3.read (Elt F) VO1_3.junk

theorem scover1A_0 (c t h0 h1) (x0 : Vec F S4096x512 .bf16) (x1 : Vec F S512x512 .f32) (y : S4096x512.Idx) :
    ∃ pc ∈ (run1A (F := F) c t h0 h1 x0 x1).1, y ∈ pc.1.set :=
  View.cover_of_tiledL (run1A (F := F) c t h0 h1 x0 x1).1 S4096x512.size (by sl_kernel_rfl) y
theorem scover1B_0 (c t h0 h1) (x0 : Vec F S4096x512 .bf16) (x1 : Vec F S512x512 .f32) (xs0 : Vec F S4096x512 .f32) (y : S4096x512.Idx) :
    ∃ pc ∈ (run1B (F := F) c t h0 h1 x0 x1 xs0).1, y ∈ pc.1.set :=
  View.cover_of_tiledL (run1B (F := F) c t h0 h1 x0 x1 xs0).1 S4096x512.size (by sl_kernel_rfl) y
theorem cover1C_3 (c t h0 h1) (x0 : Vec F S4096x512 .bf16) (x1 : Vec F S512x512 .f32) (x2 : Vec F S1x512 .f32) (xs0 : Vec F S4096x512 .f32) (y : S4096x512.Idx) :
    ∃ pc ∈ (run1C (F := F) c t h0 h1 x0 x1 x2 xs0).1, y ∈ pc.1.set :=
  View.cover_of_tiledL (run1C (F := F) c t h0 h1 x0 x1 x2 xs0).1 S4096x512.size (by sl_kernel_rfl) y
theorem scover1C_0 (c t h0 h1) (x0 : Vec F S4096x512 .bf16) (x1 : Vec F S512x512 .f32) (x2 : Vec F S1x512 .f32) (xs0 : Vec F S4096x512 .f32) (y : S4096x512.Idx) :
    ∃ pc ∈ (run1C (F := F) c t h0 h1 x0 x1 x2 xs0).2.1, y ∈ pc.1.set :=
  View.cover_of_tiledL (run1C (F := F) c t h0 h1 x0 x1 x2 xs0).2.1 S4096x512.size (by sl_kernel_rfl) y

/-- What a first step leaves: (output buffer, accumulator). -/
def left1A (c : Dev nD) (t : Fin cfg1.N) (h0 : t.val % 37 = 0) (h1 : ¬t.val % 37 = 36) (x0 : Vec F S4096x512 .bf16) (x1 : Vec F S512x512 .f32) :
    Vec F S4096x512 .f32 × Vec F S4096x512 .f32 :=
  (unread3, VS1_0.read (Elt F) (VS1_0.writes (Elt F) VS1_0.junk (run1A (F := F) c t h0 h1 x0 x1).1))
def left1B (c : Dev nD) (t : Fin cfg1.N) (h0 : ¬t.val % 37 = 0) (h1 : ¬t.val % 37 = 36) (x0 : Vec F S4096x512 .bf16) (x1 : Vec F S512x512 .f32) (xs0 : Vec F S4096x512 .f32) :
    Vec F S4096x512 .f32 × Vec F S4096x512 .f32 :=
  (unread3, VS1_0.read (Elt F) (VS1_0.writes (Elt F) VS1_0.junk (run1B (F := F) c t h0 h1 x0 x1 xs0).1))
def left1C (c : Dev nD) (t : Fin cfg1.N) (h0 : ¬t.val % 37 = 0) (h1 : t.val % 37 = 36) (x0 : Vec F S4096x512 .bf16) (x1 : Vec F S512x512 .f32) (x2 : Vec F S1x512 .f32) (xs0 : Vec F S4096x512 .f32) :
    Vec F S4096x512 .f32 × Vec F S4096x512 .f32 :=
  (VO1_3.read (Elt F) (VO1_3.writes (Elt F) VO1_3.junk (run1C (F := F) c t h0 h1 x0 x1 x2 xs0).1),
    VS1_0.read (Elt F) (VS1_0.writes (Elt F) VS1_0.junk (run1C (F := F) c t h0 h1 x0 x1 x2 xs0).2.1))

/-! ## The accumulation, point by point -/

def outsAt1 (c : Dev nD) : (n : ℕ) → n < cfg1.N → Vec F S4096x512 .f32 × Vec F S4096x512 .f32
  | 0, hn => left1A c ⟨0, hn⟩ (Nat.zero_mod _) (by show ¬ 0 % 37 = 36; decide) (iblk1 V c 0 ⟨0, hn⟩) (iblk1 V c 1 ⟨0, hn⟩)
  | n + 1, hn =>
    if h0 : (n + 1) % 37 = 0 then
      left1A c ⟨n + 1, hn⟩ h0 (by show ¬ (n + 1) % 37 = 36; omega) (iblk1 V c 0 ⟨n + 1, hn⟩) (iblk1 V c 1 ⟨n + 1, hn⟩)
    else if h1 : (n + 1) % 37 = 36 then
      left1C c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn)).2
    else
      left1B c ⟨n + 1, hn⟩ h0 h1 (iblk1 V c 0 ⟨n + 1, hn⟩) (iblk1 V c 1 ⟨n + 1, hn⟩) (outsAt1 c n (Nat.lt_of_succ_lt hn)).2

theorem outsAt1_A (c : Dev nD) (t : Fin cfg1.N) (h0 : t.val % 37 = 0) (h1 : ¬t.val % 37 = 36) :
    outsAt1 V c t.val t.isLt = left1A c t h0 h1 (iblk1 V c 0 t) (iblk1 V c 1 t) := by
  obtain ⟨n, hn⟩ := t
  cases n with
  | zero => rfl
  | succ n => exact (dif_pos h0).trans rfl

theorem outsAt1_B (c : Dev nD) (t : Fin cfg1.N) (h0 : ¬t.val % 37 = 0) (h1 : ¬t.val % 37 = 36) :
    outsAt1 V c t.val t.isLt = left1B c t h0 h1 (iblk1 V c 0 t) (iblk1 V c 1 t)
      (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 37 = 0) (h1 : t.val % 37 = 36) :
    outsAt1 V c t.val t.isLt = left1C c t h0 h1 (iblk1 V c 0 t) (iblk1 V c 1 t) (iblk1 V c 2 t)
      (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- The core's scoped buffers that are no staging buffer of this region: the other region's, each whole at some
    contents, and last this region's accumulator, in the state S. -/
def scoped1With (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

theorem PhiA1_eq (c : Dev nD) :
    (Pipeline.ΦA spec1 c : sProp 𝕄) = iprop(scoped1With c (iprop(∃ d, owns (c : Thread nD τ) scM1_0 fullShare d)) ∗ (∃ r, prngReg c r)) := by
  unfold Pipeline.ΦA scoped1With; rw [scopedRest1_eq]; simp only [scM1_0, owns_whole]; try rfl

def PhiS1 (c : Dev nD) : (n : ℕ) → n ≤ cfg1.N → sProp 𝕄
  | 0, _ => Pipeline.ΦA spec1 c
  | n + 1, hn => iprop(scoped1With c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1With c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(scoped1With c (owns (c : Thread nD τ) scM1_0 fullShare ((outsAt1 V c (n - 1) (by omega)).2)) ∗ (∃ r, prngReg c r)) := by
  cases n with
  | zero => exact absurd rfl hz
  | succ n => rfl

/-- The accumulator's state can be exchanged inside the chain of scoped buffers. -/
theorem scoped1With_mono (c : Dev nD) {S S' : sProp 𝕄} (h : S ⊢ S') : scoped1With c S ⊢ scoped1With c S' := by
  unfold scoped1With
  iintro ⟨H0, H1, H2, H3, H4, H5, H6, H7, H8, H9, H10, H11, H12, H13, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply h; iexact HS

/-- The accumulator taken out of the chain and the rest kept. -/
def others1 (c : Dev nD) : sProp 𝕄 := scoped1With c iprop(emp)
theorem scoped1With_split (c : Dev nD) (S : sProp 𝕄) : scoped1With c S ⊣⊢ iprop(others1 c ∗ S) := by
  unfold others1 scoped1With
  constructor
  · iintro ⟨H0, H1, H2, H3, H4, H5, H6, H7, H8, H9, H10, H11, H12, H13, HS⟩
    isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iempintro
    · iexact HS
  · iintro ⟨⟨H0, H1, H2, H3, H4, H5, H6, H7, H8, H9, H10, H11, H12, H13, -⟩, HS⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

end

end Cert.Kernel.Hand

end
-- ==== Proof.BObl1.lean ====
/-
  The body obligation of the down region: at every grid point the body, handed the invariant and each window's
  current staging buffer, runs to the invariant of the next point with each buffer at what the proof data says it
  leaves. Three cases by the contraction step: first, middle, last (the output tile stored).
-/
import proofs.«151881_j89111981457456_1_alg».proof.Proof.BDat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 259 := lt_of_lt_of_eq t.isLt (show cfg1.N = 259 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 37 = 0
  · have h1 : ¬t.val % 37 = 36 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold left1A; (try dsimp only)
    by_cases hz : t.val = 0
    · rw [PhiS1_castSucc V c t, PhiS1_zero V c _ _ hz, PhiA1_eq]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1A (F := F) c t h0 h1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1A_0 c t h0 h1 _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1A (F := F) c t h0 h1 (iblk1 V c 0 t) (iblk1 V c 1 t)).2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1A_0 c t h0 h1 _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 37 = 36
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold left1C; (try dsimp only)
      rw [PhiS1_castSucc V c t, PhiS1_pos V c _ _ hz]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1C (F := F) c t h0 h1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1C_0 c t h0 h1 _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1C_3 c t h0 h1 _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold left1B; (try dsimp only)
      rw [PhiS1_castSucc V c t, PhiS1_pos V c _ _ hz]
      iintro ⟨⟨Hsc, Hg⟩, Ho, ⟨%d0, H0⟩, ⟨%d1, H1⟩, ⟨%d2, H2⟩, ⟨%d3, H3⟩⟩
      ihave Hsc' := (scoped1With_split c _).1 $$ Hsc
      icases Hsc' with ⟨Hoth, HS0⟩
      iapply ((run1B (F := F) c t h0 h1 (iblk1 V c 0 t) (iblk1 V c 1 t) _).2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · iapply (scoped1With_split c _).2
          isplitl [Hoth]; · iexact Hoth
          unfold owns; iexists _; isplitr
          swap; · iexact HS0
          ipureintro; exact View.read_writes_of_cover _ _ _ _ _ (scover1B_0 c t h0 h1 _ _ _)
        iexact Hg
      isplitl [Ho]; · iexact Ho
      isplitl [H0]; · iexact H0
      isplitl [H1]; · iexact H1
      isplitl [H2]; · iexact H2
      iexists _; iexact H3

end

end Cert.Kernel.Hand

end
-- ==== Proof.BBO1.lean ====
/-
  The down region's body obligation in the pipeline library's form, and the invariant's two ends.
-/
import proofs.«151881_j89111981457456_1_alg».proof.Proof.BObl1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 8000000 in
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 259 := N_1; omega), PhiA1_eq]
  iintro ⟨Hsc, Hg⟩
  isplitl [Hsc]
  · ihave H' := (scoped1With_split c _).1 $$ Hsc
    icases H' with ⟨Hoth, HS0⟩
    iapply (scoped1With_split c _).2
    isplitl [Hoth]; · iexact Hoth
    iexists _; iexact HS0
  iexact Hg

end

end Cert.Kernel.Hand

end
-- ==== Proof.BBounds.lean ====
/-
  The whole run of the accelerator program: the two host transposes, the gate/up region, the down region.

  Between two items of @main every unscoped buffer of a core is held whole at named contents: the launch memory, then
  what the transposes compute, then the hidden array replaced by what the first region's write-backs leave, then the
  result array replaced by what the second region's write-backs leave. The first region is handed the stacked weight
  and the row of scales through two windows each; each window receives one half of the array's share at the entry and
  gives it back at the exit. At the end every buffer is read back against the last named contents: the arguments at
  their launch contents, the result at what the second region left.
-/
import proofs.«151881_j89111981457456_1_alg».proof.Proof.BBO0
import proofs.«151881_j89111981457456_1_alg».proof.Proof.BBO1
import proofs.«151881_j89111981457456_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the two transposes: the first region's entry. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After the first region: the hidden array at what its write-backs leave. -/
def W2 (c : Dev nD) : Valuation τ sig (Elt F) :=
  Function.update (W1 m c) main_v2 ((dat0 (U1 m) c).arrAt 5 cfg0.N : Buf (Elt F) ((c : Thread nD τ).loc main_v2))
abbrev U2 : (c : Dev nD) → (b : Ref sig .tc) → Buf (Elt F) ((c : Thread nD τ).loc b) := fun c b => W2 m c b
/-- After the second region: the result array at what its write-backs leave. -/
def W3 (c : Dev nD) : Valuation τ sig (Elt F) :=
  Function.update (W2 m c) main_v3 ((dat1 (U2 m) c).arrAt 3 cfg1.N : Buf (Elt F) ((c : Thread nD τ).loc main_v3))
abbrev U3 : (c : Dev nD) → (b : Ref sig .tc) → Buf (Elt F) ((c : Thread nD τ).loc b) := fun c b => W3 m c b

theorem W2_v2 (c : Dev nD) : W2 m c (Proc.devRef .tc main_v2) = (dat0 (U1 m) c).arrAt 5 cfg0.N := by
  unfold W2; exact Function.update_self ..
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) ..
theorem W3_v3 (c : Dev nD) : W3 m c (Proc.devRef .tc main_v3) = (dat1 (U2 m) c).arrAt 3 cfg1.N := by
  unfold W3; exact Function.update_self ..
theorem W3_of_ne (c : Dev nD) (b : Ref sig .tc) (hb : b ≠ main_v3) : W3 m c (Proc.devRef .tc b) = W2 m c (Proc.devRef .tc b) := by
  unfold W3; exact Function.update_of_ne (StableHlo.devRef_ne_of_ne hb) ..

/-- No item writes an argument: at the end each holds its launch contents. -/
theorem W3_arg (c : Dev nD) (r : Ref sig .tc) (h3 : r ≠ main_v3) (h2 : r ≠ main_v2) (h1 : r ∉ Gen.hostOps0_W) :
    W3 m c (Proc.devRef .tc r) = m ((c : Thread nD τ).loc r) :=
  (W3_of_ne m c r h3).trans ((W2_of_ne m c r h2).trans (Gen.V1_of m c r h1))

end Cert.Kernel.Hand

end
-- ==== Proof.BEntry0.lean ====
/-
  The gate/up region's arrays at its two ends. The stacked weight is staged through two windows (gate rows, up rows)
  and so is the row of scales: behind the six windows stand four buffers. At the entry each shared buffer's full
  share is halved, one half per window; at the exit the halves are joined again. The hidden array, the one output,
  comes back at what the write-backs left in it.
-/
import proofs.«151881_j89111981457456_1_alg».proof.Proof.BBO0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's array as the proof data holds it, against the buffer behind it. -/
theorem arr0_eq (c : Dev nD) (w : Fin cfg0.W) (G : Buf (Elt F) ((cfg0.win w).arr.view.loc (c : Thread nD τ))) :
    (((cfg0.win w).arr.view.loc (c : Thread nD τ)) ↦[(cfg0.win w).arr.view.set]{(dat0 V c).share w} G : sProp 𝕄)
      = (((c : Thread nD τ).loc (Pipeline.arrRef spec0 w)) ↦{(dat0 V c).share w} G : sProp 𝕄) := by
  rw [(arr_whole0 w).set_eq_univ]

/-- The four buffers behind the six windows, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1) ∗ (((c : Thread nD τ).loc main_v0) ↦{fullShare} W main_v0) ∗ (((c : Thread nD τ).loc main_v2) ↦{fullShare} W main_v2)) := by
  unfold Pipeline.arrBufs
  exact bigSep_eq_bigSepL_of_eq [main_arg0, main_arg1, main_v0, main_v2] (by decide) (by decide) _

/-- The six windows' arrays as the proof data holds them, listed with their shares. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare} G 0) ∗ (((c : Thread nD τ).loc (Pipeline.arrRef spec0 1)) ↦{fullShare.left} G 1) ∗ (((c : Thread nD τ).loc (Pipeline.arrRef spec0 2)) ↦{fullShare.right} G 2)
          ∗ (((c : Thread nD τ).loc (Pipeline.arrRef spec0 3)) ↦{fullShare.left} G 3) ∗ (((c : Thread nD τ).loc (Pipeline.arrRef spec0 4)) ↦{fullShare.right} G 4) ∗ (((c : Thread nD τ).loc (Pipeline.arrRef spec0 5)) ↦{fullShare} G 5)) := by
  have s0 : (dat0 V c).share 0 = fullShare := rfl
  have s1 : (dat0 V c).share 1 = fullShare.left := rfl
  have s2 : (dat0 V c).share 2 = fullShare.right := rfl
  have s3 : (dat0 V c).share 3 = fullShare.left := rfl
  have s4 : (dat0 V c).share 4 = fullShare.right := rfl
  have s5 : (dat0 V c).share 5 = fullShare := rfl
  unfold Dat.arrays
  rw [bigSep_W0, arr0_eq V c 0, arr0_eq V c 1, arr0_eq V c 2, arr0_eq V c 3, arr0_eq V c 4, arr0_eq V c 5, s0, s1, s2, s3, s4, s5]

theorem split0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs (0 : Fin 2) winFacts₀0.arr_unscoped c (V c)]
  refine sep_mono ?_ .rfl
  change (Pipeline.arrBufs spec0 c (V c) : sProp 𝕄) ⊢ _
  rw [arrBufs0_eq, arrays0_eq]
  iintro ⟨H0, H1, H3, H5⟩
  ihave H1' := (pointsTo_share (PosShare.mem_left_op_right fullShare)).1 $$ H1
  icases H1' with ⟨H1a, H1b⟩
  ihave H3' := (pointsTo_share (PosShare.mem_left_op_right fullShare)).1 $$ H3
  icases H3' with ⟨H3a, H3b⟩
  isplitl [H0]; · iexact H0
  isplitl [H1a]; · iexact H1a
  isplitl [H1b]; · iexact H1b
  isplitl [H3a]; · iexact H3a
  isplitl [H3b]; · iexact H3b
  iexact H5

theorem join0 (c : Dev nD) (V' : (b : Ref sig .tc) → Buf (Elt F) ((c : Thread nD τ).loc b))
    (h5 : V' main_v2 = (dat0 V c).arrAt 5 cfg0.N) (hrest : ∀ b, b ≠ main_v2 → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ cfgs (0 : Fin 2) winFacts₀0.arr_unscoped c V']
  refine sep_mono ?_ (Entails.of_eq ?_)
  · change _ ⊢ (Pipeline.arrBufs spec0 c V' : sProp 𝕄)
    rw [arrBufs0_eq, arrays0_eq]
    rw [(dat0 V c).arrAt_in 0 rfl, (dat0 V c).arrAt_in 1 rfl, (dat0 V c).arrAt_in 2 rfl, (dat0 V c).arrAt_in 3 rfl, (dat0 V c).arrAt_in 4 rfl]
    rw [hrest main_arg0 (by decide), hrest main_arg1 (by decide), hrest main_v0 (by decide), h5]
    iintro ⟨H0, H1a, H1b, H3a, H3b, H5⟩
    isplitl [H0]; · iexact H0
    isplitl [H1a H1b]
    · iapply (pointsTo_share (PosShare.mem_left_op_right fullShare)).2
      isplitl [H1a]; · iexact H1a
      iexact H1b
    isplitl [H3a H3b]
    · iapply (pointsTo_share (PosShare.mem_left_op_right fullShare)).2
      isplitl [H3a]; · iexact H3a
      iexact H3b
    iexact H5
  · unfold Pipeline.unscopedRest
    exact bigSep_congr fun b hb => by
      rw [hrest b (fun e => (Finset.mem_sdiff.mp hb).2 (e ▸ Finset.mem_image.mpr ⟨5, Finset.mem_univ _, rfl⟩))]

end

end Cert.Kernel.Hand

end
-- ==== Proof.BRun.lean ====
/-
  The two regions as segments of @main over the named buffer contents, and the run of the whole program: every
  weakly fair execution terminates without a fault, the arguments end as launched and the result array ends at what
  the down region's write-backs leave.
-/
import proofs.«151881_j89111981457456_1_alg».proof.Proof.BBounds
import proofs.«151881_j89111981457456_1_alg».proof.Proof.BEntry0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each pipeline's proof data at its region's entry contents. -/
def pdats : (p : Fin 2) → (c : Dev nD) → Dat τ (Elt F) Unit ℕ (UR sig nD τ) ℕ (Pipeline.pin (pcfgs (F := F)) Gen.adm p) c
  | ⟨0, _⟩ => fun c => dat0 (U1 m) c
  | ⟨1, _⟩ => fun c => dat1 (U2 m) c

abbrev 𝒱₀ : Variants := Variants.none
abbrev L0 : GSem nD τ sig → Finset Unit := fun _ => ∅
abbrev lv0 : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-- The down region's arrays at its exit are the last boundary's contents at them. -/
theorem hF1 (c : Dev nD) (w : Fin cfg1.W) : (dat1 (U2 m) c).arrAt w cfg1.N = U3 m c (Pipeline.arrRef spec1 w) := by
  match w with
  | ⟨0, _⟩ => exact ((dat1 (U2 m) c).arrAt_in 0 rfl _).trans ((A_eq1 (U2 m) c 0).trans (W3_of_ne m c _ (by decide)).symm)
  | ⟨1, _⟩ => exact ((dat1 (U2 m) c).arrAt_in 1 rfl _).trans ((A_eq1 (U2 m) c 1).trans (W3_of_ne m c _ (by decide)).symm)
  | ⟨2, _⟩ => exact ((dat1 (U2 m) c).arrAt_in 2 rfl _).trans ((A_eq1 (U2 m) c 2).trans (W3_of_ne m c _ (by decide)).symm)
  | ⟨3, _⟩ => exact (W3_v3 m c).symm
theorem hrest1 (c : Dev nD) : ∀ b, b ∉ Finset.univ.image (Pipeline.arrRef spec1) → U3 m c b = U2 m c b :=
  fun b hb => W3_of_ne m c b fun e => hb (e ▸ Finset.mem_image.mpr ⟨3, Finset.mem_univ _, rfl⟩)

set_option backward.isDefEq.respectTransparency.types false in
/-- The gate/up region, entered from the contents after the transposes and left with the hidden array written. -/
def reg0 : Pipeline.RegionSeg (pcfgs (F := F)) Gen.adm (pdats m) () defs₀ 𝒱₀ L0 lv0 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L0 lv0 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := split0 (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    rw [Pipeline.ownSems0_none]
    refine BIBase.Entails.trans (hout0 (U1 m) c) ?_
    unfold Pipeline.ΦA
    iintro ⟨Hr, Hp⟩
    isplitl [Hp]; · iexact Hp
    isplitr; · iempintro
    iexact Hr
  hexit c := by
    have hjoin := join0 (U1 m) c (U2 m c) (W2_v2 m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The down region, entered from the contents the first region left and left with the result array written. -/
def reg1 : Pipeline.RegionSeg (pcfgs (F := F)) Gen.adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L0 lv0 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m) c)
    unfold Pipeline.ΦA
    iintro ⟨Hp, -, Hr⟩
    isplitl [Hr]; · iexact Hr
    iexact Hp
  hout c := by
    rw [Pipeline.ownSems0_none]
    refine BIBase.Entails.trans (hout1 (U2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three items in order. -/
abbrev segs : List (Pipeline.Seg (pcfgs (F := F)) Gen.adm (pdats m) () defs₀ 𝒱₀ L0 lv0) :=
  [ .host (hseg hostOps0 hostOps0_sub Gen.hostOps0_fresh (W0 m)),
    .region (reg0 m),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting;
    the result array ends at what the down region's write-backs leave and the five arguments end as launched. -/
theorem run_all : θ_run defs (onTc (τ := τ) (main (F := F))) ⟨m, fun _ => 0, ρ⟩ (fun r => ∀ c : Dev nD,
      r.2.mem ((c.tc : Thread nD τ).loc main_v3) = (dat1 (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) Gen.adm (pdats m) () cellOf_inj emb₁ defs₀ 𝒱₀ L0 lv0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_v3 m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide))⟩)

end Cert.Kernel.Hand

end
-- ==== Proof.Pieces0.lean ====
/-
  What each case of the gate/up body leaves in the two accumulators and in the output buffer, as the body's own
  pure terms over the blocks it loaded.

  Each buffer a case fills ends with a list of whole-buffer stores; the last one decides the contents. Its payload
  reads the blocks through whole-buffer loads, and a load of an accumulator that the same case already stored into
  reads that store's payload. So a first step leaves the products added to the zero fill, a middle step the products
  added to what the step before left, and a last step also the gated, scaled output tile.
-/
import proofs.«151881_j89111981457456_1_alg».proof.Proof.Dat0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole-buffer offsets are zero. -/
theorem hzOff0 : (![0, 0] : Fin 2 → Nat) = fun _ => 0 := funext fun a => by fin_cases a <;> rfl

/-! ## A first step -/

/-- The gate accumulator after a first step: the products added to the zero fill. -/
theorem leftA_gate (c : Dev nD) (t : Fin cfg0.N) (h0 : t.val % 14 = 0) (h1 : ¬t.val % 14 = 13) (x0 : Vec F S4096x256 .f32) (x1 x2 : Vec F S512x256 .f32) :
    (leftA (F := F) c t h0 h1 x0 x1 x2).2.1 = k0_pay4 x0 x1 (k0_pay1 (F := F)) := by
  unfold leftA
  dsimp only
  rw [View.read_writes_eq_canon _ _ _ (scoverA_0 c t h0 h1 x0 x1 x2)]
  unfold runA
  unfold kernelRun0_A
  dsimp only
  sl_unfold_words
  rw [View.canon_cons_unit_zero (S := S4096x512) hzOff0, View.readCov_unit_zero (S := S4096x512) _ hzOff0]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S4096x256) hzOff0, View.ld_unit_zero (S := S512x256) hzOff0, View.ld_unit_zero (S := S1x512) hzOff0, View.ld_unit_zero (S := S4096x512) hzOff0]

/-- The up accumulator after a first step: the products added to the zero fill. -/
theorem leftA_up (c : Dev nD) (t : Fin cfg0.N) (h0 : t.val % 14 = 0) (h1 : ¬t.val % 14 = 13) (x0 : Vec F S4096x256 .f32) (x1 x2 : Vec F S512x256 .f32) :
    (leftA (F := F) c t h0 h1 x0 x1 x2).2.2 = k0_pay5 x0 x2 (k0_pay2 (F := F)) := by
  unfold leftA
  dsimp only
  rw [View.read_writes_eq_canon _ _ _ (scoverA_1 c t h0 h1 x0 x1 x2)]
  unfold runA
  unfold kernelRun0_A
  dsimp only
  sl_unfold_words
  rw [View.canon_cons_unit_zero (S := S4096x512) hzOff0, View.readCov_unit_zero (S := S4096x512) _ hzOff0]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S4096x256) hzOff0, View.ld_unit_zero (S := S512x256) hzOff0, View.ld_unit_zero (S := S1x512) hzOff0, View.ld_unit_zero (S := S4096x512) hzOff0]

/-! ## A middle step -/

/-- The gate accumulator after a middle step: the products added to what the step before left. -/
theorem leftB_gate (c : Dev nD) (t : Fin cfg0.N) (h0 : ¬t.val % 14 = 0) (h1 : ¬t.val % 14 = 13) (x0 : Vec F S4096x256 .f32) (x1 x2 : Vec F S512x256 .f32) (xs0 xs1 : Vec F S4096x512 .f32) :
    (leftB (F := F) c t h0 h1 x0 x1 x2 xs0 xs1).2.1 = k0_pay4 x0 x1 xs0 := by
  unfold leftB
  dsimp only
  rw [View.read_writes_eq_canon _ _ _ (scoverB_0 c t h0 h1 x0 x1 x2 xs0 xs1)]
  unfold runB
  unfold kernelRun0_B
  dsimp only
  rw [View.canon_unit_zero (S := S4096x512) hzOff0]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S4096x256) hzOff0, View.ld_unit_zero (S := S512x256) hzOff0, View.ld_unit_zero (S := S1x512) hzOff0, View.ld_unit_zero (S := S4096x512) hzOff0]

/-- The up accumulator after a middle step: the products added to what the step before left. -/
theorem leftB_up (c : Dev nD) (t : Fin cfg0.N) (h0 : ¬t.val % 14 = 0) (h1 : ¬t.val % 14 = 13) (x0 : Vec F S4096x256 .f32) (x1 x2 : Vec F S512x256 .f32) (xs0 xs1 : Vec F S4096x512 .f32) :
    (leftB (F := F) c t h0 h1 x0 x1 x2 xs0 xs1).2.2 = k0_pay5 x0 x2 xs1 := by
  unfold leftB
  dsimp only
  rw [View.read_writes_eq_canon _ _ _ (scoverB_1 c t h0 h1 x0 x1 x2 xs0 xs1)]
  unfold runB
  unfold kernelRun0_B
  dsimp only
  rw [View.canon_unit_zero (S := S4096x512) hzOff0]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S4096x256) hzOff0, View.ld_unit_zero (S := S512x256) hzOff0, View.ld_unit_zero (S := S1x512) hzOff0, View.ld_unit_zero (S := S4096x512) hzOff0]

/-! ## A last step -/

/-- The gate accumulator after a last step. -/
theorem leftC_gate (c : Dev nD) (t : Fin cfg0.N) (h0 : ¬t.val % 14 = 0) (h1 : t.val % 14 = 13) (x0 : Vec F S4096x256 .f32) (x1 x2 : Vec F S512x256 .f32) (x3 x4 : Vec F S1x512 .f32) (xs0 xs1 : Vec F S4096x512 .f32) :
    (leftC (F := F) c t h0 h1 x0 x1 x2 x3 x4 xs0 xs1).2.1 = k0_pay4 x0 x1 xs0 := by
  unfold leftC
  dsimp only
  rw [View.read_writes_eq_canon _ _ _ (scoverC_0 c t h0 h1 x0 x1 x2 x3 x4 xs0 xs1)]
  unfold runC
  unfold kernelRun0_C
  dsimp only
  sl_unfold_words
  rw [View.canon_unit_zero (S := S4096x512) hzOff0]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S4096x256) hzOff0, View.ld_unit_zero (S := S512x256) hzOff0, View.ld_unit_zero (S := S1x512) hzOff0, View.ld_unit_zero (S := S4096x512) hzOff0]

/-- The up accumulator after a last step. -/
theorem leftC_up (c : Dev nD) (t : Fin cfg0.N) (h0 : ¬t.val % 14 = 0) (h1 : t.val % 14 = 13) (x0 : Vec F S4096x256 .f32) (x1 x2 : Vec F S512x256 .f32) (x3 x4 : Vec F S1x512 .f32) (xs0 xs1 : Vec F S4096x512 .f32) :
    (leftC (F := F) c t h0 h1 x0 x1 x2 x3 x4 xs0 xs1).2.2 = k0_pay5 x0 x2 xs1 := by
  unfold leftC
  dsimp only
  rw [View.read_writes_eq_canon _ _ _ (scoverC_1 c t h0 h1 x0 x1 x2 x3 x4 xs0 xs1)]
  unfold runC
  unfold kernelRun0_C
  dsimp only
  sl_unfold_words
  rw [View.canon_unit_zero (S := S4096x512) hzOff0]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S4096x256) hzOff0, View.ld_unit_zero (S := S512x256) hzOff0, View.ld_unit_zero (S := S1x512) hzOff0, View.ld_unit_zero (S := S4096x512) hzOff0]

/-- The output buffer after a last step: the gated, scaled tile of the two accumulators just stored. -/
theorem leftC_out (c : Dev nD) (t : Fin cfg0.N) (h0 : ¬t.val % 14 = 0) (h1 : t.val % 14 = 13) (x0 : Vec F S4096x256 .f32) (x1 x2 : Vec F S512x256 .f32) (x3 x4 : Vec F S1x512 .f32) (xs0 xs1 : Vec F S4096x512 .f32) :
    (leftC (F := F) c t h0 h1 x0 x1 x2 x3 x4 xs0 xs1).1
      = k0_pay6 (k0_pay4 x0 x1 xs0) x3 (k0_pay5 x0 x2 xs1) x4 := by
  unfold leftC
  dsimp only
  rw [View.read_writes_eq_canon _ _ _ (coverC_5 c t h0 h1 x0 x1 x2 x3 x4 xs0 xs1)]
  unfold runC
  unfold kernelRun0_C
  dsimp only
  sl_unfold_words
  rw [View.canon_unit_zero (S := S4096x512) hzOff0, View.readCov_unit_zero (S := S4096x512) _ hzOff0,
    View.readCov_unit_zero (S := S4096x512) _ hzOff0]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S4096x256) hzOff0, View.ld_unit_zero (S := S512x256) hzOff0, View.ld_unit_zero (S := S1x512) hzOff0, View.ld_unit_zero (S := S4096x512) hzOff0]

end Cert.KernelIdeal.Hand

end
-- ==== Proof.LibDotNT.lean ====
/-
  A matrix product with the second operand transposed, read index by index over the extended reals.

  For the dimension numbers that contract the second axis of an M×K array with the second axis of an N×K array
  (no batch axis), the accelerator's matrix product into a zero accumulator is, at the exact values, the function
      (i, j) ↦ Σ_{k < K} l(i, k) · r(j, k).
-/
import Idealize.ShloMosaic.PureOps.Ideal.Laws
import Idealize.ShloMosaic.Lib.ValueIdx

noncomputable section

namespace Cert.LibDotNT

open Idealize.ShloMosaic Idealize.ShloMosaic.ValueIdx

/-- The dimension numbers of l · rᵀ: contract axis 1 of both operands; rows from l, columns from r's rows. -/
def nt (M N K : Nat)
    (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

/-- The product l · rᵀ of an M×K and an N×K array of extended reals, index by index. -/
def mmT {M N K : Nat} (l : (⟨2, ![M, K]⟩ : Shape).Idx → EReal) (r : (⟨2, ![N, K]⟩ : Shape).Idx → EReal) :
    (⟨2, ![M, N]⟩ : Shape).Idx → EReal :=
  fun j => ∑ k : Fin K, l (ix2 (j 0) k) * r (ix2 (j 1) k)

theorem mmT_apply {M N K : Nat} (l : (⟨2, ![M, K]⟩ : Shape).Idx → EReal) (r : (⟨2, ![N, K]⟩ : Shape).Idx → EReal)
    (i : Fin M) (j : Fin N) : mmT l r (ix2 i j) = ∑ k : Fin K, l (ix2 i k) * r (ix2 j k) := rfl

/-- The sum over the one-axis contraction index is the sum over k < K of l at (i, k) times r at (j, k). -/
theorem contr_sum (M N K : Nat)
    (wf : DotDims.WF (⟨2, ![M, K]⟩ : Shape) (⟨2, ![N, K]⟩ : Shape) (⟨2, ![M, N]⟩ : Shape) [1] [1] [0] [0] [] [])
    (l : (⟨2, ![M, K]⟩ : Shape).Idx → EReal) (r : (⟨2, ![N, K]⟩ : Shape).Idx → EReal)
    (j : (⟨2, ![M, N]⟩ : Shape).Idx) :
    ∑ q : (nt M N K wf).contr.Idx, l ((nt M N K wf).lhsIdx j q) * r ((nt M N K wf).rhsIdx j q) = mmT l r j := by
  unfold mmT
  rw [← Equiv.sum_comp (contrEquiv1 (nt M N K wf) K rfl rfl).symm]
  refine Finset.sum_congr rfl fun k _ => ?_
  have hk := contrEquiv1_symm_val (nt M N K wf) K rfl rfl k
  have el : (nt M N K wf).lhsIdx j ((contrEquiv1 (nt M N K wf) K rfl rfl).symm k) = ix2 (j 0) k :=
    funext fun a => Fin.ext (by
      match a with
      | ⟨0, _⟩ => rfl
      | ⟨1, _⟩ => exact ((nt M N K wf).lhsIdx_val_of_single (cl := 1) rfl j _).trans hk)
  have er : (nt M N K wf).rhsIdx j ((contrEquiv1 (nt M N K wf) K rfl rfl).symm k) = ix2 (j 1) k :=
    funext fun a => Fin.ext (by
      match a with
      | ⟨0, _⟩ => rfl
      | ⟨1, _⟩ => exact ((nt M N K wf).rhsIdx_val_of_single (cr := 1) rfl j _).trans hk)
  rw [el, er]
  rfl

/-- The accelerator's matrix product into the zero accumulator, at the exact values, is l · rᵀ. -/
theorem matmul_zero {M N K : Nat} {φ₁ φ₂ : FTy}
    (wf : DotDims.WF (⟨2, ![M, K]⟩ : Shape) (⟨2, ![N, K]⟩ : Shape) (⟨2, ![M, N]⟩ : Shape) [1] [1] [0] [0] [] [])
    (prec : Option ContractPrecision) (l : FVec Ideal ⟨2, ![M, K]⟩ φ₁) (r : FVec Ideal ⟨2, ![N, K]⟩ φ₂) :
    matmul (F := Ideal) (nt M N K wf) prec l r (constant (F := Ideal) ⟨2, ![M, N]⟩ .f32 0x00000000#32) = mmT l r :=
  funext fun j => (Ideal.matmul_constant_zero_apply (nt M N K wf) prec l r j).trans (contr_sum M N K wf l r j)

end Cert.LibDotNT

end
-- ==== Proof.PayVal.lean ====
/-
  The arithmetic of the accelerator bodies read index by index over the extended reals.

  Each value a kernel body stores is a pure term over the values it loaded. At the exact instance every float is an
  extended real, a rounding to a narrower format is the identity, and the matrix product into a zero accumulator
  is a finite sum; so each stored value, at the index (p, q), is a closed expression in the loaded values.
-/
import proofs.«151881_j89111981457456_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«151881_j89111981457456_1_alg».proof.Proof.LibDotNT

noncomputable section

namespace Cert.KernelIdeal.PayVal

open Cert.KernelIdeal Cert.KernelIdeal.Gen Idealize.ShloMosaic Idealize.ShloMosaic.ValueIdx

/-- The first zero fill of kernel a is zero at every index. -/
theorem pay1 (j : S4096x512.Idx) : k0_pay1 (F := Ideal) j = 0 := by
  unfold k0_pay1
  rw [shapeCast_self]
  exact Ideal.ofBits_zero_f32

/-- The second zero fill of kernel a is zero at every index. -/
theorem pay2 (j : S4096x512.Idx) : k0_pay2 (F := Ideal) j = 0 := by
  unfold k0_pay2
  rw [shapeCast_self]
  exact Ideal.ofBits_zero_f32

/-- The zero fill of kernel b is zero at every index. -/
theorem k1pay1 (j : S4096x512.Idx) : k1_pay1 (F := Ideal) j = 0 := by
  unfold k1_pay1
  rw [shapeCast_self]
  exact Ideal.ofBits_zero_f32

/-- The first accumulator update of kernel a: the old value plus the row of v3 times the row of v5. -/
theorem pay4 (v3 : FVec Ideal S4096x256 .f32) (v5 : FVec Ideal S512x256 .f32) (v9 : FVec Ideal S4096x512 .f32)
    (p : Fin 4096) (q : Fin 512) :
    k0_pay4 v3 v5 v9 (ix2 p q) = v9 (ix2 p q) + ∑ k : Fin 256, v3 (ix2 p k) * v5 (ix2 q k) := by
  unfold k0_pay4 k0_pay3
  rw [shapeCast_self]
  have hm := Cert.LibDotNT.matmul_zero (M := 4096) (N := 512) (K := 256)
    dot_S4096x256_S512x256_S4096x512_1_1_0_0_n_n_wf none
    (truncf .bf16 v3 bitsLt_bf16_f32) (truncf .bf16 v5 bitsLt_bf16_f32)
  refine congrArg (v9 (ix2 p q) + ·) ?_
  exact (congrFun hm (ix2 p q)).trans (Cert.LibDotNT.mmT_apply _ _ p q)

/-- The second accumulator update of kernel a: the old value plus the row of v3 times the row of v7. -/
theorem pay5 (v3 : FVec Ideal S4096x256 .f32) (v7 : FVec Ideal S512x256 .f32) (v15 : FVec Ideal S4096x512 .f32)
    (p : Fin 4096) (q : Fin 512) :
    k0_pay5 v3 v7 v15 (ix2 p q) = v15 (ix2 p q) + ∑ k : Fin 256, v3 (ix2 p k) * v7 (ix2 q k) := by
  unfold k0_pay5 k0_pay3
  rw [shapeCast_self]
  have hm := Cert.LibDotNT.matmul_zero (M := 4096) (N := 512) (K := 256)
    dot_S4096x256_S512x256_S4096x512_1_1_0_0_n_n_wf none
    (truncf .bf16 v3 bitsLt_bf16_f32) (truncf .bf16 v7 bitsLt_bf16_f32)
  refine congrArg (v15 (ix2 p q) + ·) ?_
  exact (congrFun hm (ix2 p q)).trans (Cert.LibDotNT.mmT_apply _ _ p q)

/-- The last step of kernel a: with g = v24 · v25 (row broadcast) and u = v29 · v30 (row broadcast), the stored value is
    (g · logistic g) · u. -/
theorem pay6 (v24 : FVec Ideal S4096x512 .f32) (v25 : FVec Ideal S1x512 .f32) (v29 : FVec Ideal S4096x512 .f32)
    (v30 : FVec Ideal S1x512 .f32) (p : Fin 4096) (q : Fin 512) :
    (k0_pay6 (F := Ideal) v24 v25 v29 v30 (ix2 p q) : EReal)
      = ((v24 (ix2 p q) * v25 (ix2 (0 : Fin 1) q)) * Ideal.logistic (v24 (ix2 p q) * v25 (ix2 (0 : Fin 1) q)))
          * (v29 (ix2 p q) * v30 (ix2 (0 : Fin 1) q)) := by
  unfold k0_pay6
  rw [shapeCast_self, shapeCast_self]
  have h25 := broadcastTo_1b_ab_apply (a := 4096) (b := 512) v25 broadcasts_S1x512_S4096x512 p q
  have h30 := broadcastTo_1b_ab_apply (a := 4096) (b := 512) v30 broadcasts_S1x512_S4096x512 p q
  show ((v24 (ix2 p q) * broadcastTo S4096x512 v25 broadcasts_S1x512_S4096x512 (ix2 p q))
        * Ideal.logistic (v24 (ix2 p q) * broadcastTo S4096x512 v25 broadcasts_S1x512_S4096x512 (ix2 p q)))
      * (v29 (ix2 p q) * broadcastTo S4096x512 v30 broadcasts_S1x512_S4096x512 (ix2 p q)) = _
  rw [h25, h30]

/-- The accumulator update of kernel b: the old value plus the row of v3 times the row of v5. -/
theorem k1pay2 (v3 : FVec Ideal S4096x512 .bf16) (v5 : FVec Ideal S512x512 .f32) (v7 : FVec Ideal S4096x512 .f32)
    (p : Fin 4096) (q : Fin 512) :
    k1_pay2 v3 v5 v7 (ix2 p q) = v7 (ix2 p q) + ∑ k : Fin 512, v3 (ix2 p k) * v5 (ix2 q k) := by
  unfold k1_pay2
  rw [shapeCast_self, shapeCast_self]
  have hm := Cert.LibDotNT.matmul_zero (M := 4096) (N := 512) (K := 512)
    dot_S4096x512_S512x512_S4096x512_1_1_0_0_n_n_wf none
    v3 (truncf .bf16 v5 bitsLt_bf16_f32)
  refine congrArg (v7 (ix2 p q) + ·) ?_
  exact (congrFun hm (ix2 p q)).trans (Cert.LibDotNT.mmT_apply _ _ p q)

/-- The last step of kernel b: the accumulator times the row v17, broadcast over the rows. -/
theorem k1pay3 (v16 : FVec Ideal S4096x512 .f32) (v17 : FVec Ideal S1x512 .f32) (p : Fin 4096) (q : Fin 512) :
    k1_pay3 v16 v17 (ix2 p q) = v16 (ix2 p q) * v17 (ix2 (0 : Fin 1) q) := by
  unfold k1_pay3
  rw [shapeCast_self]
  have h17 := broadcastTo_1b_ab_apply (a := 4096) (b := 512) v17 broadcasts_S1x512_S4096x512 p q
  show v16 (ix2 p q) * broadcastTo S4096x512 v17 broadcasts_S1x512_S4096x512 (ix2 p q) = _
  rw [h17]

/-- The host's transpose of a 37888×1 column into a 1×37888 row reads, at (0, o), the column at (o, 0). -/
theorem tr0 (x : FVec Ideal S37888x1 .f32) (o : Fin 37888) :
    transpose S1x37888 [1, 0] x transposes_S37888x1_S1x37888_1_0 (ix2 (0 : Fin 1) o) = x (ix2 o (0 : Fin 1)) :=
  transpose_ix2_apply (a := 37888) (b := 1) x transposes_S37888x1_S1x37888_1_0 (0 : Fin 1) o

/-- The host's transpose of a 3584×1 column into a 1×3584 row reads, at (0, o), the column at (o, 0). -/
theorem tr1 (x : FVec Ideal S3584x1 .f32) (o : Fin 3584) :
    transpose S1x3584 [1, 0] x transposes_S3584x1_S1x3584_1_0 (ix2 (0 : Fin 1) o) = x (ix2 o (0 : Fin 1)) :=
  transpose_ix2_apply (a := 3584) (b := 1) x transposes_S3584x1_S1x3584_1_0 (0 : Fin 1) o

end Cert.KernelIdeal.PayVal

end
-- ==== Proof.Spec.lean ====
/-
  The function both programs compute, over the extended reals.

  A gated two-layer perceptron with per-output-channel weight scales. With x : [4096, 3584], a stacked gate/up
  weight w : [37888, 3584] with one scale per row s : [37888, 1], a down weight wd : [3584, 18944] with one scale per
  row sd : [3584, 1]:
    proj(t, o)  = (Σ_k x(t,k) · w(o,k)) · s(o)                      the scale applied AFTER the contraction
    hid(t, i)   = (g · logistic g) · proj(t, 18944 + i),  g = proj(t, i)
    out(t, n)   = (Σ_i hid(t,i) · wd(n,i)) · sd(n)
  This is the arrangement of the accelerator program (scale factored out of each product); the host program scales
  the weights first, which is the same number when every input is a real number.
-/
import Idealize.ShloMosaic.PureOps.Ideal
import Idealize.ShloMosaic.Lib.ValueIdx

noncomputable section

namespace Cert.GatedMlp

open Idealize.ShloMosaic Idealize.ShloMosaic.ValueIdx

/-- Row i of the gate half of the stacked weight. -/
def lo (i : Fin 18944) : Fin 37888 := ⟨i.val, by have := i.isLt; omega⟩
/-- Row i of the up half of the stacked weight. -/
def hi (i : Fin 18944) : Fin 37888 := ⟨18944 + i.val, by have := i.isLt; omega⟩

/-- One scaled projection entry: the contraction over the hidden axis, then the output channel's scale. -/
def proj (x : (⟨2, ![4096, 3584]⟩ : Shape).Idx → EReal) (w : (⟨2, ![37888, 3584]⟩ : Shape).Idx → EReal)
    (s : (⟨2, ![37888, 1]⟩ : Shape).Idx → EReal) (t : Fin 4096) (o : Fin 37888) : EReal :=
  (∑ k : Fin 3584, x (ix2 t k) * w (ix2 o k)) * s (ix2 o (0 : Fin 1))

/-- The gated hidden activation: silu of the gate projection times the up projection. -/
def hidAt (x : (⟨2, ![4096, 3584]⟩ : Shape).Idx → EReal) (w : (⟨2, ![37888, 3584]⟩ : Shape).Idx → EReal)
    (s : (⟨2, ![37888, 1]⟩ : Shape).Idx → EReal) (t : Fin 4096) (i : Fin 18944) : EReal :=
  (proj x w s t (lo i) * Ideal.logistic (proj x w s t (lo i))) * proj x w s t (hi i)

/-- The hidden activation as an array [4096, 18944]. -/
def hid (x : (⟨2, ![4096, 3584]⟩ : Shape).Idx → EReal) (w : (⟨2, ![37888, 3584]⟩ : Shape).Idx → EReal)
    (s : (⟨2, ![37888, 1]⟩ : Shape).Idx → EReal) : (⟨2, ![4096, 18944]⟩ : Shape).Idx → EReal :=
  fun q => hidAt x w s (q 0) (q 1)

/-- One entry of the down projection of an arbitrary hidden array h, scale applied after the contraction. -/
def downAt (h : (⟨2, ![4096, 18944]⟩ : Shape).Idx → EReal) (wd : (⟨2, ![3584, 18944]⟩ : Shape).Idx → EReal)
    (sd : (⟨2, ![3584, 1]⟩ : Shape).Idx → EReal) (t : Fin 4096) (n : Fin 3584) : EReal :=
  (∑ i : Fin 18944, h (ix2 t i) * wd (ix2 n i)) * sd (ix2 n (0 : Fin 1))

/-- The down projection of a hidden array, as an array [4096, 3584]. -/
def down (h : (⟨2, ![4096, 18944]⟩ : Shape).Idx → EReal) (wd : (⟨2, ![3584, 18944]⟩ : Shape).Idx → EReal)
    (sd : (⟨2, ![3584, 1]⟩ : Shape).Idx → EReal) : (⟨2, ![4096, 3584]⟩ : Shape).Idx → EReal :=
  fun j => downAt h wd sd (j 0) (j 1)

/-- The whole result: the down projection of the gated hidden activation. -/
def out (x : (⟨2, ![4096, 3584]⟩ : Shape).Idx → EReal) (w : (⟨2, ![37888, 3584]⟩ : Shape).Idx → EReal)
    (s : (⟨2, ![37888, 1]⟩ : Shape).Idx → EReal) (wd : (⟨2, ![3584, 18944]⟩ : Shape).Idx → EReal)
    (sd : (⟨2, ![3584, 1]⟩ : Shape).Idx → EReal) : (⟨2, ![4096, 3584]⟩ : Shape).Idx → EReal :=
  down (hid x w s) wd sd

end Cert.GatedMlp

end
-- ==== Proof.LibTileSum.lean ====
/-
  A sum over the rows of an array taken tile by tile: for N = T * R, the sum over all N rows is the sum over the T
  tiles of the sum over the R rows of each tile, row R * t + r being row r of tile t. Only commutativity and
  associativity of the addition are used, so the law holds in any commutative additive monoid (the extended reals
  included, infinities and all).
-/
import Mathlib.Algebra.BigOperators.Fin
import Mathlib.Logic.Equiv.Fin.Basic

namespace Cert.Lib.TileSum

open Finset

theorem row_lt {T R N : ℕ} (hN : T * R = N) (t : Fin T) (r : Fin R) : R * t.val + r.val < N := by
  have h1 : R * t.val + r.val < R * (t.val + 1) := by
    rw [Nat.mul_succ]; exact Nat.add_lt_add_left r.isLt _
  have h2 : R * (t.val + 1) ≤ R * T := Nat.mul_le_mul_left _ t.isLt
  rw [← hN, Nat.mul_comm T R]; exact lt_of_lt_of_le h1 h2

/-- The sum over N = T * R indices is the sum over T tiles of the sum over the R indices of each tile. -/
theorem sum_tiles {M : Type*} [AddCommMonoid M] (T R N : ℕ) (hN : T * R = N) (f : Fin N → M) :
    ∑ k : Fin N, f k = ∑ t : Fin T, ∑ r : Fin R, f ⟨R * t.val + r.val, row_lt hN t r⟩ := by
  subst hN
  rw [← (finProdFinEquiv (m := T) (n := R)).sum_comp, Fintype.sum_prod_type]
  refine Finset.sum_congr rfl fun t _ => Finset.sum_congr rfl fun r _ => ?_
  refine congrArg f (Fin.ext ?_)
  show r.val + R * t.val = R * t.val + r.val
  exact Nat.add_comm _ _

end Cert.Lib.TileSum
-- ==== Proof.LibTileRec.lean ====
/-
  A running sum built tile by tile is the sum over all rows. The accumulator starts at zero and each step adds
  "zero plus the sum over the R rows of tile t" (the zero being a reduction's initial value); after T steps it is
  the double sum over tiles and rows, and, when the rows of the T tiles are exactly the N = T · R rows of an
  array, the sum over the array's rows. Only the laws of a commutative additive monoid are used, so this holds
  on the extended reals, infinities included.
-/
import Mathlib.Algebra.BigOperators.Fin
import proofs.«151881_j89111981457456_1_alg».proof.Proof.LibTileSum

namespace Cert.Lib.TileRec

open Finset

/-- After T steps the accumulator is the double sum over the first T tiles. -/
theorem rec_eq_sum {M : Type*} [AddCommMonoid M] (R : ℕ) (f : ℕ → M) (acc : ℕ → M) (h0 : acc 0 = 0)
    (hs : ∀ t, acc (t + 1) = acc t + (0 + ∑ i : Fin R, f (R * t + i.val))) (T : ℕ) :
    acc T = ∑ t : Fin T, ∑ i : Fin R, f (R * t.val + i.val) := by
  induction T with
  | zero => simpa using h0
  | succ T ih =>
    rw [hs, ih, zero_add, Fin.sum_univ_castSucc]
    rfl

/-- When the step reads row R · t + i of an array of N = T · R rows (and anything past the array as zero), the
    accumulator after T steps is the sum over the array's rows. -/
theorem rec_eq_total {M : Type*} [AddCommMonoid M] (T R N : ℕ) (hN : T * R = N) (g : Fin N → M) (acc : ℕ → M)
    (h0 : acc 0 = 0)
    (hs : ∀ t, acc (t + 1) = acc t + (0 + ∑ i : Fin R, (if h : R * t + i.val < N then g ⟨R * t + i.val, h⟩ else 0))) :
    acc T = ∑ k : Fin N, g k := by
  rw [rec_eq_sum R (fun n => if h : n < N then g ⟨n, h⟩ else 0) acc h0 hs T, Cert.Lib.TileSum.sum_tiles T R N hN g]
  refine Finset.sum_congr rfl fun t _ => Finset.sum_congr rfl fun r _ => ?_
  exact dif_pos (Cert.Lib.TileSum.row_lt hN t r)

/-- The same with the step's row reader given as a function on the naturals that agrees with the array on its rows. -/
theorem rec_eq_total' {M : Type*} [AddCommMonoid M] (T R N : ℕ) (hN : T * R = N) (g : Fin N → M) (f : ℕ → M)
    (hf : ∀ n (h : n < N), f n = g ⟨n, h⟩) (acc : ℕ → M) (h0 : acc 0 = 0)
    (hs : ∀ t, acc (t + 1) = acc t + (0 + ∑ i : Fin R, f (R * t + i.val))) :
    acc T = ∑ k : Fin N, g k := by
  rw [rec_eq_sum R f acc h0 hs T, Cert.Lib.TileSum.sum_tiles T R N hN g]
  refine Finset.sum_congr rfl fun t _ => Finset.sum_congr rfl fun r _ => ?_
  exact hf _ (Cert.Lib.TileSum.row_lt hN t r)

end Cert.Lib.TileRec
-- ==== Proof.TileVal.lean ====
/-
  The accumulation over contraction tiles, ending in the functions of the specification.

  A kernel body adds, at grid step k, the product of block k of the left operand with block k of the weight into an
  accumulator that the first step clears. Over abstract sequences of blocks that read consecutive column tiles of
  two arrays, the accumulator after the last step is the whole contraction, and the final step of each kernel
  (scales, gate) turns it into the specified entry. Only the laws of a commutative additive monoid are used for the
  sums, so everything holds on the extended reals, infinities included.
-/
import proofs.«151881_j89111981457456_1_alg».proof.Proof.PayVal
import proofs.«151881_j89111981457456_1_alg».proof.Proof.Spec
import proofs.«151881_j89111981457456_1_alg».proof.Proof.LibTileRec
import Idealize.ShloMosaic.Lib.ValueIdx

noncomputable section

namespace Cert.KernelIdeal.TileVal

open Cert.KernelIdeal Cert.KernelIdeal.Gen Cert.KernelIdeal.PayVal Idealize.ShloMosaic Idealize.ShloMosaic.ValueIdx

/-! ## A cleared accumulator that adds one term per step -/

/-- If step 0 stores zero plus the first term and each later step adds its term, then after step T the accumulator is
    the sum of the terms 0, …, T. The recurrence is only asked below the bound N. -/
theorem acc_sum {M : Type*} [AddCommMonoid M] (N : ℕ) (term acc : ℕ → M) (h0 : acc 0 = 0 + term 0)
    (hs : ∀ k, k + 1 < N → acc (k + 1) = acc k + term (k + 1)) :
    ∀ T, T < N → acc T = ∑ t : Fin (T + 1), term t.val := by
  intro T
  induction T with
  | zero =>
    intro _
    rw [h0, zero_add, Fin.sum_univ_one]
    rfl
  | succ T ih =>
    intro hT
    rw [hs T hT, ih (by omega)]
    exact (Fin.sum_univ_castSucc (fun t : Fin (T + 1 + 1) => term t.val)).symm

/-- When the term of step t is the sum over the R entries of tile t of an array of N = T · R entries, the accumulator
    after the last step is the sum over the whole array. -/
theorem tiled_total {M : Type*} [AddCommMonoid M] (T R N : ℕ) (hN : T * R = N) (g : Fin N → M) (blk : ℕ → Fin R → M)
    (hb : ∀ t (ht : t < T) (r : Fin R), blk t r = g ⟨R * t + r.val, Cert.Lib.TileSum.row_lt hN ⟨t, ht⟩ r⟩)
    (acc : ℕ → M) (h0 : acc 0 = 0 + ∑ r : Fin R, blk 0 r)
    (hs : ∀ k, k + 1 < T → acc (k + 1) = acc k + ∑ r : Fin R, blk (k + 1) r)
    (L : ℕ) (hL : L + 1 = T) : acc L = ∑ c : Fin N, g c := by
  subst hL
  rw [acc_sum (L + 1) (fun t => ∑ r : Fin R, blk t r) acc h0 hs L (by omega),
    Cert.Lib.TileSum.sum_tiles (L + 1) R N hN g]
  exact Finset.sum_congr rfl fun t _ => Finset.sum_congr rfl fun r _ => hb t.val t.isLt r

/-! ## The gate / up kernel: 14 tiles of 256 columns -/

/-- The gate accumulator after the 14 steps is the whole contraction of row p of x with row o of w. -/
theorem gate_acc (x : (⟨2, ![4096, 3584]⟩ : Shape).Idx → EReal) (w : (⟨2, ![37888, 3584]⟩ : Shape).Idx → EReal)
    (o : Fin 512 → Fin 37888)
    (X : ℕ → FVec Ideal S4096x256 .f32) (G : ℕ → FVec Ideal S512x256 .f32)
    (hX : ∀ k (hk : k < 14) (p : Fin 4096) (h : Fin 256), X k (ix2 p h) = x (ix2 p ⟨256 * k + h.val, by omega⟩))
    (hG : ∀ k (hk : k < 14) (q : Fin 512) (h : Fin 256), G k (ix2 q h) = w (ix2 (o q) ⟨256 * k + h.val, by omega⟩))
    (acc : ℕ → FVec Ideal S4096x512 .f32) (h0 : acc 0 = k0_pay4 (X 0) (G 0) (k0_pay1 (F := Ideal)))
    (hs : ∀ k, k + 1 < 14 → acc (k + 1) = k0_pay4 (X (k + 1)) (G (k + 1)) (acc k))
    (p : Fin 4096) (q : Fin 512) :
    acc 13 (ix2 p q) = ∑ c : Fin 3584, x (ix2 p c) * w (ix2 (o q) c) := by
  refine tiled_total 14 256 3584 rfl (fun c => x (ix2 p c) * w (ix2 (o q) c))
    (fun k h => X k (ix2 p h) * G k (ix2 q h)) (fun t ht r => ?_) (fun k => acc k (ix2 p q)) ?_ (fun k hk => ?_) 13 rfl
  · show X t (ix2 p r) * G t (ix2 q r) = _
    rw [hX t ht p r, hG t ht q r]
  · show acc 0 (ix2 p q) = _
    rw [h0, pay4, pay1]
  · show acc (k + 1) (ix2 p q) = _
    rw [hs k hk, pay4]

/-- The up accumulator after the 14 steps is the whole contraction of row p of x with row o of w. -/
theorem up_acc (x : (⟨2, ![4096, 3584]⟩ : Shape).Idx → EReal) (w : (⟨2, ![37888, 3584]⟩ : Shape).Idx → EReal)
    (o : Fin 512 → Fin 37888)
    (X : ℕ → FVec Ideal S4096x256 .f32) (U : ℕ → FVec Ideal S512x256 .f32)
    (hX : ∀ k (hk : k < 14) (p : Fin 4096) (h : Fin 256), X k (ix2 p h) = x (ix2 p ⟨256 * k + h.val, by omega⟩))
    (hU : ∀ k (hk : k < 14) (q : Fin 512) (h : Fin 256), U k (ix2 q h) = w (ix2 (o q) ⟨256 * k + h.val, by omega⟩))
    (acc : ℕ → FVec Ideal S4096x512 .f32) (h0 : acc 0 = k0_pay5 (X 0) (U 0) (k0_pay2 (F := Ideal)))
    (hs : ∀ k, k + 1 < 14 → acc (k + 1) = k0_pay5 (X (k + 1)) (U (k + 1)) (acc k))
    (p : Fin 4096) (q : Fin 512) :
    acc 13 (ix2 p q) = ∑ c : Fin 3584, x (ix2 p c) * w (ix2 (o q) c) := by
  refine tiled_total 14 256 3584 rfl (fun c => x (ix2 p c) * w (ix2 (o q) c))
    (fun k h => X k (ix2 p h) * U k (ix2 q h)) (fun t ht r => ?_) (fun k => acc k (ix2 p q)) ?_ (fun k hk => ?_) 13 rfl
  · show X t (ix2 p r) * U t (ix2 q r) = _
    rw [hX t ht p r, hU t ht q r]
  · show acc 0 (ix2 p q) = _
    rw [h0, pay5, pay2]
  · show acc (k + 1) (ix2 p q) = _
    rw [hs k hk, pay5]

/-- Output tile i of the gate / up kernel: with the blocks of x, of the gate rows 512 i + q and of the up rows
    512 (37 + i) + q of w, and the two rows of scales, the value stored at the last step is the specified hidden
    activation at column 512 i + q. -/
theorem hid_tile (i : Fin 37)
    (x : (⟨2, ![4096, 3584]⟩ : Shape).Idx → EReal) (w : (⟨2, ![37888, 3584]⟩ : Shape).Idx → EReal)
    (s : (⟨2, ![37888, 1]⟩ : Shape).Idx → EReal)
    (X : ℕ → FVec Ideal S4096x256 .f32) (G U : ℕ → FVec Ideal S512x256 .f32) (S3 S4 : FVec Ideal S1x512 .f32)
    (hX : ∀ k (hk : k < 14) (p : Fin 4096) (h : Fin 256), X k (ix2 p h) = x (ix2 p ⟨256 * k + h.val, by omega⟩))
    (hG : ∀ k (hk : k < 14) (q : Fin 512) (h : Fin 256),
      G k (ix2 q h) = w (ix2 ⟨512 * i.val + q.val, by omega⟩ ⟨256 * k + h.val, by omega⟩))
    (hU : ∀ k (hk : k < 14) (q : Fin 512) (h : Fin 256),
      U k (ix2 q h) = w (ix2 ⟨512 * (37 + i.val) + q.val, by omega⟩ ⟨256 * k + h.val, by omega⟩))
    (hS3 : ∀ q : Fin 512, S3 (ix2 (0 : Fin 1) q) = s (ix2 ⟨512 * i.val + q.val, by omega⟩ (0 : Fin 1)))
    (hS4 : ∀ q : Fin 512, S4 (ix2 (0 : Fin 1) q) = s (ix2 ⟨512 * (37 + i.val) + q.val, by omega⟩ (0 : Fin 1)))
    (accG accU : ℕ → FVec Ideal S4096x512 .f32)
    (hG0 : accG 0 = k0_pay4 (X 0) (G 0) (k0_pay1 (F := Ideal)))
    (hGs : ∀ k, k + 1 < 14 → accG (k + 1) = k0_pay4 (X (k + 1)) (G (k + 1)) (accG k))
    (hU0 : accU 0 = k0_pay5 (X 0) (U 0) (k0_pay2 (F := Ideal)))
    (hUs : ∀ k, k + 1 < 14 → accU (k + 1) = k0_pay5 (X (k + 1)) (U (k + 1)) (accU k))
    (p : Fin 4096) (q : Fin 512) :
    (k0_pay6 (F := Ideal) (accG 13) S3 (accU 13) S4 (ix2 p q) : EReal)
      = Cert.GatedMlp.hidAt x w s p ⟨512 * i.val + q.val, by omega⟩ := by
  have hg := gate_acc x w (fun q => ⟨512 * i.val + q.val, by omega⟩) X G hX hG accG hG0 hGs p q
  have hu := up_acc x w (fun q => ⟨512 * (37 + i.val) + q.val, by omega⟩) X U hX hU accU hU0 hUs p q
  have hlo : Cert.GatedMlp.lo (⟨512 * i.val + q.val, by omega⟩ : Fin 18944)
      = (⟨512 * i.val + q.val, by omega⟩ : Fin 37888) := rfl
  have hhi : Cert.GatedMlp.hi (⟨512 * i.val + q.val, by omega⟩ : Fin 18944)
      = (⟨512 * (37 + i.val) + q.val, by omega⟩ : Fin 37888) :=
    Fin.ext (by show 18944 + (512 * i.val + q.val) = 512 * (37 + i.val) + q.val; omega)
  rw [pay6, hg, hu, hS3 q, hS4 q]
  unfold Cert.GatedMlp.hidAt Cert.GatedMlp.proj
  rw [hlo, hhi]

/-! ## The down kernel: 37 tiles of 512 columns -/

/-- The down accumulator after the 37 steps is the whole contraction of row p of h with row o of wd. -/
theorem down_acc (h : (⟨2, ![4096, 18944]⟩ : Shape).Idx → EReal) (wd : (⟨2, ![3584, 18944]⟩ : Shape).Idx → EReal)
    (o : Fin 512 → Fin 3584)
    (H : ℕ → FVec Ideal S4096x512 .bf16) (D : ℕ → FVec Ideal S512x512 .f32)
    (hH : ∀ k (hk : k < 37) (p : Fin 4096) (j : Fin 512), H k (ix2 p j) = h (ix2 p ⟨512 * k + j.val, by omega⟩))
    (hD : ∀ k (hk : k < 37) (q : Fin 512) (j : Fin 512), D k (ix2 q j) = wd (ix2 (o q) ⟨512 * k + j.val, by omega⟩))
    (acc : ℕ → FVec Ideal S4096x512 .f32) (h0 : acc 0 = k1_pay2 (H 0) (D 0) (k1_pay1 (F := Ideal)))
    (hs : ∀ k, k + 1 < 37 → acc (k + 1) = k1_pay2 (H (k + 1)) (D (k + 1)) (acc k))
    (p : Fin 4096) (q : Fin 512) :
    acc 36 (ix2 p q) = ∑ c : Fin 18944, h (ix2 p c) * wd (ix2 (o q) c) := by
  refine tiled_total 37 512 18944 rfl (fun c => h (ix2 p c) * wd (ix2 (o q) c))
    (fun k j => H k (ix2 p j) * D k (ix2 q j)) (fun t ht r => ?_) (fun k => acc k (ix2 p q)) ?_ (fun k hk => ?_) 36 rfl
  · show H t (ix2 p r) * D t (ix2 q r) = _
    rw [hH t ht p r, hD t ht q r]
  · show acc 0 (ix2 p q) = _
    rw [h0, k1pay2, k1pay1]
  · show acc (k + 1) (ix2 p q) = _
    rw [hs k hk, k1pay2]

/-- Output tile n of the down kernel: with the blocks of h, of the rows 512 n + q of wd, and the row of scales, the
    value stored at the last step is the specified down projection at column 512 n + q. -/
theorem down_tile (n : Fin 7)
    (h : (⟨2, ![4096, 18944]⟩ : Shape).Idx → EReal) (wd : (⟨2, ![3584, 18944]⟩ : Shape).Idx → EReal)
    (sd : (⟨2, ![3584, 1]⟩ : Shape).Idx → EReal)
    (H : ℕ → FVec Ideal S4096x512 .bf16) (D : ℕ → FVec Ideal S512x512 .f32) (S2 : FVec Ideal S1x512 .f32)
    (hH : ∀ k (hk : k < 37) (p : Fin 4096) (j : Fin 512), H k (ix2 p j) = h (ix2 p ⟨512 * k + j.val, by omega⟩))
    (hD : ∀ k (hk : k < 37) (q : Fin 512) (j : Fin 512),
      D k (ix2 q j) = wd (ix2 ⟨512 * n.val + q.val, by omega⟩ ⟨512 * k + j.val, by omega⟩))
    (hS2 : ∀ q : Fin 512, S2 (ix2 (0 : Fin 1) q) = sd (ix2 ⟨512 * n.val + q.val, by omega⟩ (0 : Fin 1)))
    (acc : ℕ → FVec Ideal S4096x512 .f32) (h0 : acc 0 = k1_pay2 (H 0) (D 0) (k1_pay1 (F := Ideal)))
    (hs : ∀ k, k + 1 < 37 → acc (k + 1) = k1_pay2 (H (k + 1)) (D (k + 1)) (acc k))
    (p : Fin 4096) (q : Fin 512) :
    (k1_pay3 (F := Ideal) (acc 36) S2 (ix2 p q) : EReal) = Cert.GatedMlp.downAt h wd sd p ⟨512 * n.val + q.val, by omega⟩ := by
  have ha := down_acc h wd (fun q => ⟨512 * n.val + q.val, by omega⟩) H D hH hD acc h0 hs p q
  rw [k1pay3, ha, hS2 q]
  rfl

end Cert.KernelIdeal.TileVal

end
-- ==== Proof.BlockRead0.lean ====
/-
  The first region's windows, read at an index. The block a window holds at grid point t, read off the contents of
  its array, is the array at (block index × block size + the coordinate inside the block) on each axis. The grid is
  row-major over 37 column tiles of 14 contraction steps, so the block indices have the closed forms t / 14 (tile)
  and t % 14 (step); they are decided once over the 518 points. For the output window (the hidden activation) also:
  where a block sits in the array, which array indices a block holds, and the point whose block holds a given index.
-/
import proofs.«151881_j89111981457456_1_alg».proof.Proof.Gen.KernelIdeal.Points
import proofs.«151881_j89111981457456_1_alg».proof.Proof.Gen.KernelIdeal.Launch
import Idealize.ShloMosaic.Lib.Pipeline.Value
import Idealize.ShloMosaic.Lib.ValueIdx

noncomputable section

namespace Cert.KernelIdeal.BlockRead

open Cert.KernelIdeal Cert.KernelIdeal.Gen Idealize.ShloMosaic Idealize.ShloMosaic.ValueIdx

variable {F : FTy → Type} [FloatOps F]

/-- The first region's grid has 518 points. -/
theorem lt0 (t : Fin cfg0.N) : t.val < 518 := Nat.lt_of_lt_of_eq t.isLt N_0

/-! ## The block indices in closed form -/

/-- The activation window moves with the contraction step only. -/
theorem idx0_0 : ∀ t : Fin cfg0.N, win0_0.index t (0 : Fin 2) = 0 ∧ win0_0.index t (1 : Fin 2) = t.val % 14 :=
  (by decide +kernel : ∀ t : Fin grid0.N, _)

/-- The gate weight window: row tile t / 14, contraction step t % 14. -/
theorem idx0_1 : ∀ t : Fin cfg0.N, win0_1.index t (0 : Fin 2) = t.val / 14 ∧ win0_1.index t (1 : Fin 2) = t.val % 14 :=
  (by decide +kernel : ∀ t : Fin grid0.N, _)

/-- The up weight window: row tile 37 + t / 14 (the second half of the stacked weight), contraction step t % 14. -/
theorem idx0_2 : ∀ t : Fin cfg0.N, win0_2.index t (0 : Fin 2) = 37 + t.val / 14 ∧ win0_2.index t (1 : Fin 2) = t.val % 14 :=
  (by decide +kernel : ∀ t : Fin grid0.N, _)

/-- The gate scale window: column tile t / 14. -/
theorem idx0_3 : ∀ t : Fin cfg0.N, win0_3.index t (0 : Fin 2) = 0 ∧ win0_3.index t (1 : Fin 2) = t.val / 14 :=
  (by decide +kernel : ∀ t : Fin grid0.N, _)

/-- The up scale window: column tile 37 + t / 14. -/
theorem idx0_4 : ∀ t : Fin cfg0.N, win0_4.index t (0 : Fin 2) = 0 ∧ win0_4.index t (1 : Fin 2) = 37 + t.val / 14 :=
  (by decide +kernel : ∀ t : Fin grid0.N, _)

/-- The hidden activation (output) window: column tile t / 14. -/
theorem idx0_5 : ∀ t : Fin cfg0.N, win0_5.index t (0 : Fin 2) = 0 ∧ win0_5.index t (1 : Fin 2) = t.val / 14 :=
  (by decide +kernel : ∀ t : Fin grid0.N, _)

/-! ## The blocks read off array contents -/

/-- The activation block at point t: all 4096 rows, columns 256 (t % 14) + h. -/
theorem read0_0 (t : Fin cfg0.N) (A : S4096x3584.Idx → Elt F .f32) (p : Fin 4096) (h : Fin 256) :
    ((cfg0.win 0).blk t).view.read (Elt F) A (ix2 p h)
      = A (ix2 p ⟨256 * (t.val % 14) + h.val, by have := h.isLt; have := lt0 t; omega⟩) := by
  obtain ⟨e0, e1⟩ := idx0_0 t
  show A (((cfg0.win 0).blk t).view.emb (ix2 p h)) = A _
  refine congrArg A (funext fun a => Fin.ext ?_)
  match a with
  | ⟨0, _⟩ => show win0_0.index t (0 : Fin 2) * 4096 + 1 * p.val = p.val; rw [e0]; omega
  | ⟨1, _⟩ => show win0_0.index t (1 : Fin 2) * 256 + 1 * h.val = 256 * (t.val % 14) + h.val; rw [e1]; omega

/-- The gate weight block at point t: rows 512 (t / 14) + q, columns 256 (t % 14) + h. -/
theorem read0_1 (t : Fin cfg0.N) (A : S37888x3584.Idx → Elt F .f32) (q : Fin 512) (h : Fin 256) :
    ((cfg0.win 1).blk t).view.read (Elt F) A (ix2 q h)
      = A (ix2 ⟨512 * (t.val / 14) + q.val, by have := q.isLt; have := lt0 t; omega⟩
            ⟨256 * (t.val % 14) + h.val, by have := h.isLt; have := lt0 t; omega⟩) := by
  obtain ⟨e0, e1⟩ := idx0_1 t
  show A (((cfg0.win 1).blk t).view.emb (ix2 q h)) = A _
  refine congrArg A (funext fun a => Fin.ext ?_)
  match a with
  | ⟨0, _⟩ => show win0_1.index t (0 : Fin 2) * 512 + 1 * q.val = 512 * (t.val / 14) + q.val; rw [e0]; omega
  | ⟨1, _⟩ => show win0_1.index t (1 : Fin 2) * 256 + 1 * h.val = 256 * (t.val % 14) + h.val; rw [e1]; omega

/-- The up weight block at point t: rows 512 (37 + t / 14) + q, columns 256 (t % 14) + h. -/
theorem read0_2 (t : Fin cfg0.N) (A : S37888x3584.Idx → Elt F .f32) (q : Fin 512) (h : Fin 256) :
    ((cfg0.win 2).blk t).view.read (Elt F) A (ix2 q h)
      = A (ix2 ⟨512 * (37 + t.val / 14) + q.val, by have := q.isLt; have := lt0 t; omega⟩
            ⟨256 * (t.val % 14) + h.val, by have := h.isLt; have := lt0 t; omega⟩) := by
  obtain ⟨e0, e1⟩ := idx0_2 t
  show A (((cfg0.win 2).blk t).view.emb (ix2 q h)) = A _
  refine congrArg A (funext fun a => Fin.ext ?_)
  match a with
  | ⟨0, _⟩ => show win0_2.index t (0 : Fin 2) * 512 + 1 * q.val = 512 * (37 + t.val / 14) + q.val; rw [e0]; omega
  | ⟨1, _⟩ => show win0_2.index t (1 : Fin 2) * 256 + 1 * h.val = 256 * (t.val % 14) + h.val; rw [e1]; omega

/-- The gate scale block at point t: columns 512 (t / 14) + q of the scale row. -/
theorem read0_3 (t : Fin cfg0.N) (A : S1x37888.Idx → Elt F .f32) (z : Fin 1) (q : Fin 512) :
    ((cfg0.win 3).blk t).view.read (Elt F) A (ix2 z q)
      = A (ix2 (0 : Fin 1) ⟨512 * (t.val / 14) + q.val, by have := q.isLt; have := lt0 t; omega⟩) := by
  obtain ⟨e0, e1⟩ := idx0_3 t
  show A (((cfg0.win 3).blk t).view.emb (ix2 z q)) = A _
  refine congrArg A (funext fun a => Fin.ext ?_)
  match a with
  | ⟨0, _⟩ => show win0_3.index t (0 : Fin 2) * 1 + 1 * z.val = (0 : Fin 1).val; rw [e0]; omega
  | ⟨1, _⟩ => show win0_3.index t (1 : Fin 2) * 512 + 1 * q.val = 512 * (t.val / 14) + q.val; rw [e1]; omega

/-- The up scale block at point t: columns 512 (37 + t / 14) + q of the scale row. -/
theorem read0_4 (t : Fin cfg0.N) (A : S1x37888.Idx → Elt F .f32) (z : Fin 1) (q : Fin 512) :
    ((cfg0.win 4).blk t).view.read (Elt F) A (ix2 z q)
      = A (ix2 (0 : Fin 1) ⟨512 * (37 + t.val / 14) + q.val, by have := q.isLt; have := lt0 t; omega⟩) := by
  obtain ⟨e0, e1⟩ := idx0_4 t
  show A (((cfg0.win 4).blk t).view.emb (ix2 z q)) = A _
  refine congrArg A (funext fun a => Fin.ext ?_)
  match a with
  | ⟨0, _⟩ => show win0_4.index t (0 : Fin 2) * 1 + 1 * z.val = (0 : Fin 1).val; rw [e0]; omega
  | ⟨1, _⟩ => show win0_4.index t (1 : Fin 2) * 512 + 1 * q.val = 512 * (37 + t.val / 14) + q.val; rw [e1]; omega

/-! ## The output window: the hidden activation -/

/-- Where the hidden activation block at point t sits in its array: block coordinate (p, q) is array index
    (p, 512 (t / 14) + q). -/
theorem emb0_5 (t : Fin cfg0.N) (p : Fin 4096) (q : Fin 512) :
    ((cfg0.win 5).blk t).view.emb (ix2 p q)
      = (ix2 p ⟨512 * (t.val / 14) + q.val, by have := q.isLt; have := lt0 t; omega⟩ : S4096x18944.Idx) := by
  obtain ⟨e0, e1⟩ := idx0_5 t
  refine funext fun a => Fin.ext ?_
  match a with
  | ⟨0, _⟩ => show win0_5.index t (0 : Fin 2) * 4096 + 1 * p.val = p.val; rw [e0]; omega
  | ⟨1, _⟩ => show win0_5.index t (1 : Fin 2) * 512 + 1 * q.val = 512 * (t.val / 14) + q.val; rw [e1]; omega

/-- The hidden activation block at point t, read off array contents: all rows, columns 512 (t / 14) + q. -/
theorem read0_5 (t : Fin cfg0.N) (A : S4096x18944.Idx → Elt F .bf16) (p : Fin 4096) (q : Fin 512) :
    ((cfg0.win 5).blk t).view.read (Elt F) A (ix2 p q)
      = A (ix2 p ⟨512 * (t.val / 14) + q.val, by have := q.isLt; have := lt0 t; omega⟩) := by
  show A (((cfg0.win 5).blk t).view.emb (ix2 p q)) = A _
  rw [emb0_5]

/-- An index of the hidden activation array is in point t's block iff its column lies in column tile t / 14. -/
theorem mem_blk0_5 (t : Fin cfg0.N) (i : S4096x18944.Idx) :
    i ∈ ((cfg0.win 5).blk t).view.set ↔ (i 1).val / 512 = t.val / 14 := by
  show i ∈ ((View.whole main_v2).slice (win0_5.rect t)).set ↔ _
  rw [View.set_slice_whole, Rect.mem_set_unit]
  obtain ⟨e0, e1⟩ := idx0_5 t
  have h0 : (i 0).val < 4096 := (i 0).isLt
  constructor
  · intro h
    have b1 : win0_5.index t (1 : Fin 2) * 512 ≤ (i 1).val ∧ (i 1).val < win0_5.index t (1 : Fin 2) * 512 + 512 := h 1
    rw [e1] at b1; omega
  · intro h a
    match a with
    | ⟨0, _⟩ =>
      show win0_5.index t (0 : Fin 2) * 4096 ≤ (i 0).val ∧ (i 0).val < win0_5.index t (0 : Fin 2) * 4096 + 4096
      rw [e0]; omega
    | ⟨1, _⟩ =>
      show win0_5.index t (1 : Fin 2) * 512 ≤ (i 1).val ∧ (i 1).val < win0_5.index t (1 : Fin 2) * 512 + 512
      rw [e1]; omega

/-- The last contraction step of column tile n: the point that writes the tile back. -/
def last0 (n : Fin 37) : Fin cfg0.N := ⟨14 * n.val + 13, Nat.lt_of_lt_of_eq (by have := n.isLt; omega) N_0.symm⟩

theorem last0_val (n : Fin 37) : (last0 n).val = 14 * n.val + 13 := rfl

/-- The last step of a tile writes back. -/
theorem flush_last0 (n : Fin 37) : (cfg0.win 5).flush (last0 n) = true :=
  (flush0_5 _).2 (by rw [last0_val]; omega)

/-- A point writes back exactly when it is the last step of its tile. -/
theorem eq_last0_of_flush (t : Fin cfg0.N) (hf : (cfg0.win 5).flush t = true) :
    t = last0 ⟨t.val / 14, by have := lt0 t; omega⟩ := by
  have h := (flush0_5 t).1 hf
  apply Fin.ext; rw [last0_val]; show t.val = 14 * (t.val / 14) + 13; omega

/-- Every index of the hidden activation array is in the block of a point that writes back: the last step of the
    tile its column lies in. -/
theorem cover0_5 (i : S4096x18944.Idx) :
    ∃ t : Fin cfg0.N, (cfg0.win 5).flush t = true ∧ i ∈ ((cfg0.win 5).blk t).view.set := by
  have h1 : (i 1).val < 18944 := (i 1).isLt
  refine ⟨last0 ⟨(i 1).val / 512, by omega⟩, flush_last0 _, ?_⟩
  rw [mem_blk0_5, last0_val]
  show (i 1).val / 512 = (14 * ((i 1).val / 512) + 13) / 14
  omega

end Cert.KernelIdeal.BlockRead

end
-- ==== Proof.Val0.lean ====
/-
  The value of the gate / up region: the hidden activation array it leaves.

  The grid runs over 37 output tiles of 14 contraction steps each. Within a tile the two accumulators are cleared and
  loaded at step 0 and added to at every later step; after step 13 they hold the whole contractions of the rows of x
  with the tile's gate rows and up rows of the stacked weight, and the step stores the scaled, gated product as the
  tile of the hidden activation. The tiles written back cover the array, so the array ends at the specified hidden
  activation. The sums are re-associated only by the laws of a commutative additive monoid.
-/
import proofs.«151881_j89111981457456_1_alg».proof.Proof.Pieces0
import proofs.«151881_j89111981457456_1_alg».proof.Proof.TileVal
import proofs.«151881_j89111981457456_1_alg».proof.Proof.BlockRead0
import proofs.«151881_j89111981457456_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.BlockRead

/-! ## The accumulators point by point, at any values -/

section
variable {F : FTy → Type} [FloatOps F]
variable (V : (c : Dev nD) → (b : Ref sig .tc) → Buf (Elt F) ((c : Thread nD τ).loc b))

/-- The contents after a position depend on the position only. -/
theorem outsAt0_congr (c : Dev nD) {n n' : ℕ} (e : n = n') (h : n < cfg0.N) (h' : n' < cfg0.N) :
    outsAt0 V c n h = outsAt0 V c n' h' := by subst e; rfl

/-- At the first step of a tile the gate accumulator is the first products added to the zero fill. -/
theorem gate_first (c : Dev nD) (t : Fin cfg0.N) (h0 : t.val % 14 = 0) :
    (outsAt0 V c t.val t.isLt).2.1 = k0_pay4 (iblk0 V c 0 t) (iblk0 V c 1 t) (k0_pay1 (F := F)) := by
  have h1 : ¬t.val % 14 = 13 := by omega
  rw [outsAt0_A V c t h0 h1]
  exact leftA_gate c t h0 h1 (iblk0 V c 0 t) (iblk0 V c 1 t) (iblk0 V c 2 t)

/-- At the first step of a tile the up accumulator is the first products added to the zero fill. -/
theorem up_first (c : Dev nD) (t : Fin cfg0.N) (h0 : t.val % 14 = 0) :
    (outsAt0 V c t.val t.isLt).2.2 = k0_pay5 (iblk0 V c 0 t) (iblk0 V c 2 t) (k0_pay2 (F := F)) := by
  have h1 : ¬t.val % 14 = 13 := by omega
  rw [outsAt0_A V c t h0 h1]
  exact leftA_up c t h0 h1 (iblk0 V c 0 t) (iblk0 V c 1 t) (iblk0 V c 2 t)

/-- At a later step the gate accumulator is the step's products added to what the point before left. -/
theorem gate_next (c : Dev nD) (t : Fin cfg0.N) (h0 : ¬t.val % 14 = 0) :
    (outsAt0 V c t.val t.isLt).2.1
      = k0_pay4 (iblk0 V c 0 t) (iblk0 V c 1 t) (outsAt0 V c (t.val - 1) (Nat.lt_of_le_of_lt (Nat.sub_le _ _) t.isLt)).2.1 := by
  by_cases h1 : t.val % 14 = 13
  · rw [outsAt0_C V c t h0 h1]
    exact leftC_gate c t h0 h1 (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2
  · rw [outsAt0_B V c t h0 h1]
    exact leftB_gate c t h0 h1 (iblk0 V c 0 t) (iblk0 V c 1 t) (iblk0 V c 2 t)
      (outsAt0 V c (t.val - 1) (Nat.lt_of_le_of_lt (Nat.sub_le _ _) t.isLt)).2.1
      (outsAt0 V c (t.val - 1) (Nat.lt_of_le_of_lt (Nat.sub_le _ _) t.isLt)).2.2

/-- At a later step the up accumulator is the step's products added to what the point before left. -/
theorem up_next (c : Dev nD) (t : Fin cfg0.N) (h0 : ¬t.val % 14 = 0) :
    (outsAt0 V c t.val t.isLt).2.2
      = k0_pay5 (iblk0 V c 0 t) (iblk0 V c 2 t) (outsAt0 V c (t.val - 1) (Nat.lt_of_le_of_lt (Nat.sub_le _ _) t.isLt)).2.2 := by
  by_cases h1 : t.val % 14 = 13
  · rw [outsAt0_C V c t h0 h1]
    exact leftC_up c t h0 h1 (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2
  · rw [outsAt0_B V c t h0 h1]
    exact leftB_up c t h0 h1 (iblk0 V c 0 t) (iblk0 V c 1 t) (iblk0 V c 2 t)
      (outsAt0 V c (t.val - 1) (Nat.lt_of_le_of_lt (Nat.sub_le _ _) t.isLt)).2.1
      (outsAt0 V c (t.val - 1) (Nat.lt_of_le_of_lt (Nat.sub_le _ _) t.isLt)).2.2

/-- At the last step of a tile the output buffer is the gated, scaled tile of the two accumulators as the step
    leaves them. -/
theorem out_last (c : Dev nD) (t : Fin cfg0.N) (h1 : t.val % 14 = 13) :
    (outsAt0 V c t.val t.isLt).1
      = k0_pay6 (outsAt0 V c t.val t.isLt).2.1 (iblk0 V c 3 t) (outsAt0 V c t.val t.isLt).2.2 (iblk0 V c 4 t) := by
  have h0 : ¬t.val % 14 = 0 := by omega
  rw [outsAt0_C V c t h0 h1]
  rw [leftC_out c t h0 h1 (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2,
    leftC_gate c t h0 h1 (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2,
    leftC_up c t h0 h1 (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2]

end

/-! ## One output tile of the hidden activation, at the exact values -/

section
variable (V : (c : Dev nD) → (b : Ref sig .tc) → Buf (Elt Ideal) ((c : Thread nD τ).loc b)) (c : Dev nD)

/-- Step k of output tile i as a grid point (k is read modulo 14, so that every k names a point). -/
def pt0 (i : Fin 37) (k : ℕ) : Fin cfg0.N :=
  ⟨14 * i.val + k % 14, Nat.lt_of_lt_of_eq (by have := i.isLt; omega) N_0.symm⟩

theorem pt0_val (i : Fin 37) (k : ℕ) : (pt0 i k).val = 14 * i.val + k % 14 := rfl

/-- The activation block at step k of any tile: columns 256 k + h of x. -/
theorem blkX0 (i : Fin 37) (k : ℕ) (hk : k < 14) (p : Fin 4096) (h : Fin 256) :
    (iblk0 V c 0 (pt0 i k) : FVec Ideal S4096x256 .f32) (ix2 p h)
      = (V c main_arg0 : (⟨2, ![4096, 3584]⟩ : Shape).Idx → EReal) (ix2 p ⟨256 * k + h.val, by omega⟩) := by
  have e : (pt0 i k).val % 14 = k := by rw [pt0_val]; omega
  refine (read0_0 (F := Ideal) (pt0 i k) (V c main_arg0) p h).trans ?_
  exact congrArg (fun z => (V c main_arg0 : (⟨2, ![4096, 3584]⟩ : Shape).Idx → EReal) (ix2 p z))
    (Fin.ext (by show 256 * ((pt0 i k).val % 14) + h.val = 256 * k + h.val; rw [e]))

/-- The gate weight block at step k of tile i: rows 512 i + q, columns 256 k + h of w. -/
theorem blkG0 (i : Fin 37) (k : ℕ) (hk : k < 14) (q : Fin 512) (h : Fin 256) :
    (iblk0 V c 1 (pt0 i k) : FVec Ideal S512x256 .f32) (ix2 q h)
      = (V c main_arg1 : (⟨2, ![37888, 3584]⟩ : Shape).Idx → EReal)
          (ix2 ⟨512 * i.val + q.val, by omega⟩ ⟨256 * k + h.val, by omega⟩) := by
  have e : (pt0 i k).val % 14 = k := by rw [pt0_val]; omega
  have d : (pt0 i k).val / 14 = i.val := by rw [pt0_val]; omega
  refine (read0_1 (F := Ideal) (pt0 i k) (V c main_arg1) q h).trans ?_
  exact congrArg₂ (fun y z => (V c main_arg1 : (⟨2, ![37888, 3584]⟩ : Shape).Idx → EReal) (ix2 y z))
    (Fin.ext (by show 512 * ((pt0 i k).val / 14) + q.val = 512 * i.val + q.val; rw [d]))
    (Fin.ext (by show 256 * ((pt0 i k).val % 14) + h.val = 256 * k + h.val; rw [e]))

/-- The up weight block at step k of tile i: rows 512 (37 + i) + q, columns 256 k + h of w. -/
theorem blkU0 (i : Fin 37) (k : ℕ) (hk : k < 14) (q : Fin 512) (h : Fin 256) :
    (iblk0 V c 2 (pt0 i k) : FVec Ideal S512x256 .f32) (ix2 q h)
      = (V c main_arg1 : (⟨2, ![37888, 3584]⟩ : Shape).Idx → EReal)
          (ix2 ⟨512 * (37 + i.val) + q.val, by omega⟩ ⟨256 * k + h.val, by omega⟩) := by
  have e : (pt0 i k).val % 14 = k := by rw [pt0_val]; omega
  have d : (pt0 i k).val / 14 = i.val := by rw [pt0_val]; omega
  refine (read0_2 (F := Ideal) (pt0 i k) (V c main_arg1) q h).trans ?_
  exact congrArg₂ (fun y z => (V c main_arg1 : (⟨2, ![37888, 3584]⟩ : Shape).Idx → EReal) (ix2 y z))
    (Fin.ext (by show 512 * (37 + (pt0 i k).val / 14) + q.val = 512 * (37 + i.val) + q.val; rw [d]))
    (Fin.ext (by show 256 * ((pt0 i k).val % 14) + h.val = 256 * k + h.val; rw [e]))

variable (s : (⟨2, ![37888, 1]⟩ : Shape).Idx → EReal)
  (hs : ∀ o : Fin 37888, (V c main_v0 : (⟨2, ![1, 37888]⟩ : Shape).Idx → EReal) (ix2 (0 : Fin 1) o) = s (ix2 o (0 : Fin 1)))
include hs

/-- The gate scale block at any step of tile i: entries 512 i + q of the scale column. -/
theorem blkS3 (i : Fin 37) (k : ℕ) (q : Fin 512) :
    (iblk0 V c 3 (pt0 i k) : FVec Ideal S1x512 .f32) (ix2 (0 : Fin 1) q)
      = s (ix2 ⟨512 * i.val + q.val, by omega⟩ (0 : Fin 1)) := by
  have d : (pt0 i k).val / 14 = i.val := by rw [pt0_val]; omega
  refine (read0_3 (F := Ideal) (pt0 i k) (V c main_v0) (0 : Fin 1) q).trans ?_
  refine Eq.trans ?_ (hs ⟨512 * i.val + q.val, by omega⟩)
  exact congrArg (fun z => (V c main_v0 : (⟨2, ![1, 37888]⟩ : Shape).Idx → EReal) (ix2 (0 : Fin 1) z))
    (Fin.ext (by show 512 * ((pt0 i k).val / 14) + q.val = 512 * i.val + q.val; rw [d]))

/-- The up scale block at any step of tile i: entries 512 (37 + i) + q of the scale column. -/
theorem blkS4 (i : Fin 37) (k : ℕ) (q : Fin 512) :
    (iblk0 V c 4 (pt0 i k) : FVec Ideal S1x512 .f32) (ix2 (0 : Fin 1) q)
      = s (ix2 ⟨512 * (37 + i.val) + q.val, by omega⟩ (0 : Fin 1)) := by
  have d : (pt0 i k).val / 14 = i.val := by rw [pt0_val]; omega
  refine (read0_4 (F := Ideal) (pt0 i k) (V c main_v0) (0 : Fin 1) q).trans ?_
  refine Eq.trans ?_ (hs ⟨512 * (37 + i.val) + q.val, by omega⟩)
  exact congrArg (fun z => (V c main_v0 : (⟨2, ![1, 37888]⟩ : Shape).Idx → EReal) (ix2 (0 : Fin 1) z))
    (Fin.ext (by show 512 * (37 + (pt0 i k).val / 14) + q.val = 512 * (37 + i.val) + q.val; rw [d]))

/-- What the last step of output tile i leaves in the output buffer is the specified hidden activation at the tile's
    columns. -/
theorem tile0 (i : Fin 37) (p : Fin 4096) (q : Fin 512) :
    ((outsAt0 V c (pt0 i 13).val (pt0 i 13).isLt).1 (ix2 p q) : EReal)
      = Cert.GatedMlp.hidAt (V c main_arg0) (V c main_arg1) s p ⟨512 * i.val + q.val, by omega⟩ := by
  rw [out_last V c (pt0 i 13) (by rw [pt0_val]; omega)]
  refine Cert.KernelIdeal.TileVal.hid_tile i (V c main_arg0) (V c main_arg1) s
    (fun k => iblk0 V c 0 (pt0 i k)) (fun k => iblk0 V c 1 (pt0 i k)) (fun k => iblk0 V c 2 (pt0 i k))
    (iblk0 V c 3 (pt0 i 13)) (iblk0 V c 4 (pt0 i 13))
    (fun k hk p h => blkX0 V c i k hk p h) (fun k hk q h => blkG0 V c i k hk q h) (fun k hk q h => blkU0 V c i k hk q h)
    (fun q => blkS3 V c s hs i 13 q) (fun q => blkS4 V c s hs i 13 q)
    (fun k => (outsAt0 V c (pt0 i k).val (pt0 i k).isLt).2.1) (fun k => (outsAt0 V c (pt0 i k).val (pt0 i k).isLt).2.2)
    ?_ (fun k hk => ?_) ?_ (fun k hk => ?_) p q
  · exact gate_first V c (pt0 i 0) (by rw [pt0_val]; omega)
  · show (outsAt0 V c (pt0 i (k + 1)).val (pt0 i (k + 1)).isLt).2.1 = _
    rw [gate_next V c (pt0 i (k + 1)) (by rw [pt0_val]; omega),
      outsAt0_congr V c (show (pt0 i (k + 1)).val - 1 = (pt0 i k).val by rw [pt0_val, pt0_val]; omega) _ (pt0 i k).isLt]
  · exact up_first V c (pt0 i 0) (by rw [pt0_val]; omega)
  · show (outsAt0 V c (pt0 i (k + 1)).val (pt0 i (k + 1)).isLt).2.2 = _
    rw [up_next V c (pt0 i (k + 1)) (by rw [pt0_val]; omega),
      outsAt0_congr V c (show (pt0 i (k + 1)).val - 1 = (pt0 i k).val by rw [pt0_val, pt0_val]; omega) _ (pt0 i k).isLt]

end

/-! ## The whole hidden activation -/

section
variable (V : (c : Dev nD) → (b : Ref sig .tc) → Buf (Elt Ideal) ((c : Thread nD τ).loc b)) (c : Dev nD)

/-- After the gate / up region the hidden activation array holds the specified hidden activation of the region's
    inputs: the activations, the stacked weight, and the column of scales the transposed row was made from. -/
theorem arr0_value (s : (⟨2, ![37888, 1]⟩ : Shape).Idx → EReal)
    (hs : ∀ o : Fin 37888, (V c main_v0 : (⟨2, ![1, 37888]⟩ : Shape).Idx → EReal) (ix2 (0 : Fin 1) o) = s (ix2 o (0 : Fin 1))) :
    ((dat0 (F := Ideal) V c).arrAt 5 cfg0.N : (⟨2, ![4096, 18944]⟩ : Shape).Idx → EReal)
      = Cert.GatedMlp.hid (V c main_arg0) (V c main_arg1) s := by
  refine Dat.arrAt_eq_of_cover (dat0 (F := Ideal) V c) 5 (Cert.GatedMlp.hid (V c main_arg0) (V c main_arg1) s)
    (fun t hf => ?_) cover0_5
  show (dat0 (F := Ideal) V c).after 5 t = _
  rw [after0_5]
  refine funext fun (j : S4096x512.Idx) => ?_
  obtain ⟨p, q, rfl⟩ : ∃ (p : Fin 4096) (q : Fin 512), j = ix2 p q := ⟨j 0, j 1, eq_ix2 j⟩
  have h13 : t.val % 14 = 13 := (flush0_5 t).1 hf
  have hi : t.val / 14 < 37 := by have := lt0 t; omega
  have et : pt0 ⟨t.val / 14, hi⟩ 13 = t := Fin.ext (by rw [pt0_val]; show 14 * (t.val / 14) + 13 % 14 = t.val; omega)
  have ht := tile0 V c s hs ⟨t.val / 14, hi⟩ p q
  rw [et] at ht
  refine ht.trans ?_
  exact (read0_5 (F := Ideal) t (Cert.GatedMlp.hid (V c main_arg0) (V c main_arg1) s) p q).symm

end

end Cert.KernelIdeal.Hand

end
-- ==== Proof.Pieces1.lean ====
/-
  What each case of the down body leaves in the accumulator and in the output buffer, as the body's own pure terms
  over the blocks it loaded.

  Each buffer a case fills ends with a list of whole-buffer stores; the last one decides the contents. A first step
  leaves the products added to the zero fill, a middle step the products added to what the step before left, and a
  last step also the scaled output tile of the accumulator just stored.
-/
import proofs.«151881_j89111981457456_1_alg».proof.Proof.Dat1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole-buffer offsets are zero. -/
theorem hzOff1 : (![0, 0] : Fin 2 → Nat) = fun _ => 0 := funext fun a => by fin_cases a <;> rfl

/-- The accumulator after a first step: the products added to the zero fill. -/
theorem left1A_acc (c : Dev nD) (t : Fin cfg1.N) (h0 : t.val % 37 = 0) (h1 : ¬t.val % 37 = 36) (x0 : Vec F S4096x512 .bf16) (x1 : Vec F S512x512 .f32) :
    (left1A (F := F) c t h0 h1 x0 x1).2 = k1_pay2 x0 x1 (k1_pay1 (F := F)) := by
  unfold left1A
  dsimp only
  rw [View.read_writes_eq_canon _ _ _ (scover1A_0 c t h0 h1 x0 x1)]
  unfold run1A
  unfold kernelRun1_A
  dsimp only
  sl_unfold_words
  rw [View.canon_cons_unit_zero (S := S4096x512) hzOff1, View.readCov_unit_zero (S := S4096x512) _ hzOff1]
  simp only [View.readAt_eq_ld, (hs1_0 t).read_unread, (hs1_1 t).read_unread, (hs1_2 t).read_unread, (Memref.isWhole_whole cc1_scratch0).read_unread, View.ld_unit_zero (S := S512x512) hzOff1, View.ld_unit_zero (S := S1x512) hzOff1, View.ld_unit_zero (S := S4096x512) hzOff1]

/-- The accumulator after a middle step: the products added to what the step before left. -/
theorem left1B_acc (c : Dev nD) (t : Fin cfg1.N) (h0 : ¬t.val % 37 = 0) (h1 : ¬t.val % 37 = 36) (x0 : Vec F S4096x512 .bf16) (x1 : Vec F S512x512 .f32) (xs0 : Vec F S4096x512 .f32) :
    (left1B (F := F) c t h0 h1 x0 x1 xs0).2 = k1_pay2 x0 x1 xs0 := by
  unfold left1B
  dsimp only
  rw [View.read_writes_eq_canon _ _ _ (scover1B_0 c t h0 h1 x0 x1 xs0)]
  unfold run1B
  unfold kernelRun1_B
  dsimp only
  rw [View.canon_unit_zero (S := S4096x512) hzOff1]
  simp only [View.readAt_eq_ld, (hs1_0 t).read_unread, (hs1_1 t).read_unread, (hs1_2 t).read_unread, (Memref.isWhole_whole cc1_scratch0).read_unread, View.ld_unit_zero (S := S512x512) hzOff1, View.ld_unit_zero (S := S1x512) hzOff1, View.ld_unit_zero (S := S4096x512) hzOff1]

/-- The accumulator after a last step. -/
theorem left1C_acc (c : Dev nD) (t : Fin cfg1.N) (h0 : ¬t.val % 37 = 0) (h1 : t.val % 37 = 36) (x0 : Vec F S4096x512 .bf16) (x1 : Vec F S512x512 .f32) (x2 : Vec F S1x512 .f32) (xs0 : Vec F S4096x512 .f32) :
    (left1C (F := F) c t h0 h1 x0 x1 x2 xs0).2 = k1_pay2 x0 x1 xs0 := by
  unfold left1C
  dsimp only
  rw [View.read_writes_eq_canon _ _ _ (scover1C_0 c t h0 h1 x0 x1 x2 xs0)]
  unfold run1C
  unfold kernelRun1_C
  dsimp only
  sl_unfold_words
  rw [View.canon_unit_zero (S := S4096x512) hzOff1]
  simp only [View.readAt_eq_ld, (hs1_0 t).read_unread, (hs1_1 t).read_unread, (hs1_2 t).read_unread, (Memref.isWhole_whole cc1_scratch0).read_unread, View.ld_unit_zero (S := S512x512) hzOff1, View.ld_unit_zero (S := S1x512) hzOff1, View.ld_unit_zero (S := S4096x512) hzOff1]

/-- The output buffer after a last step: the scaled tile of the accumulator just stored. -/
theorem left1C_out (c : Dev nD) (t : Fin cfg1.N) (h0 : ¬t.val % 37 = 0) (h1 : t.val % 37 = 36) (x0 : Vec F S4096x512 .bf16) (x1 : Vec F S512x512 .f32) (x2 : Vec F S1x512 .f32) (xs0 : Vec F S4096x512 .f32) :
    (left1C (F := F) c t h0 h1 x0 x1 x2 xs0).1 = k1_pay3 (k1_pay2 x0 x1 xs0) x2 := by
  unfold left1C
  dsimp only
  rw [View.read_writes_eq_canon _ _ _ (cover1C_3 c t h0 h1 x0 x1 x2 xs0)]
  unfold run1C
  unfold kernelRun1_C
  dsimp only
  sl_unfold_words
  rw [View.canon_unit_zero (S := S4096x512) hzOff1, View.readCov_unit_zero (S := S4096x512) _ hzOff1]
  simp only [View.readAt_eq_ld, (hs1_0 t).read_unread, (hs1_1 t).read_unread, (hs1_2 t).read_unread, (Memref.isWhole_whole cc1_scratch0).read_unread, View.ld_unit_zero (S := S512x512) hzOff1, View.ld_unit_zero (S := S1x512) hzOff1, View.ld_unit_zero (S := S4096x512) hzOff1]

end Cert.KernelIdeal.Hand

end
-- ==== Proof.BlockRead1.lean ====
/-
  The second region's windows, read at an index. The grid is row-major over 7 column tiles of the result of 37
  contraction steps each, so the block indices have the closed forms t / 37 (tile) and t % 37 (step); they are
  decided once over the 259 points. The block a window holds at point t, read off the contents of its array, is the
  array at (block index × block size + the coordinate inside the block) on each axis. For the output window (the
  result) also: where a block sits in the array, which array indices a block holds, and the point whose block holds a
  given index.
-/
import proofs.«151881_j89111981457456_1_alg».proof.Proof.Gen.KernelIdeal.Points
import proofs.«151881_j89111981457456_1_alg».proof.Proof.Gen.KernelIdeal.Launch
import Idealize.ShloMosaic.Lib.Pipeline.Value
import Idealize.ShloMosaic.Lib.ValueIdx

noncomputable section

namespace Cert.KernelIdeal.BlockRead

open Cert.KernelIdeal Cert.KernelIdeal.Gen Idealize.ShloMosaic Idealize.ShloMosaic.ValueIdx

variable {F : FTy → Type} [FloatOps F]

/-- The second region's grid has 259 points. -/
theorem lt1 (t : Fin cfg1.N) : t.val < 259 := Nat.lt_of_lt_of_eq t.isLt N_1

/-! ## The block indices in closed form -/

/-- The hidden activation window moves with the contraction step only. -/
theorem idx1_0 : ∀ t : Fin cfg1.N, win1_0.index t (0 : Fin 2) = 0 ∧ win1_0.index t (1 : Fin 2) = t.val % 37 :=
  (by decide +kernel : ∀ t : Fin grid1.N, _)

/-- The down weight window: row tile t / 37, contraction step t % 37. -/
theorem idx1_1 : ∀ t : Fin cfg1.N, win1_1.index t (0 : Fin 2) = t.val / 37 ∧ win1_1.index t (1 : Fin 2) = t.val % 37 :=
  (by decide +kernel : ∀ t : Fin grid1.N, _)

/-- The down scale window: column tile t / 37. -/
theorem idx1_2 : ∀ t : Fin cfg1.N, win1_2.index t (0 : Fin 2) = 0 ∧ win1_2.index t (1 : Fin 2) = t.val / 37 :=
  (by decide +kernel : ∀ t : Fin grid1.N, _)

/-- The result (output) window: column tile t / 37. -/
theorem idx1_3 : ∀ t : Fin cfg1.N, win1_3.index t (0 : Fin 2) = 0 ∧ win1_3.index t (1 : Fin 2) = t.val / 37 :=
  (by decide +kernel : ∀ t : Fin grid1.N, _)

/-! ## The blocks read off array contents -/

/-- The hidden activation block at point t: all 4096 rows, columns 512 (t % 37) + j. -/
theorem read1_0 (t : Fin cfg1.N) (A : S4096x18944.Idx → Elt F .bf16) (p : Fin 4096) (j : Fin 512) :
    ((cfg1.win 0).blk t).view.read (Elt F) A (ix2 p j)
      = A (ix2 p ⟨512 * (t.val % 37) + j.val, by have := j.isLt; have := lt1 t; omega⟩) := by
  obtain ⟨e0, e1⟩ := idx1_0 t
  show A (((cfg1.win 0).blk t).view.emb (ix2 p j)) = A _
  refine congrArg A (funext fun a => Fin.ext ?_)
  match a with
  | ⟨0, _⟩ => show win1_0.index t (0 : Fin 2) * 4096 + 1 * p.val = p.val; rw [e0]; omega
  | ⟨1, _⟩ => show win1_0.index t (1 : Fin 2) * 512 + 1 * j.val = 512 * (t.val % 37) + j.val; rw [e1]; omega

/-- The down weight block at point t: rows 512 (t / 37) + q, columns 512 (t % 37) + j. -/
theorem read1_1 (t : Fin cfg1.N) (A : S3584x18944.Idx → Elt F .f32) (q : Fin 512) (j : Fin 512) :
    ((cfg1.win 1).blk t).view.read (Elt F) A (ix2 q j)
      = A (ix2 ⟨512 * (t.val / 37) + q.val, by have := q.isLt; have := lt1 t; omega⟩
            ⟨512 * (t.val % 37) + j.val, by have := j.isLt; have := lt1 t; omega⟩) := by
  obtain ⟨e0, e1⟩ := idx1_1 t
  show A (((cfg1.win 1).blk t).view.emb (ix2 q j)) = A _
  refine congrArg A (funext fun a => Fin.ext ?_)
  match a with
  | ⟨0, _⟩ => show win1_1.index t (0 : Fin 2) * 512 + 1 * q.val = 512 * (t.val / 37) + q.val; rw [e0]; omega
  | ⟨1, _⟩ => show win1_1.index t (1 : Fin 2) * 512 + 1 * j.val = 512 * (t.val % 37) + j.val; rw [e1]; omega

/-- The down scale block at point t: columns 512 (t / 37) + q of the scale row. -/
theorem read1_2 (t : Fin cfg1.N) (A : S1x3584.Idx → Elt F .f32) (z : Fin 1) (q : Fin 512) :
    ((cfg1.win 2).blk t).view.read (Elt F) A (ix2 z q)
      = A (ix2 (0 : Fin 1) ⟨512 * (t.val / 37) + q.val, by have := q.isLt; have := lt1 t; omega⟩) := by
  obtain ⟨e0, e1⟩ := idx1_2 t
  show A (((cfg1.win 2).blk t).view.emb (ix2 z q)) = A _
  refine congrArg A (funext fun a => Fin.ext ?_)
  match a with
  | ⟨0, _⟩ => show win1_2.index t (0 : Fin 2) * 1 + 1 * z.val = (0 : Fin 1).val; rw [e0]; omega
  | ⟨1, _⟩ => show win1_2.index t (1 : Fin 2) * 512 + 1 * q.val = 512 * (t.val / 37) + q.val; rw [e1]; omega

/-! ## The output window: the result -/

/-- Where the result block at point t sits in its array: block coordinate (p, q) is array index
    (p, 512 (t / 37) + q). -/
theorem emb1_3 (t : Fin cfg1.N) (p : Fin 4096) (q : Fin 512) :
    ((cfg1.win 3).blk t).view.emb (ix2 p q)
      = (ix2 p ⟨512 * (t.val / 37) + q.val, by have := q.isLt; have := lt1 t; omega⟩ : S4096x3584.Idx) := by
  obtain ⟨e0, e1⟩ := idx1_3 t
  refine funext fun a => Fin.ext ?_
  match a with
  | ⟨0, _⟩ => show win1_3.index t (0 : Fin 2) * 4096 + 1 * p.val = p.val; rw [e0]; omega
  | ⟨1, _⟩ => show win1_3.index t (1 : Fin 2) * 512 + 1 * q.val = 512 * (t.val / 37) + q.val; rw [e1]; omega

/-- The result block at point t, read off array contents: all rows, columns 512 (t / 37) + q. -/
theorem read1_3 (t : Fin cfg1.N) (A : S4096x3584.Idx → Elt F .f32) (p : Fin 4096) (q : Fin 512) :
    ((cfg1.win 3).blk t).view.read (Elt F) A (ix2 p q)
      = A (ix2 p ⟨512 * (t.val / 37) + q.val, by have := q.isLt; have := lt1 t; omega⟩) := by
  show A (((cfg1.win 3).blk t).view.emb (ix2 p q)) = A _
  rw [emb1_3]

/-- An index of the result array is in point t's block iff its column lies in column tile t / 37. -/
theorem mem_blk1_3 (t : Fin cfg1.N) (i : S4096x3584.Idx) :
    i ∈ ((cfg1.win 3).blk t).view.set ↔ (i 1).val / 512 = t.val / 37 := by
  show i ∈ ((View.whole main_v3).slice (win1_3.rect t)).set ↔ _
  rw [View.set_slice_whole, Rect.mem_set_unit]
  obtain ⟨e0, e1⟩ := idx1_3 t
  have h0 : (i 0).val < 4096 := (i 0).isLt
  constructor
  · intro h
    have b1 : win1_3.index t (1 : Fin 2) * 512 ≤ (i 1).val ∧ (i 1).val < win1_3.index t (1 : Fin 2) * 512 + 512 := h 1
    rw [e1] at b1; omega
  · intro h a
    match a with
    | ⟨0, _⟩ =>
      show win1_3.index t (0 : Fin 2) * 4096 ≤ (i 0).val ∧ (i 0).val < win1_3.index t (0 : Fin 2) * 4096 + 4096
      rw [e0]; omega
    | ⟨1, _⟩ =>
      show win1_3.index t (1 : Fin 2) * 512 ≤ (i 1).val ∧ (i 1).val < win1_3.index t (1 : Fin 2) * 512 + 512
      rw [e1]; omega

/-- The last contraction step of column tile n: the point that writes the tile back. -/
def last1 (n : Fin 7) : Fin cfg1.N := ⟨37 * n.val + 36, Nat.lt_of_lt_of_eq (by have := n.isLt; omega) N_1.symm⟩

theorem last1_val (n : Fin 7) : (last1 n).val = 37 * n.val + 36 := rfl

/-- The last step of a tile writes back. -/
theorem flush_last1 (n : Fin 7) : (cfg1.win 3).flush (last1 n) = true :=
  (flush1_3 _).2 (by rw [last1_val]; omega)

/-- A point writes back exactly when it is the last step of its tile. -/
theorem eq_last1_of_flush (t : Fin cfg1.N) (hf : (cfg1.win 3).flush t = true) :
    t = last1 ⟨t.val / 37, by have := lt1 t; omega⟩ := by
  have h := (flush1_3 t).1 hf
  apply Fin.ext; rw [last1_val]; show t.val = 37 * (t.val / 37) + 36; omega

/-- Every index of the result array is in the block of a point that writes back: the last step of the tile its
    column lies in. -/
theorem cover1_3 (i : S4096x3584.Idx) :
    ∃ t : Fin cfg1.N, (cfg1.win 3).flush t = true ∧ i ∈ ((cfg1.win 3).blk t).view.set := by
  have h1 : (i 1).val < 3584 := (i 1).isLt
  refine ⟨last1 ⟨(i 1).val / 512, by omega⟩, flush_last1 _, ?_⟩
  rw [mem_blk1_3, last1_val]
  show (i 1).val / 512 = (37 * ((i 1).val / 512) + 36) / 37
  omega

end Cert.KernelIdeal.BlockRead

end
-- ==== Proof.Val1.lean ====
/-
  The value of the down region: after the run the result array holds the specified down projection of the region's
  inputs as it found them.

  Fix an output tile n. Over its 37 contraction steps the accumulator is cleared and loaded at the first step and
  added to at every later one, each step reading the next column tile of the hidden activation and of the weight
  rows of the tile; so after the last step it holds the whole contraction, and what the last step stores is that
  contraction times the tile's scales: the specified entry. The points that write back are the last steps, and their
  blocks cover the array.
-/
import proofs.«151881_j89111981457456_1_alg».proof.Proof.Pieces1
import proofs.«151881_j89111981457456_1_alg».proof.Proof.TileVal
import proofs.«151881_j89111981457456_1_alg».proof.Proof.BlockRead1
import proofs.«151881_j89111981457456_1_alg».proof.Proof.Spec

noncomputable section

namespace Cert.KernelIdeal.Hand

open Cert.KernelIdeal Cert.KernelIdeal.Gen Cert.KernelIdeal.BlockRead
open Idealize.ShloMosaic Idealize.ShloMosaic.TcCoe Idealize.ShloMosaic.ValueIdx
open Idealize.ShloMosaic.Pipeline (Dat)

section steps
variable {F : FTy → Type} [FloatOps F]
variable (V : (c : Dev nD) → (b : Ref sig .tc) → Buf (Elt F) ((c : Thread nD τ).loc b))

/-- The accumulation at a point depends on the point's number only. -/
theorem outsAt1_congr (c : Dev nD) {a b : ℕ} (e : a = b) (ha : a < cfg1.N) (hb : b < cfg1.N) :
    outsAt1 V c a ha = outsAt1 V c b hb := by subst e; rfl

/-- The accumulator after the first step of a tile: the products added to the zero fill. -/
theorem acc1_first (c : Dev nD) (t : Fin cfg1.N) (h0 : t.val % 37 = 0) :
    (outsAt1 V c t.val t.isLt).2 = k1_pay2 (iblk1 V c 0 t) (iblk1 V c 1 t) (k1_pay1 (F := F)) := by
  rw [outsAt1_A V c t h0 (by omega), left1A_acc]

/-- The accumulator after a later step of a tile: the products added to what the step before left. -/
theorem acc1_step (c : Dev nD) (t : Fin cfg1.N) (h0 : ¬t.val % 37 = 0) :
    (outsAt1 V c t.val t.isLt).2 = k1_pay2 (iblk1 V c 0 t) (iblk1 V c 1 t)
      (outsAt1 V c (t.val - 1) (Nat.lt_of_le_of_lt (Nat.sub_le _ _) t.isLt)).2 := by
  by_cases h1 : t.val % 37 = 36
  · rw [outsAt1_C V c t h0 h1, left1C_acc]
  · rw [outsAt1_B V c t h0 h1, left1B_acc]

/-- What the last step of a tile stores: the accumulator it has just completed, times the row of scales. -/
theorem out1_last (c : Dev nD) (t : Fin cfg1.N) (h1 : t.val % 37 = 36) :
    (outsAt1 V c t.val t.isLt).1 = k1_pay3 (outsAt1 V c t.val t.isLt).2 (iblk1 V c 2 t) := by
  have h0 : ¬t.val % 37 = 0 := by omega
  rw [outsAt1_C V c t h0 h1, left1C_out, left1C_acc]

end steps

section value
variable (V : (c : Dev nD) → (b : Ref sig .tc) → Buf (Elt Ideal) ((c : Thread nD τ).loc b))

/-- Two reads of an array at index pairs with equal coordinates agree. -/
theorem ix2_congr {n0 n1 : ℕ} {α : Type} (A : (⟨2, ![n0, n1]⟩ : Shape).Idx → α) {p p' : Fin n0} {a b : Fin n1}
    (e0 : p.val = p'.val) (e1 : a.val = b.val) : A (ix2 p a) = A (ix2 p' b) := by
  rw [Fin.ext e0, Fin.ext e1]

/-- Step k of output tile n, as a grid point. -/
def pt1 (n : Fin 7) (k : ℕ) (hk : k < 37) : Fin cfg1.N :=
  ⟨37 * n.val + k, Nat.lt_of_lt_of_eq (by have := n.isLt; omega) N_1.symm⟩

theorem pt1_val (n : Fin 7) (k : ℕ) (hk : k < 37) : (pt1 n k hk).val = 37 * n.val + k := rfl

/-- The hidden activation block that step k of tile n reads. -/
def H1 (c : Dev nD) (n : Fin 7) (k : ℕ) : FVec Ideal S4096x512 .bf16 :=
  if hk : k < 37 then iblk1 V c 0 (pt1 n k hk) else fun _ => (0 : EReal)
/-- The weight block that step k of tile n reads. -/
def D1 (c : Dev nD) (n : Fin 7) (k : ℕ) : FVec Ideal S512x512 .f32 :=
  if hk : k < 37 then iblk1 V c 1 (pt1 n k hk) else fun _ => (0 : EReal)
/-- The accumulator after step k of tile n. -/
def acc1 (c : Dev nD) (n : Fin 7) (k : ℕ) : FVec Ideal S4096x512 .f32 :=
  if hk : k < 37 then (outsAt1 V c (pt1 n k hk).val (pt1 n k hk).isLt).2 else fun _ => (0 : EReal)

theorem H1_of_lt (c : Dev nD) (n : Fin 7) (k : ℕ) (hk : k < 37) : H1 V c n k = iblk1 V c 0 (pt1 n k hk) := dif_pos hk
theorem D1_of_lt (c : Dev nD) (n : Fin 7) (k : ℕ) (hk : k < 37) : D1 V c n k = iblk1 V c 1 (pt1 n k hk) := dif_pos hk
theorem acc1_of_lt (c : Dev nD) (n : Fin 7) (k : ℕ) (hk : k < 37) :
    acc1 V c n k = (outsAt1 V c (pt1 n k hk).val (pt1 n k hk).isLt).2 := dif_pos hk

/-- The hidden activation block of step k is column tile k of the hidden activation array. -/
theorem H1_apply (c : Dev nD) (n : Fin 7) (k : ℕ) (hk : k < 37) (p : Fin 4096) (j : Fin 512) :
    H1 V c n k (ix2 p j) = V c main_v2 (ix2 p ⟨512 * k + j.val, by have := j.isLt; omega⟩) := by
  rw [H1_of_lt V c n k hk]
  unfold iblk1
  refine (read1_0 (pt1 n k hk) _ p j).trans ?_
  refine ix2_congr (V c main_v2) rfl ?_
  show 512 * ((37 * n.val + k) % 37) + j.val = 512 * k + j.val
  have e : (37 * n.val + k) % 37 = k := by omega
  rw [e]

/-- The weight block of step k of tile n: rows 512 n + q, column tile k. -/
theorem D1_apply (c : Dev nD) (n : Fin 7) (k : ℕ) (hk : k < 37) (q : Fin 512) (j : Fin 512) :
    D1 V c n k (ix2 q j) = V c main_arg3 (ix2 ⟨512 * n.val + q.val, by have := q.isLt; have := n.isLt; omega⟩
      ⟨512 * k + j.val, by have := j.isLt; omega⟩) := by
  rw [D1_of_lt V c n k hk]
  unfold iblk1
  refine (read1_1 (pt1 n k hk) _ q j).trans ?_
  refine ix2_congr (V c main_arg3) ?_ ?_
  · show 512 * ((37 * n.val + k) / 37) + q.val = 512 * n.val + q.val
    have e : (37 * n.val + k) / 37 = n.val := by omega
    rw [e]
  · show 512 * ((37 * n.val + k) % 37) + j.val = 512 * k + j.val
    have e : (37 * n.val + k) % 37 = k := by omega
    rw [e]

/-- The first step of a tile clears and loads the accumulator. -/
theorem acc1_zero (c : Dev nD) (n : Fin 7) :
    acc1 V c n 0 = k1_pay2 (H1 V c n 0) (D1 V c n 0) (k1_pay1 (F := Ideal)) := by
  rw [acc1_of_lt V c n 0 (by omega), H1_of_lt V c n 0 (by omega), D1_of_lt V c n 0 (by omega)]
  exact acc1_first V c (pt1 n 0 (by omega)) (by rw [pt1_val]; omega)

/-- Every later step adds its products to the accumulator. -/
theorem acc1_succ (c : Dev nD) (n : Fin 7) (k : ℕ) (hk : k + 1 < 37) :
    acc1 V c n (k + 1) = k1_pay2 (H1 V c n (k + 1)) (D1 V c n (k + 1)) (acc1 V c n k) := by
  rw [acc1_of_lt V c n (k + 1) hk, H1_of_lt V c n (k + 1) hk, D1_of_lt V c n (k + 1) hk, acc1_of_lt V c n k (by omega)]
  refine (acc1_step V c (pt1 n (k + 1) hk) (by rw [pt1_val]; omega)).trans ?_
  refine congrArg (fun z => k1_pay2 (iblk1 V c 0 (pt1 n (k + 1) hk)) (iblk1 V c 1 (pt1 n (k + 1) hk)) (Prod.snd z)) ?_
  exact outsAt1_congr V c (by rw [pt1_val, pt1_val]; omega) _ _

/-- What the last step of a tile stores, index by index: the specified down projection. -/
theorem out1_tile (c : Dev nD) (sd : (⟨2, ![3584, 1]⟩ : Shape).Idx → EReal)
    (hs : ∀ n : Fin 3584, V c main_v1 (ix2 (0 : Fin 1) n) = sd (ix2 n (0 : Fin 1)))
    (t : Fin cfg1.N) (h1 : t.val % 37 = 36) (p : Fin 4096) (q : Fin 512) :
    (outsAt1 (F := Ideal) V c t.val t.isLt).1 (ix2 p q)
      = Cert.GatedMlp.downAt (V c main_v2) (V c main_arg3) sd p
          ⟨512 * (t.val / 37) + q.val, by have := q.isLt; have := lt1 t; omega⟩ := by
  have hn : t.val / 37 < 7 := by have := lt1 t; omega
  have e2 : (outsAt1 (F := Ideal) V c t.val t.isLt).2 = acc1 V c ⟨t.val / 37, hn⟩ 36 := by
    rw [acc1_of_lt V c ⟨t.val / 37, hn⟩ 36 (by omega)]
    exact congrArg Prod.snd (outsAt1_congr V c (by rw [pt1_val]; show t.val = 37 * (t.val / 37) + 36; omega) _ _)
  have hS2 : ∀ q : Fin 512, iblk1 V c 2 t (ix2 (0 : Fin 1) q)
      = sd (ix2 ⟨512 * (t.val / 37) + q.val, by have := q.isLt; omega⟩ (0 : Fin 1)) := by
    intro q
    unfold iblk1
    exact (read1_2 t _ (0 : Fin 1) q).trans (hs _)
  rw [out1_last V c t h1, e2]
  exact Cert.KernelIdeal.TileVal.down_tile ⟨t.val / 37, hn⟩ (V c main_v2) (V c main_arg3) sd
    (H1 V c ⟨t.val / 37, hn⟩) (D1 V c ⟨t.val / 37, hn⟩) (iblk1 V c 2 t)
    (fun k hk p j => H1_apply V c _ k hk p j) (fun k hk q j => D1_apply V c _ k hk q j) hS2
    (acc1 V c ⟨t.val / 37, hn⟩) (acc1_zero V c _) (fun k hk => acc1_succ V c _ k hk) p q

/-- THE RESULT ARRAY after the down region: the specified down projection of the hidden activation array, the
    down weight and the scales as the region finds them. -/
theorem arr1_value (c : Dev nD) (sd : (⟨2, ![3584, 1]⟩ : Shape).Idx → EReal)
    (hs : ∀ n : Fin 3584, V c main_v1 (ix2 (0 : Fin 1) n) = sd (ix2 n (0 : Fin 1))) :
    (dat1 (F := Ideal) V c).arrAt 3 cfg1.N = Cert.GatedMlp.down (V c main_v2) (V c main_arg3) sd := by
  refine (dat1 (F := Ideal) V c).arrAt_eq_of_cover 3 (Cert.GatedMlp.down (V c main_v2) (V c main_arg3) sd)
    (fun t hf => ?_) (fun i => cover1_3 i)
  have h1 : t.val % 37 = 36 := (flush1_3 t).1 hf
  show (cfg1.win 3).cut (grid1.coords t) ((dat1 (F := Ideal) V c).after 3 t) = _
  rw [after1_3]
  funext y
  obtain ⟨p, q, rfl⟩ : ∃ (p : Fin 4096) (q : Fin 512), y = ix2 p q := ⟨y 0, y 1, eq_ix2 y⟩
  show (outsAt1 (F := Ideal) V c t.val t.isLt).1 (ix2 p q) = _
  rw [out1_tile V c sd hs t h1 p q]
  have hr := read1_3 (F := Ideal) t (Cert.GatedMlp.down (V c main_v2) (V c main_arg3) sd) p q
  refine Eq.trans ?_ hr.symm
  rfl

end value

end Cert.KernelIdeal.Hand

end
-- ==== Proof.Glue.lean ====
/-
  The result of the accelerator program, in the launch arrays.

  The program transposes the two columns of scales into rows, runs the gate/up region, then the down region. The
  second region finds the row of down scales (the transpose of the launch column), the down weight as launched, and
  as hidden activation array what the first region left: the specified hidden activation of the launch activations,
  the launch stacked weight and the launch column of gate/up scales (the first region found their transpose as a row).
  So the result array ends holding the specified down projection of the specified hidden activation: the specified
  output of the five launch arrays.
-/
import proofs.«151881_j89111981457456_1_alg».proof.Proof.Bounds
import proofs.«151881_j89111981457456_1_alg».proof.Proof.Val0
import proofs.«151881_j89111981457456_1_alg».proof.Proof.Val1
import proofs.«151881_j89111981457456_1_alg».proof.Proof.PayVal
import proofs.«151881_j89111981457456_1_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- After the host operations the row of gate/up scales is the transpose of the column of scales at launch. -/
theorem W1_v0 : (W1 m c (Proc.devRef .tc main_v0) : (⟨2, ![1, 37888]⟩ : Shape).Idx → EReal)
    = transpose S1x37888 [1, 0] (m ((c.tc : Thread nD τ).loc main_arg2)) transposes_S37888x1_S1x37888_1_0 := by
  show StableHlo.after hostOps0 (fun b => m (c, b)) (Proc.devRef .tc main_v0) = _
  after_results

/-- After the host operations the row of down scales is the transpose of the column of scales at launch. -/
theorem W1_v1 : (W1 m c (Proc.devRef .tc main_v1) : (⟨2, ![1, 3584]⟩ : Shape).Idx → EReal)
    = transpose S1x3584 [1, 0] (m ((c.tc : Thread nD τ).loc main_arg4)) transposes_S3584x1_S1x3584_1_0 := by
  show StableHlo.after hostOps0 (fun b => m (c, b)) (Proc.devRef .tc main_v1) = _
  after_results

/-- The row of gate/up scales the first region finds, entry by entry. -/
theorem U1_v0_apply (o : Fin 37888) :
    (U1 m c main_v0 : (⟨2, ![1, 37888]⟩ : Shape).Idx → EReal) (ix2 (0 : Fin 1) o)
      = m ((c.tc : Thread nD τ).loc main_arg2) (ix2 o (0 : Fin 1)) := by
  show (W1 m c (Proc.devRef .tc main_v0) : (⟨2, ![1, 37888]⟩ : Shape).Idx → EReal) (ix2 (0 : Fin 1) o) = _
  rw [W1_v0 m c]
  exact Cert.KernelIdeal.PayVal.tr0 _ o

/-- The row of down scales the second region finds, entry by entry. -/
theorem U2_v1_apply (n : Fin 3584) :
    U2 m c main_v1 (ix2 (0 : Fin 1) n) = m ((c.tc : Thread nD τ).loc main_arg4) (ix2 n (0 : Fin 1)) := by
  have e : W2 m c (Proc.devRef .tc main_v1) = W1 m c (Proc.devRef .tc main_v1) := W2_of_ne m c main_v1 (by decide)
  show (W2 m c (Proc.devRef .tc main_v1) : (⟨2, ![1, 3584]⟩ : Shape).Idx → EReal) (ix2 (0 : Fin 1) n) = _
  rw [e, W1_v1 m c]
  exact Cert.KernelIdeal.PayVal.tr1 _ n

/-- The first region finds the activations as launched. -/
theorem U1_arg0 : U1 m c main_arg0 = m ((c.tc : Thread nD τ).loc main_arg0) := Gen.V1_of m c main_arg0 (by decide)
/-- The first region finds the stacked weight as launched. -/
theorem U1_arg1 : U1 m c main_arg1 = m ((c.tc : Thread nD τ).loc main_arg1) := Gen.V1_of m c main_arg1 (by decide)

/-- The second region finds the down weight as launched. -/
theorem U2_arg3 : U2 m c main_arg3 = m ((c.tc : Thread nD τ).loc main_arg3) :=
  (W2_of_ne m c main_arg3 (by decide)).trans (Gen.V1_of m c main_arg3 (by decide))

/-- The second region finds, as the hidden activation array, the specified hidden activation of the launch arrays. -/
theorem U2_v2 : (U2 m c main_v2 : (⟨2, ![4096, 18944]⟩ : Shape).Idx → EReal)
    = Cert.GatedMlp.hid (m ((c.tc : Thread nD τ).loc main_arg0)) (m ((c.tc : Thread nD τ).loc main_arg1))
        (m ((c.tc : Thread nD τ).loc main_arg2)) := by
  have e := arr0_value (U1 m) c (m ((c.tc : Thread nD τ).loc main_arg2)) (fun o => U1_v0_apply m c o)
  rw [U1_arg0 m c, U1_arg1 m c] at e
  exact (W2_v2 m c).trans e

/-- THE RESULT of the accelerator program: the specified gated perceptron of the five launch arrays. -/
theorem kernel_result :
    ((dat1 (F := Ideal) (U2 m) c).arrAt 3 cfg1.N : (⟨2, ![4096, 3584]⟩ : Shape).Idx → EReal)
      = Cert.GatedMlp.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have e := arr1_value (U2 m) c (m ((c.tc : Thread nD τ).loc main_arg4)) (fun n => U2_v1_apply m c n)
  rw [U2_v2 m c, U2_arg3 m c] at e
  exact e

end Cert.KernelIdeal.Hand

end
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.Arith.lean ====
/-
  Real arithmetic behind the gated perceptron: a scale common to every term of a contraction factors out of the sum
  when all numbers involved are real, and the gated hidden activation of real inputs is real.
-/
import proofs.«151881_j89111981457456_1_alg».proof.Proof.LibReal
import proofs.«151881_j89111981457456_1_alg».proof.Proof.Spec

noncomputable section

namespace Cert.GatedMlp

open Idealize.ShloMosaic Idealize.ShloMosaic.ValueIdx Finset
open Cert.Lib.Real

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real numbers, Σ_k a_k · (b_k · s) = (Σ_k a_k · b_k) · s. -/
theorem sum_mul_scale {ι : Type*} [Fintype ι] (a b : ι → EReal) (s : EReal) (ha : ∀ k, IsReal (a k))
    (hb : ∀ k, IsReal (b k)) (hs : IsReal s) : ∑ k, a k * (b k * s) = (∑ k, a k * b k) * s := by
  choose ra hra using ha
  choose rb hrb using hb
  obtain ⟨rs, rfl⟩ := hs
  obtain rfl : a = fun k => (ra k : EReal) := funext hra
  obtain rfl : b = fun k => (rb k : EReal) := funext hrb
  simp only [← EReal.coe_mul, ← coe_sum]
  rw [Finset.sum_mul]
  exact congrArg _ (Finset.sum_congr rfl fun k _ => by ring)

/-- The logistic function of a real is a real. -/
theorem isReal_logistic {g : EReal} (hg : IsReal g) : IsReal (Ideal.logistic g) := by
  obtain ⟨r, rfl⟩ := hg
  rw [Ideal.logistic_coe]; exact ⟨_, rfl⟩

variable {x : (⟨2, ![4096, 3584]⟩ : Shape).Idx → EReal} {w : (⟨2, ![37888, 3584]⟩ : Shape).Idx → EReal}
  {s : (⟨2, ![37888, 1]⟩ : Shape).Idx → EReal}

/-- A scaled projection of real inputs is real. -/
theorem isReal_proj (hx : AllReal x) (hw : AllReal w) (hs : AllReal s) (t : Fin 4096) (o : Fin 37888) :
    IsReal (proj x w s t o) :=
  (isReal_sum _ _ fun k _ => (hx _).mul (hw _)).mul (hs _)

/-- The gated hidden activation of real inputs is real. -/
theorem isReal_hidAt (hx : AllReal x) (hw : AllReal w) (hs : AllReal s) (t : Fin 4096) (i : Fin 18944) :
    IsReal (hidAt x w s t i) :=
  ((isReal_proj hx hw hs t (lo i)).mul (isReal_logistic (isReal_proj hx hw hs t (lo i)))).mul
    (isReal_proj hx hw hs t (hi i))

/-- The hidden array of real inputs is real at every index. -/
theorem allReal_hid (hx : AllReal x) (hw : AllReal w) (hs : AllReal s) : AllReal (hid x w s) :=
  fun q => isReal_hidAt hx hw hs (q 0) (q 1)

end Cert.GatedMlp

end
-- ==== Proof.RefSpec.lean ====
/-
  The host program computes the gated perceptron of the specification when every input is a real number.

  The host program multiplies each weight row by its scale before the contraction; the specification multiplies the
  contraction by the scale. For real numbers the two agree by distributivity, used once for the stacked gate/up
  projection and once for the down projection (whose left operand, the gated hidden activation, is real because the
  logistic function of a real is real).
-/
import proofs.«151881_j89111981457456_1_alg».proof.Proof.Gen.ReferenceIdeal.Read
import proofs.«151881_j89111981457456_1_alg».proof.Proof.Spec
import proofs.«151881_j89111981457456_1_alg».proof.Proof.LibReal
import proofs.«151881_j89111981457456_1_alg».proof.Proof.Arith
import Idealize.ShloMosaic.Lib.IdealHost

noncomputable section

namespace Cert.ReferenceIdeal.RefSpec

open Cert.ReferenceIdeal Cert.ReferenceIdeal.Read Idealize.ShloMosaic Idealize.ShloMosaic.ValueIdx
open Cert.Lib.Real Cert.GatedMlp

variable (x0 : (⟨S4096x3584, .f32⟩ : BufTy).Contents (Elt Ideal)) (x1 : (⟨S37888x3584, .f32⟩ : BufTy).Contents (Elt Ideal))
  (x2 : (⟨S37888x1, .f32⟩ : BufTy).Contents (Elt Ideal)) (x3 : (⟨S3584x18944, .f32⟩ : BufTy).Contents (Elt Ideal))
  (x4 : (⟨S3584x1, .f32⟩ : BufTy).Contents (Elt Ideal))

/-- The stacked projection of the host program at (t, o): the scale sits inside the contraction. -/
theorem v2_apply (t : Fin 4096) (o : Fin 37888) :
    val_main_v2 (F := Ideal) x0 x1 x2 (ix2 t o)
      = ∑ k : Fin 3584, x0 (ix2 t k) * (x1 (ix2 o k) * x2 (ix2 o (0 : Fin 1))) := by
  rw [val_main_v2_apply]
  refine Finset.sum_congr rfl fun k _ => ?_
  have e1 : lidx_main_v2 (ix2 t o) k = ix2 t k := funext fun a => match a with | ⟨0, _⟩ => rfl | ⟨1, _⟩ => rfl
  have e2 : ridx_main_v2 (ix2 t o) k = ix2 o k := funext fun a => match a with | ⟨0, _⟩ => rfl | ⟨1, _⟩ => rfl
  have e3 : idx_main_v0 (ix2 o k) = ix2 o (0 : Fin 1) := funext fun a => match a with | ⟨0, _⟩ => rfl | ⟨1, _⟩ => rfl
  rw [e1, e2, val_main_v1_apply, val_main_v0_apply, e3, Ideal.mulf_def]

variable {x0 x1 x2 x3 x4}

/-- With real inputs the stacked projection is the specification's: the scale factors out of the contraction. -/
theorem v2_eq_proj (h0 : AllReal x0) (h1 : AllReal x1) (h2 : AllReal x2) (t : Fin 4096) (o : Fin 37888) :
    val_main_v2 (F := Ideal) x0 x1 x2 (ix2 t o) = proj x0 x1 x2 t o := by
  rw [v2_apply]
  exact sum_mul_scale _ _ _ (fun k => h0 _) (fun k => h1 _) (h2 _)

/-- With real inputs the host program's gated hidden activation is the specification's. -/
theorem v6_eq_hidAt (h0 : AllReal x0) (h1 : AllReal x1) (h2 : AllReal x2) (t : Fin 4096) (i : Fin 18944) :
    val_main_v6 (F := Ideal) x0 x1 x2 (ix2 t i) = hidAt x0 x1 x2 t i := by
  have e3 : val_main_v3 (F := Ideal) x0 x1 x2 (ix2 t i) = proj x0 x1 x2 t (lo i) := by
    rw [val_main_v3_apply]
    have e : idx_main_v3 (ix2 t i) = ix2 t (lo i) := funext fun a => match a with | ⟨0, _⟩ => rfl | ⟨1, _⟩ => rfl
    rw [e]; exact v2_eq_proj h0 h1 h2 t (lo i)
  have e4 : val_main_v4 (F := Ideal) x0 x1 x2 (ix2 t i) = proj x0 x1 x2 t (hi i) := by
    rw [val_main_v4_apply]
    have e : idx_main_v4 (ix2 t i) = ix2 t (hi i) := funext fun a => match a with | ⟨0, _⟩ => rfl | ⟨1, _⟩ => rfl
    rw [e]; exact v2_eq_proj h0 h1 h2 t (hi i)
  rw [val_main_v6_apply, val_main_v5_apply, val_main_call0_v5_apply, val_main_call0_v4_apply,
    val_main_call0_cst_0_apply, val_main_call0_v3_apply, val_main_call0_v2_apply, val_main_call0_cst_apply,
    val_main_call0_v1_apply, val_main_call0_v0_apply, e3, e4]
  simp only [Ideal.mulf_def, Ideal.hostDivf_def, Ideal.addf_def, Ideal.hostUnary_exp_def, Ideal.hostNegf_def,
    Ideal.negf_def, Ideal.ofBits_def, Ideal.ofBits_one_f32]
  rfl

/-- The host program's result is the specification's output when all five inputs are real. -/
theorem ref_eq_out (h0 : AllReal x0) (h1 : AllReal x1) (h2 : AllReal x2) (h3 : AllReal x3) (h4 : AllReal x4) :
    val_main_v9 (F := Ideal) x0 x1 x2 x3 x4 = out x0 x1 x2 x3 x4 := by
  funext j
  obtain ⟨t, n, rfl⟩ : ∃ (t : Fin 4096) (n : Fin 3584), j = ix2 t n := ⟨j 0, j 1, eq_ix2 j⟩
  rw [val_main_v9_apply]
  have e : ∀ k : Fin 18944, (val_main_v6 (F := Ideal) x0 x1 x2) (lidx_main_v9 (ix2 t n) k)
      * (val_main_v8 (F := Ideal) x3 x4) (ridx_main_v9 (ix2 t n) k)
      = hidAt x0 x1 x2 t k * (x3 (ix2 n k) * x4 (ix2 n (0 : Fin 1))) := by
    intro k
    have e1 : lidx_main_v9 (ix2 t n) k = ix2 t k := funext fun a => match a with | ⟨0, _⟩ => rfl | ⟨1, _⟩ => rfl
    have e2 : ridx_main_v9 (ix2 t n) k = ix2 n k := funext fun a => match a with | ⟨0, _⟩ => rfl | ⟨1, _⟩ => rfl
    have e3 : idx_main_v7 (ix2 n k) = ix2 n (0 : Fin 1) := funext fun a => match a with | ⟨0, _⟩ => rfl | ⟨1, _⟩ => rfl
    rw [e1, e2, v6_eq_hidAt h0 h1 h2, val_main_v8_apply, val_main_v7_apply, e3, Ideal.mulf_def]
  rw [Finset.sum_congr rfl fun k _ => e k]
  rw [sum_mul_scale _ _ _ (fun k => isReal_hidAt h0 h1 h2 t k) (fun k => h3 _) (h4 _)]
  rfl

end Cert.ReferenceIdeal.RefSpec

end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«151881_j89111981457456_1_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.PreReal.lean ====
/-
  From the printed finiteness precondition to "every entry of each of the five input arrays is a real number".

  The precondition is the conjunction, by "and" of one-bit words, of five all-reduces of the comparisons |a| < +∞,
  stated to be 1. Each conjunct being 1 gives, entry by entry, an extended real of absolute value below +∞, that is
  a real number.
-/
import proofs.«151881_j89111981457456_1_alg».proof.Defs
import proofs.«151881_j89111981457456_1_alg».proof.Proof.Gen.Pre_finite_inputs
import proofs.«151881_j89111981457456_1_alg».proof.Proof.LibFinite
import proofs.«151881_j89111981457456_1_alg».proof.Proof.LibReal

noncomputable section

namespace Cert.PreReal

open Idealize.ShloMosaic Idealize.SL.Sem
open Cert.Lib.Real Cert.Lib.Finite

/-- If the printed predicate is 1 on five arrays, every entry of each array is a real number. -/
theorem allReal_of_fn [hPre_finite_inputs : Cert.Pre_finite_inputs.Facts]
    (a0 : FVec Ideal Cert.Pre_finite_inputs.S4096x3584 .f32) (a1 : FVec Ideal Cert.Pre_finite_inputs.S37888x3584 .f32)
    (a2 : FVec Ideal Cert.Pre_finite_inputs.S37888x1 .f32) (a3 : FVec Ideal Cert.Pre_finite_inputs.S3584x18944 .f32)
    (a4 : FVec Ideal Cert.Pre_finite_inputs.S3584x1 .f32)
    (h : Cert.Pre_finite_inputs.fn (F := Ideal) a0 a1 a2 a3 a4 = fun _ => 1#1) :
    AllReal a0 ∧ AllReal a1 ∧ AllReal a2 ∧ AllReal a3 ∧ AllReal a4 := by
  have h' := congrFun h ValueIdx.ix0
  dsimp only [Cert.Pre_finite_inputs.fn, Cert.Pre_finite_inputs.fn_part1, Idealize.ShloMosaic.andi] at h'
  obtain ⟨h0123, h4⟩ := IntOp.andi_eq_one.1 h'
  obtain ⟨h012, h3⟩ := IntOp.andi_eq_one.1 h0123
  obtain ⟨h01, h2⟩ := IntOp.andi_eq_one.1 h012
  obtain ⟨h0, h1⟩ := IntOp.andi_eq_one.1 h01
  exact ⟨allReal_of_all_finite a0 _ _ _ h0, allReal_of_all_finite a1 _ _ _ h1, allReal_of_all_finite a2 _ _ _ h2,
    allReal_of_all_finite a3 _ _ _ h3, allReal_of_all_finite a4 _ _ _ h4⟩

/-- Under the precondition, on every device each of the five input arrays holds real numbers only. -/
theorem allReal_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4)) :=
  allReal_of_fn _ _ _ _ _ (h c)

end Cert.PreReal

end
-- ==== Proof.lean ====
/-
  A gated two-layer perceptron with per-output-channel weight scales, on the accelerator and on the host.

  The accelerator program computes, tile by tile, gate = (x · wgᵀ) · sg and up = (x · wuᵀ) · su over 14 contraction
  steps of 256 columns, the hidden array h = gate · logistic(gate) · up, and then out = (h · wdᵀ) · sd over 37
  contraction steps of 512 columns: the scale of an output channel is applied once, after the contraction. The host
  program scales each weight row first and contracts afterwards. Over the extended reals the two arrangements are the
  same function when every input is a real number — (Σ_k a_k · b_k) · s = Σ_k a_k · (b_k · s) needs the summands real,
  and the hidden array is real because x · logistic x of a real is real — which the precondition provides; the sums
  taken tile by tile are the whole sums by associativity and commutativity alone. The frames: each program runs to
  the end without a fault and leaves its arguments as launched; for the accelerator program this is the run of its
  two kernel regions over named buffer contents, at the bit-exact reading and at the exact one alike.
-/
import proofs.«151881_j89111981457456_1_alg».proof.Defs
import proofs.«151881_j89111981457456_1_alg».proof.Proof.Gen.Kernel
import proofs.«151881_j89111981457456_1_alg».proof.Proof.Gen.KernelIdeal
import proofs.«151881_j89111981457456_1_alg».proof.Proof.Gen.ReferenceIdeal
import proofs.«151881_j89111981457456_1_alg».proof.Proof.Gen.Pre_finite_inputs
import proofs.«151881_j89111981457456_1_alg».proof.Proof.Gen.ReferenceIdeal.Run
import proofs.«151881_j89111981457456_1_alg».proof.Proof.Gen.ReferenceIdeal.Read
import proofs.«151881_j89111981457456_1_alg».proof.Proof.Run
import proofs.«151881_j89111981457456_1_alg».proof.Proof.BRun
import proofs.«151881_j89111981457456_1_alg».proof.Proof.Glue
import proofs.«151881_j89111981457456_1_alg».proof.Proof.RefSpec
import proofs.«151881_j89111981457456_1_alg».proof.Proof.PreReal
import Idealize.ShloMosaic.Adequacy
import Idealize.ShloMosaic.Init

noncomputable section

namespace Cert.Proof

open Idealize.ShloMosaic Idealize.ShloMosaic.TcCoe Idealize.SL.Sem

/-- The accelerator program as printed runs and leaves its arguments as launched. -/
theorem frame_k : Cert.frame_Kernel := fun m ρ _ =>
  (θ_run Cert.Kernel.defs _ _).mono (fun _ h c => (h c).2) (Cert.Kernel.Hand.run_all (F := Bits) m ρ)

/-- So does its exact reading. -/
theorem frame_ki : Cert.frame_KernelIdeal := fun m ρ _ =>
  (θ_run Cert.KernelIdeal.defs _ _).mono (fun _ h c => (h c).2) (Cert.KernelIdeal.Hand.run_all (F := Ideal) m ρ)

/-- The host program runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The exact reading rewrites no operation of the accelerator program. -/
theorem preserves : Cert.preserves_Kernel_KernelIdeal := trivial

/-- From memories agreeing on the arguments, all real, both programs end with the gated perceptron's result. -/
theorem algebraic : Cert.algebraic_KernelIdeal_ReferenceIdeal := by
  intro m ρ m' ρ' hpre hagree
  refine ⟨fun c => Cert.GatedMlp.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.kernel_result m c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r1, r2, r3, r4⟩ := Cert.PreReal.allReal_of_pre m hpre c
    rw [Cert.ReferenceIdeal.Read.val_main_v9_eq, (hagree c).1, (hagree c).2.1, (hagree c).2.2.1, (hagree c).2.2.2.1, (hagree c).2.2.2.2]
    exact Cert.ReferenceIdeal.RefSpec.ref_eq_out r0 r1 r2 r3 r4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
